-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x50x5 : Shape := ⟨3, ![64, 50, 5]⟩
abbrev S114x1 : Shape := ⟨2, ![114, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x50x5 : S_.BroadcastsInDim S64x50x5 (![] : Fin 0 → Fin S64x50x5.rank)
  reducesTo_S64x50x5_S_d0_1_2 : S64x50x5.ReducesTo [0, 1, 2] S_
  bcast_S_S114x1 : S_.BroadcastsInDim S114x1 (![] : Fin 0 → Fin S114x1.rank)
  reducesTo_S114x1_S_d0_1 : S114x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S114x1 .f32) (main_arg15 : FVec F S1 .f32) (main_v63 : IVec S_ 1) (main_v67 : IVec S_ 1) : IVec S_ 1 :=
  let main_v68 : IVec S_ 1 := andi main_v63 main_v67
  let main_v69 : FVec F S114x1 .f32 := Host.absf main_arg14
  let main_cst_26 : FVec F S_ .f32 := constant S_ .f32 0x7F800000#32
  let main_v70 : FVec F S114x1 .f32 := broadcastInDim S114x1 ![] bcast_S_S114x1 main_cst_26
  let main_v71 : IVec S114x1 1 := cmpf .olt main_v69 main_v70
  let main_c_27 : IVec S_ 1 := constantI S_ 1 1#1
  let main_v72 : IVec S_ 1 := (fun x v => Host.reduce IntOp.andi x v reducesTo_S114x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S64x64 .f32) (main_arg12 : FVec F S64 .f32) (main_arg13 : FVec F S64x50x5 .f32) (main_arg14 : FVec F S114x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x50x5 .f32 := Host.absf main_arg13
  let main_cst_24 : FVec F S_ .f32 := constant S_ .f32 0x7F800000#32
  let main_v65 : FVec F S64x50x5 .f32 := broadcastInDim S64x50x5 ![] bcast_S_S64x50x5 main_cst_24
  let main_v66 : IVec S64x50x5 1 := cmpf .olt main_v64 main_v65
  let main_c_25 : IVec S_ 1 := constantI S_ 1 1#1
  let main_v67 : IVec S_ 1 := (fun x v => Host.reduce IntOp.andi x v reducesTo_S64x50x5_S_d0_1_2 h_S_) main_v66 main_c_25
  fn_part4 (F := F) main_arg14 main_arg15 main_v63 main_v67

def fn_part2 {F : FTy → Type} [FloatOps F] (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x50x5 .f32) (main_arg14 : FVec F S114x1 .f32) (main_arg15 : FVec F S1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x50x5 .f32) (main_arg14 : FVec F S114x1 .f32) (main_arg15 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1024x128 .f32) (main_arg1 : FVec F S128x256 .f32) (main_arg2 : FVec F S256 .f32) (main_arg3 : FVec F S256x128 .f32) (main_arg4 : FVec F S128 .f32) (main_arg5 : FVec F S128 .f32) (main_arg6 : FVec F S128 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x50x5 .f32) (main_arg14 : FVec F S114x1 .f32) (main_arg15 : FVec F S1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1024x128 : Shape := ⟨2, ![1024, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x50x5 : Shape := ⟨3, ![64, 50, 5]⟩
abbrev S114x1 : Shape := ⟨2, ![114, 1]⟩
abbrev S1 : Shape := ⟨1, ![1]⟩
abbrev S64x250 : Shape := ⟨2, ![64, 250]⟩
abbrev S1024x64 : Shape := ⟨2, ![1024, 64]⟩
abbrev S1024x250 : Shape := ⟨2, ![1024, 250]⟩
abbrev S1024x256 : Shape := ⟨2, ![1024, 256]⟩
abbrev S1x256 : Shape := ⟨2, ![1, 256]⟩
abbrev S1x128 : Shape := ⟨2, ![1, 128]⟩
abbrev S1x64 : Shape := ⟨2, ![1, 64]⟩
abbrev S1024x50x5 : Shape := ⟨3, ![1024, 50, 5]⟩
abbrev S64x1 : Shape := ⟨2, ![64, 1]⟩
abbrev S50x1 : Shape := ⟨2, ![50, 1]⟩
abbrev S1x1 : Shape := ⟨2, ![1, 1]⟩
abbrev S50x5x1024 : Shape := ⟨3, ![50, 5, 1024]⟩
abbrev S1024x1 : Shape := ⟨2, ![1024, 1]⟩
abbrev S128x50x5 : Shape := ⟨3, ![128, 50, 5]⟩
abbrev S50x5x128 : Shape := ⟨3, ![50, 5, 128]⟩
abbrev S128x1 : Shape := ⟨2, ![128, 1]⟩
abbrev S128x50 : Shape := ⟨2, ![128, 50]⟩
abbrev S128x50x128 : Shape := ⟨3, ![128, 50, 128]⟩
abbrev S128x50x1 : Shape := ⟨3, ![128, 50, 1]⟩
abbrev S50x1x128 : Shape := ⟨3, ![50, 1, 128]⟩
abbrev S50x128 : Shape := ⟨2, ![50, 128]⟩
abbrev S1x50x128 : Shape := ⟨3, ![1, 50, 128]⟩
abbrev S1024 : Shape := ⟨1, ![1024]⟩

abbrev nBuf : Space → Nat
  | .hbm => 26
  | .vmem => 28
  | .smem => 0
  | _ => 0

abbrev bufTy : (tb : Table) → Fin (tcTables nBuf tb) → BufTy
  | .hbm, ⟨0, _⟩ => ⟨S1024x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x50x5, .f32⟩
  | .hbm, ⟨14, _⟩ => ⟨S114x1, .f32⟩
  | .hbm, ⟨15, _⟩ => ⟨S1, .f32⟩
  | .hbm, ⟨16, _⟩ => ⟨S64x250, .f32⟩
  | .hbm, ⟨17, _⟩ => ⟨S1024x64, .f32⟩
  | .hbm, ⟨18, _⟩ => ⟨S1024x250, .f32⟩
  | .hbm, ⟨19, _⟩ => ⟨S1024x50x5, .f32⟩
  | .hbm, ⟨20, _⟩ => ⟨S64x1, .f32⟩
  | .hbm, ⟨21, _⟩ => ⟨S50x1, .f32⟩
  | .hbm, ⟨22, _⟩ => ⟨S1x1, .f32⟩
  | .hbm, ⟨23, _⟩ => ⟨S50x5x1024, .f32⟩
  | .hbm, ⟨24, _⟩ => ⟨S1024x1, .f32⟩
  | .hbm, ⟨25, _⟩ => ⟨S1024, .f32⟩
  | .local _ .vmem, ⟨0, _⟩ => ⟨S1024x128, .f32⟩
  | .local _ .vmem, ⟨1, _⟩ => ⟨S128x256, .f32⟩
  | .local _ .vmem, ⟨2, _⟩ => ⟨S256, .f32⟩
  | .local _ .vmem, ⟨3, _⟩ => ⟨S256x128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S64x64, .f32⟩
  | .local _ .vmem, ⟨12, _⟩ => ⟨S64, .f32⟩
  | .local _ .vmem, ⟨13, _⟩ => ⟨S64x250, .f32⟩
  | .local _ .vmem, ⟨14, _⟩ => ⟨S1024x64, .f32⟩
  | .local _ .vmem, ⟨15, _⟩ => ⟨S1024x250, .f32⟩
  | .local _ .vmem, ⟨16, _⟩ => ⟨S128x50x5, .f32⟩
  | .local _ .vmem, ⟨17, _⟩ => ⟨S128x50x5, .f32⟩
  | .local _ .vmem, ⟨18, _⟩ => ⟨S50x5x128, .f32⟩
  | .local _ .vmem, ⟨19, _⟩ => ⟨S50x5x128, .f32⟩
  | .local _ .vmem, ⟨20, _⟩ => ⟨S128x64, .f32⟩
  | .local _ .vmem, ⟨21, _⟩ => ⟨S128x64, .f32⟩
  | .local _ .vmem, ⟨22, _⟩ => ⟨S64x1, .f32⟩
  | .local _ .vmem, ⟨23, _⟩ => ⟨S50x1, .f32⟩
  | .local _ .vmem, ⟨24, _⟩ => ⟨S1x1, .f32⟩
  | .local _ .vmem, ⟨25, _⟩ => ⟨S128x1, .f32⟩
  | .local _ .vmem, ⟨26, _⟩ => ⟨S128x1, .f32⟩
  | .local _ .vmem, ⟨27, _⟩ => ⟨S128x50, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x250 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x250 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v68 : BitVec 1 := Scalar.cmpi .eq arg1 c7_i32
  let v69 : BitVec 32 := Scalar.extui v68
  let c0_i32_32 : BitVec 32 := 0#32
  let v70 : BitVec 1 := Scalar.cmpi .ne v69 c0_i32_32
  v70

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x50x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S50x5x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S50x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S64x50x5_S64x250 : S64x50x5.ShapeCasts S64x250
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S128 : S1024x128.Reduces [0] S128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  inb_S64x250_S64x250_0_0 : ∀ a, (![0, 0] : Fin 2 → Nat) a + S64x250.size a ≤ S64x250.size a
  h_S64x250 : 0 < S64x250.numel
  shapeCasts_S64x250_S64x250 : S64x250.ShapeCasts S64x250
  inb_S1024x64_S1024x64_0_0 : ∀ a, (![0, 0] : Fin 2 → Nat) a + S1024x64.size a ≤ S1024x64.size a
  h_S1024x64 : 0 < S1024x64.numel
  inb_S1024x250_S1024x250_0_0 : ∀ a, (![0, 0] : Fin 2 → Nat) a + S1024x250.size a ≤ S1024x250.size a
  h_S1024x250 : 0 < S1024x250.numel
  shapeCasts_S1024x250_S1024x50x5 : S1024x250.ShapeCasts S1024x50x5
  slices_S114x1_S64x1_0_0 : S114x1.Slices ![0, 0] S64x1
  slices_S114x1_S50x1_64_0 : S114x1.Slices ![64, 0] S50x1
  shapeCasts_S1_S1x1 : S1.ShapeCasts S1x1
  transposes_S1024x50x5_S50x5x1024_1_2_0 : S1024x50x5.Transposes [1, 2, 0] S50x5x1024
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S128x50x5_S128x50x1_0_0_0 : ∀ a, (![0, 0, 0] : Fin 3 → Nat) a + S128x50x1.size a ≤ S128x50x5.size a
  h_S128x50x1 : 0 < S128x50x1.numel
  shapeCasts_S128x50x1_S128x50 : S128x50x1.ShapeCasts S128x50
  inb_S50x5x128_S50x1x128_0_0_0 : ∀ a, (![0, 0, 0] : Fin 3 → Nat) a + S50x1x128.size a ≤ S50x5x128.size a
  h_S50x1x128 : 0 < S50x1x128.numel
  shapeCasts_S50x1x128_S50x128 : S50x1x128.ShapeCasts S50x128
  shapeCasts_S128x50_S128x50x1 : S128x50.ShapeCasts S128x50x1
  shapeCasts_S50x128_S1x50x128 : S50x128.ShapeCasts S1x50x128
  broadcasts_S128x50x1_S128x50x128 : S128x50x1.Broadcasts S128x50x128
  broadcasts_S1x50x128_S128x50x128 : S1x50x128.Broadcasts S128x50x128
  inb_S128x50x5_S128x50x1_0_0_1 : ∀ a, (![0, 0, 1] : Fin 3 → Nat) a + S128x50x1.size a ≤ S128x50x5.size a
  inb_S50x5x128_S50x1x128_0_1_0 : ∀ a, (![0, 1, 0] : Fin 3 → Nat) a + S50x1x128.size a ≤ S50x5x128.size a
  inb_S128x50x5_S128x50x1_0_0_2 : ∀ a, (![0, 0, 2] : Fin 3 → Nat) a + S128x50x1.size a ≤ S128x50x5.size a
  inb_S50x5x128_S50x1x128_0_2_0 : ∀ a, (![0, 2, 0] : Fin 3 → Nat) a + S50x1x128.size a ≤ S50x5x128.size a
  inb_S128x50x5_S128x50x1_0_0_3 : ∀ a, (![0, 0, 3] : Fin 3 → Nat) a + S128x50x1.size a ≤ S128x50x5.size a
  inb_S50x5x128_S50x1x128_0_3_0 : ∀ a, (![0, 3, 0] : Fin 3 → Nat) a + S50x1x128.size a ≤ S50x5x128.size a
  inb_S128x50x5_S128x50x1_0_0_4 : ∀ a, (![0, 0, 4] : Fin 3 → Nat) a + S128x50x1.size a ≤ S128x50x5.size a
  inb_S50x5x128_S50x1x128_0_4_0 : ∀ a, (![0, 4, 0] : Fin 3 → Nat) a + S50x1x128.size a ≤ S50x5x128.size a
  reduces_S128x50x128_S128x50 : S128x50x128.Reduces [2] S128x50
  shapeCasts_S128x64_S128x64 : S128x64.ShapeCasts S128x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S1024x1_S1024 : S1024x1.ShapeCasts S1024
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x250_S1024x250_1_0_0_1_n_n_wf : DotDims.WF S1024x64 S64x250 S1024x250 [1] [0] [0] [1] [] []
  dot_S128x64_S64x1_S128x1_1_0_0_1_n_n_wf : DotDims.WF S128x64 S64x1 S128x1 [1] [0] [0] [1] [] []
  dot_S128x50_S50x1_S128x1_1_0_0_1_n_n_wf : DotDims.WF S128x50 S50x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x250.size a ≤ S64x250.size a
  hwx0_13 : ∀ i : grid0.Coords, EltTy.bits .f32 = 32 ∨ (Rect.block (s := S64x250) S64x250.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x64.size a ≤ S1024x64.size a
  hwx0_14 : ∀ i : grid0.Coords, EltTy.bits .f32 = 32 ∨ (Rect.block (s := S1024x64) S1024x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x250.size a ≤ S1024x250.size a
  hwx0_15 : ∀ i : grid0.Coords, EltTy.bits .f32 = 32 ∨ (Rect.block (s := S1024x250) S1024x250.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x50x5.size a ≤ S1024x50x5.size a
  hwx1_0 : ∀ i : grid1.Coords, EltTy.bits .f32 = 32 ∨ (Rect.block (s := S1024x50x5) S128x50x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S50x5x128.size a ≤ S50x5x1024.size a
  hwx1_1 : ∀ i : grid1.Coords, EltTy.bits .f32 = 32 ∨ (Rect.block (s := S50x5x1024) S50x5x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S1024x64.size a
  hwx1_2 : ∀ i : grid1.Coords, EltTy.bits .f32 = 32 ∨ (Rect.block (s := S1024x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x1.size a ≤ S50x1.size a
  hwx1_4 : ∀ i : grid1.Coords, EltTy.bits .f32 = 32 ∨ (Rect.block (s := S50x1) S50x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S1024x1.size a
  hwx1_6 : ∀ i : grid1.Coords, EltTy.bits .f32 = 32 ∨ (Rect.block (s := S1024x1) S128x1.size (cc1_transform_6 i) (hinb1_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x250_S1024x250_1_0_0_1_n_n : DotDims S1024x64 S64x250 S1024x250 where
  lhsContracting := [1]
  rhsContracting := [0]
  lhsNonContracting := [0]
  rhsNonContracting := [1]
  lhsBatch := []
  rhsBatch := []
  wf := dot_S1024x64_S64x250_S1024x250_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf
def dot_S128x50_S50x1_S128x1_1_0_0_1_n_n : DotDims S128x50 S50x1 S128x1 where
  lhsContracting := [1]
  rhsContracting := [0]
  lhsNonContracting := [0]
  rhsNonContracting := [1]
  lhsBatch := []
  rhsBatch := []
  wf := dot_S128x50_S50x1_S128x1_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S64x250.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1_0) S1024x64.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1_1) S1024x250.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v2) S128x50x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S50x5x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S50x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S128x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1024x128 : Shape := ⟨2, ![1024, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x50x5 : Shape := ⟨3, ![64, 50, 5]⟩
abbrev S114x1 : Shape := ⟨2, ![114, 1]⟩
abbrev S1 : Shape := ⟨1, ![1]⟩
abbrev S1024x256 : Shape := ⟨2, ![1024, 256]⟩
abbrev S1x256 : Shape := ⟨2, ![1, 256]⟩
abbrev S_ : Shape := ⟨0, ![]⟩
abbrev S1x128 : Shape := ⟨2, ![1, 128]⟩
abbrev S1024x64 : Shape := ⟨2, ![1024, 64]⟩
abbrev S1x64 : Shape := ⟨2, ![1, 64]⟩
abbrev S64x250 : Shape := ⟨2, ![64, 250]⟩
abbrev S1024x250 : Shape := ⟨2, ![1024, 250]⟩
abbrev S1024x50x5 : Shape := ⟨3, ![1024, 50, 5]⟩
abbrev S1024x1x50x5 : Shape := ⟨4, ![1024, 1, 50, 5]⟩
abbrev S1x1024x50x5 : Shape := ⟨4, ![1, 1024, 50, 5]⟩
abbrev S1024x1024x50x5 : Shape := ⟨4, ![1024, 1024, 50, 5]⟩
abbrev S1024x1024x50 : Shape := ⟨3, ![1024, 1024, 50]⟩
abbrev S1024x50 : Shape := ⟨2, ![1024, 50]⟩
abbrev S1024x114 : Shape := ⟨2, ![1024, 114]⟩
abbrev S1024x1 : Shape := ⟨2, ![1024, 1]⟩
abbrev S1x1 : Shape := ⟨2, ![1, 1]⟩
abbrev S1024 : Shape := ⟨1, ![1024]⟩

abbrev nBuf : Space → Nat
  | .hbm => 112
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x50x5, .f32⟩
  | .hbm, ⟨14, _⟩ => ⟨S114x1, .f32⟩
  | .hbm, ⟨15, _⟩ => ⟨S1, .f32⟩
  | .hbm, ⟨16, _⟩ => ⟨S1024x256, .f32⟩
  | .hbm, ⟨17, _⟩ => ⟨S1x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .i1⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x128, .f32⟩
  | .hbm, ⟨28, _⟩ => ⟨S1x128, .f32⟩
  | .hbm, ⟨29, _⟩ => ⟨S1024x128, .f32⟩
  | .hbm, ⟨30, _⟩ => ⟨S1024x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1024x128, .f32⟩
  | .hbm, ⟨54, _⟩ => ⟨S1024x128, .f32⟩
  | .hbm, ⟨55, _⟩ => ⟨S1x128, .f32⟩
  | .hbm, ⟨56, _⟩ => ⟨S1024x128, .f32⟩
  | .hbm, ⟨57, _⟩ => ⟨S1024x128, .f32⟩
  | .hbm, ⟨58, _⟩ => ⟨S1x128, .f32⟩
  | .hbm, ⟨59, _⟩ => ⟨S1024x128, .f32⟩
  | .hbm, ⟨60, _⟩ => ⟨S1024x128, .f32⟩
  | .hbm, ⟨61, _⟩ => ⟨S_, .f32⟩
  | .hbm, ⟨62, _⟩ => ⟨S1024x128, .f32⟩
  | .hbm, ⟨63, _⟩ => ⟨S1024x128, .i1⟩
  | .hbm, ⟨64, _⟩ => ⟨S_, .f32⟩
  | .hbm, ⟨65, _⟩ => ⟨S1024x128, .f32⟩
  | .hbm, ⟨66, _⟩ => ⟨S1024x128, .f32⟩
  | .hbm, ⟨67, _⟩ => ⟨S1024x128, .f32⟩
  | .hbm, ⟨68, _⟩ => ⟨S1024x64, .f32⟩
  | .hbm, ⟨69, _⟩ => ⟨S1x64, .f32⟩
  | .hbm, ⟨70, _⟩ => ⟨S1024x64, .f32⟩
  | .hbm, ⟨71, _⟩ => ⟨S1024x64, .f32⟩
  | .hbm, ⟨72, _⟩ => ⟨S_, .f32⟩
  | .hbm, ⟨73, _⟩ => ⟨S1024x64, .f32⟩
  | .hbm, ⟨74, _⟩ => ⟨S1024x64, .i1⟩
  | .hbm, ⟨75, _⟩ => ⟨S_, .f32⟩
  | .hbm, ⟨76, _⟩ => ⟨S1024x64, .f32⟩
  | .hbm, ⟨77, _⟩ => ⟨S1024x64, .f32⟩
  | .hbm, ⟨78, _⟩ => ⟨S1024x64, .f32⟩
  | .hbm, ⟨79, _⟩ => ⟨S1024x64, .f32⟩
  | .hbm, ⟨80, _⟩ => ⟨S1x64, .f32⟩
  | .hbm, ⟨81, _⟩ => ⟨S1024x64, .f32⟩
  | .hbm, ⟨82, _⟩ => ⟨S1024x64, .f32⟩
  | .hbm, ⟨83, _⟩ => ⟨S1024x64, .f32⟩
  | .hbm, ⟨84, _⟩ => ⟨S1024x64, .f32⟩
  | .hbm, ⟨85, _⟩ => ⟨S1x64, .f32⟩
  | .hbm, ⟨86, _⟩ => ⟨S1024x64, .f32⟩
  | .hbm, ⟨87, _⟩ => ⟨S1024x64, .f32⟩
  | .hbm, ⟨88, _⟩ => ⟨S64x250, .f32⟩
  | .hbm, ⟨89, _⟩ => ⟨S1024x250, .f32⟩
  | .hbm, ⟨90, _⟩ => ⟨S1024x50x5, .f32⟩
  | .hbm, ⟨91, _⟩ => ⟨S1024x1x50x5, .f32⟩
  | .hbm, ⟨92, _⟩ => ⟨S1x1024x50x5, .f32⟩
  | .hbm, ⟨93, _⟩ => ⟨S1024x1024x50x5, .f32⟩
  | .hbm, ⟨94, _⟩ => ⟨S1024x1024x50x5, .f32⟩
  | .hbm, ⟨95, _⟩ => ⟨S1024x1024x50x5, .f32⟩
  | .hbm, ⟨96, _⟩ => ⟨S1024x1024x50x5, .f32⟩
  | .hbm, ⟨97, _⟩ => ⟨S_, .f32⟩
  | .hbm, ⟨98, _⟩ => ⟨S1024x1024x50, .f32⟩
  | .hbm, ⟨99, _⟩ => ⟨S1024x1024x50, .f32⟩
  | .hbm, ⟨100, _⟩ => ⟨S1024x1024x50, .f32⟩
  | .hbm, ⟨101, _⟩ => ⟨S_, .f32⟩
  | .hbm, ⟨102, _⟩ => ⟨S1024x50, .f32⟩
  | .hbm, ⟨103, _⟩ => ⟨S_, .f32⟩
  | .hbm, ⟨104, _⟩ => ⟨S1024x50, .f32⟩
  | .hbm, ⟨105, _⟩ => ⟨S1024x50, .f32⟩
  | .hbm, ⟨106, _⟩ => ⟨S1024x114, .f32⟩
  | .hbm, ⟨107, _⟩ => ⟨S1024x1, .f32⟩
  | .hbm, ⟨108, _⟩ => ⟨S1x1, .f32⟩
  | .hbm, ⟨109, _⟩ => ⟨S1024x1, .f32⟩
  | .hbm, ⟨110, _⟩ => ⟨S1024x1, .f32⟩
  | .hbm, ⟨111, _⟩ => ⟨S1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S128_d0 : S1024x128.ReducesTo [0] S128
  h_S_ : 0 < S_.numel
  bcast_S_S128 : S_.BroadcastsInDim S128 (![] : Fin 0 → Fin S128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  shapeCasts_S64x50x5_S64x250 : S64x50x5.ShapeCasts S64x250
  shapeCasts_S1024x250_S1024x50x5 : S1024x250.ShapeCasts S1024x50x5
  bcast_S1024x50x5_S1024x1x50x5_0_2_3 : S1024x50x5.BroadcastsInDim S1024x1x50x5 (![0, 2, 3] : Fin 3 → Fin S1024x1x50x5.rank)
  bcast_S1024x50x5_S1x1024x50x5_1_2_3 : S1024x50x5.BroadcastsInDim S1x1024x50x5 (![1, 2, 3] : Fin 3 → Fin S1x1024x50x5.rank)
  bcast_S1024x1x50x5_S1024x1024x50x5_0_1_2_3 : S1024x1x50x5.BroadcastsInDim S1024x1024x50x5 (![0, 1, 2, 3] : Fin 4 → Fin S1024x1024x50x5.rank)
  bcast_S1x1024x50x5_S1024x1024x50x5_0_1_2_3 : S1x1024x50x5.BroadcastsInDim S1024x1024x50x5 (![0, 1, 2, 3] : Fin 4 → Fin S1024x1024x50x5.rank)
  reducesTo_S1024x1024x50x5_S1024x1024x50_d3 : S1024x1024x50x5.ReducesTo [3] S1024x1024x50
  reducesTo_S1024x1024x50_S1024x50_d0 : S1024x1024x50.ReducesTo [0] S1024x50
  bcast_S_S1024x50 : S_.BroadcastsInDim S1024x50 (![] : Fin 0 → Fin S1024x50.rank)
  concatenates_S1024x64_S1024x50_S1024x114_d1 : Shape.Concatenates [S1024x64, S1024x50] S1024x114 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x250_S1024x250_1_0_0_1_n_n_wf : DotDims.WF S1024x64 S64x250 S1024x250 [1] [0] [0] [1] [] []
  dot_S1024x114_S114x1_S1024x1_1_0_0_1_n_n_wf : DotDims.WF S1024x114 S114x1 S1024x1 [1] [0] [0] [1] [] []

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x250_S1024x250_1_0_0_1_n_n : DotDims S1024x64 S64x250 S1024x250 where
  lhsContracting := [1]
  rhsContracting := [0]
  lhsNonContracting := [0]
  rhsNonContracting := [1]
  lhsBatch := []
  rhsBatch := []
  wf := dot_S1024x64_S64x250_S1024x250_1_0_0_1_n_n_wf
def dot_S1024x114_S114x1_S1024x1_1_0_0_1_n_n : DotDims S1024x114 S114x1 S1024x1 where
  lhsContracting := [1]
  rhsContracting := [0]
  lhsNonContracting := [0]
  rhsNonContracting := [1]
  lhsBatch := []
  rhsBatch := []
  wf := dot_S1024x114_S114x1_S1024x1_1_0_0_1_n_n_wf

class Facts : Prop extends Facts₀ where

variable [Facts]
-- ==== Proof.K.R0.lean ====
/- Region 0 of @main: the gridless backbone call (pipeline 0, one grid point, sixteen windows — fourteen inputs and
   the two outputs h [1024,64] and Mflat [1024,250]). Every load and every store of its body is of a whole staging buffer,
   so what the body leaves in an output buffer is the stored payload, a pure function of the fourteen input blocks. This
   module states the windows' blocks at the region's entry contents, what the body leaves in each output buffer, the
   body's triple, the pipeline's proof data and the library's body obligation. -/
import proofs.«145154_j42898133352735_2_alg».proof.Proof.Gen.Kernel.Launch
import proofs.«145154_j42898133352735_2_alg».proof.Proof.Gen.Kernel.Skeleton
import proofs.«145154_j42898133352735_2_alg».proof.Proof.Gen.Kernel.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not, for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not, for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not, for any proof data whose
    array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not, for any proof data whose
    array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not, for any proof data whose
    array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not, for any proof data whose
    array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not, for any proof data whose
    array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not, for any proof data whose
    array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not, for any proof data whose
    array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not, for any proof data whose
    array is `V`'s and whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, fetched there or not, for any proof data whose
    array is `V`'s and whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, fetched there or not, for any proof data whose
    array is `V`'s and whose body leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's staging buffer holds its block at every point, fetched there or not, for any proof data whose
    array is `V`'s and whose body leaves the block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer, the unit rectangle at zero offsets of the buffer's own sizes -/

abbrev r_S1024x128 : Rect S1024x128 := Rect.unit (s := S1024x128) ![0, 0] S1024x128.size inb_S1024x128_S1024x128_0_0
abbrev r_S128x256 : Rect S128x256 := Rect.unit (s := S128x256) ![0, 0] S128x256.size inb_S128x256_S128x256_0_0
abbrev r_S256 : Rect S256 := Rect.unit (s := S256) ![0] S256.size inb_S256_S256_0
abbrev r_S256x128 : Rect S256x128 := Rect.unit (s := S256x128) ![0, 0] S256x128.size inb_S256x128_S256x128_0_0
abbrev r_S128 : Rect S128 := Rect.unit (s := S128) ![0] S128.size inb_S128_S128_0
abbrev r_S128x64 : Rect S128x64 := Rect.unit (s := S128x64) ![0, 0] S128x64.size inb_S128x64_S128x64_0_0
abbrev r_S64 : Rect S64 := Rect.unit (s := S64) ![0] S64.size inb_S64_S64_0
abbrev r_S64x64 : Rect S64x64 := Rect.unit (s := S64x64) ![0, 0] S64x64.size inb_S64x64_S64x64_0_0
abbrev r_S64x250 : Rect S64x250 := Rect.unit (s := S64x250) ![0, 0] S64x250.size inb_S64x250_S64x250_0_0
abbrev r_S1024x64 : Rect S1024x64 := Rect.unit (s := S1024x64) ![0, 0] S1024x64.size inb_S1024x64_S1024x64_0_0
abbrev r_S1024x250 : Rect S1024x250 := Rect.unit (s := S1024x250) ![0, 0] S1024x250.size inb_S1024x250_S1024x250_0_0

theorem hz1 : (![0] : Fin 1 → Nat) = fun _ => 0 := funext fun a => by fin_cases a <;> rfl
theorem hz2 : (![0, 0] : Fin 2 → Nat) = fun _ => 0 := funext fun a => by fin_cases a <;> rfl

/-! ## What the body leaves in each output window's buffer -/

/-- Window 14's staging buffer (h) after the body, from the input windows' blocks: its one store as a piece. -/
def out0_14 (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x64 .f32 :=
  View.canon [⟨r_S1024x64, k0_pay3 (k0_pay2 (View.ld x0 r_S1024x128) (View.ld x1 r_S128x256) (View.ld x2 r_S256) (View.ld x3 r_S256x128) (View.ld x4 r_S128)) (View.ld x5 r_S128) (View.ld x6 r_S128) (View.ld x7 r_S128x64) (View.ld x8 r_S64) (View.ld x9 r_S64x64) (View.ld x10 r_S64) (View.ld x11 r_S64x64) (View.ld x12 r_S64)⟩]

/-- Window 15's staging buffer (Mflat) after the body, from the input windows' blocks: its one store as a piece. -/
def out0_15 (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x250 .f32 :=
  View.canon [⟨r_S1024x250, k0_pay1 (k0_pay4 (k0_pay2 (View.ld x0 r_S1024x128) (View.ld x1 r_S128x256) (View.ld x2 r_S256) (View.ld x3 r_S256x128) (View.ld x4 r_S128)) (View.ld x5 r_S128) (View.ld x6 r_S128) (View.ld x7 r_S128x64) (View.ld x8 r_S64) (View.ld x9 r_S64x64) (View.ld x10 r_S64) (View.ld x11 r_S64x64) (View.ld x12 r_S64)) (View.ld x13 r_S64x250)⟩]

/-- The one store covers the buffer. -/
theorem cover0_14 (p0 : Vec F S1024x64 .f32) (y : S1024x64.Idx) :
    ∃ pc ∈ ([⟨r_S1024x64, p0⟩] : List (View.Piece (Elt F) S1024x64 .f32)), y ∈ pc.1.set :=
  ⟨_, List.mem_singleton_self _, View.mem_set_unit_zero hz2 inb_S1024x64_S1024x64_0_0 y⟩
theorem cover0_15 (p0 : Vec F S1024x250 .f32) (y : S1024x250.Idx) :
    ∃ pc ∈ ([⟨r_S1024x250, p0⟩] : List (View.Piece (Elt F) S1024x250 .f32)), y ∈ pc.1.set :=
  ⟨_, List.mem_singleton_self _, View.mem_set_unit_zero hz2 inb_S1024x250_S1024x250_0_0 y⟩

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S64x64 .f32) (harg12 : arg12.IsWhole) (arg13 : Memref sig .tc .vmem S64 .f32) (harg13 : arg13.IsWhole) (arg14 : Memref sig .tc .vmem S64x250 .f32) (harg14 : arg14.IsWhole) (arg15 : Memref sig .tc .vmem S1024x64 .f32) (harg15 : arg15.IsWhole) (arg16 : Memref sig .tc .vmem S1024x250 .f32) (harg16 : arg16.IsWhole)
    (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_backbone_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_backbone_kernel_eq_skeleton]; unfold cc0_backbone_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover0_14 _)
  iexists _; isplitr
  swap; · iexact H15
  ipureintro
  try dsimp only
  exact View.read_writes_eq_canon _ _ _ (cover0_15 _)

/-! ## The pipeline's proof data -/

/-- The proof data of pipeline 0 on core `c`: the arrays as the region finds them (`V`); after the body at point `t`
    each input's buffer at its block and each output's at `out0_W` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 1000000 in
/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs as the skeleton's payloads -/

/-- A load of a whole buffer reads its contents and the one whole-buffer store leaves its payload: the buffer of window
    14 holds the payload of `%82` of the input blocks. -/
theorem out0_14_eq (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) :
    out0_14 x0 x1 x2 x3 x4 x5 x6 x7 x8 x9 x10 x11 x12 x13 = k0_pay3 (k0_pay2 x0 x1 x2 x3 x4) x5 x6 x7 x8 x9 x10 x11 x12 := by
  unfold out0_14
  rw [View.canon_unit_zero (S := S1024x64) hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]

/-- Likewise the buffer of window 15 holds the payload of `%87` of the input blocks. -/
theorem out0_15_eq (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) :
    out0_15 x0 x1 x2 x3 x4 x5 x6 x7 x8 x9 x10 x11 x12 x13 = k0_pay1 (k0_pay4 (k0_pay2 x0 x1 x2 x3 x4) x5 x6 x7 x8 x9 x10 x11 x12) x13 := by
  unfold out0_15
  rw [View.canon_unit_zero (S := S1024x250) hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]

end Cert.Kernel.Hand

end
-- ==== Proof.K.R1Runs.lean ====
import proofs.«145154_j42898133352735_2_alg».proof.Proof.Gen.Kernel.Launch
import proofs.«145154_j42898133352735_2_alg».proof.Proof.Gen.Kernel.Skeleton
import proofs.«145154_j42898133352735_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the all-pairs kernel, pipeline 1) at the entry contents `V`: what its three cases' runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The first conditional's condition (the key-tile coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the key-tile coordinate is 7), from the grid coordinates. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- At the points of case A (key tile 0) the output window is idle and is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At the points of case B (key tiles 1…6) likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the points of case C (key tile 7) the output window is live: the case stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of the output window, through which its contents are stated (the choice does not matter). -/
abbrev VO1_6 : View sig .tc .vmem S128x1 .f32 := (Memref.whole cc1_stg6_0 : Memref sig .tc .vmem S128x1 .f32).view
abbrev ms1_0 (t : Fin cfg1.N) : Memref sig .tc .vmem S128x50x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S50x5x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S50x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, carried between points. -/
abbrev scM1_0 : Memref sig .tc .vmem S128x50 .f32 := Memref.whole cc1_scratch0
/-- The same as a view: what it holds is stated through it. -/
abbrev VS1_0 : View sig .tc .vmem S128x50 .f32 := scM1_0.view

/-! ## The region invariant's other scoped buffers -/

/-- The core's scoped buffers that region 1 never touches (the first region's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f))

/-- The class's invariant, opened: the untouched buffers, the scratch at some contents, the generator register. -/
theorem PhiA1_elim (c : Dev nD) :
    (Pipeline.ΦA spec1 c : sProp 𝕄) ⊢ iprop(rest1 c ∗ (∃ d, owns (c : Thread nD τ) scM1_0 fullShare d) ∗ (∃ r, prngReg c r)) := by
  unfold Pipeline.ΦA rest1; rw [scopedRest1_eq]; simp only [scM1_0, owns_whole]
  iintro ⟨⟨R0, R1, R2, R3, R4, R5, R6, R7, R8, R9, R10, R11, R12, R13, R14, R15, HS⟩, Hg⟩
  isplitl [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  isplitl [HS]; · iexact HS
  iexact Hg

/-- and closed again. -/
theorem PhiA1_intro (c : Dev nD) :
    iprop(rest1 c ∗ (∃ d, owns (c : Thread nD τ) scM1_0 fullShare d) ∗ (∃ r, prngReg c r)) ⊢ (Pipeline.ΦA spec1 c : sProp 𝕄) := by
  unfold Pipeline.ΦA rest1; rw [scopedRest1_eq]; simp only [scM1_0, owns_whole]
  iintro ⟨⟨R0, R1, R2, R3, R4, R5, R6, R7, R8, R9, R10, R11, R12, R13, R14, R15⟩, HS, Hg⟩
  isplitl [R0 R1 R2 R3 R4 R5 R6 R7 R8 R9 R10 R11 R12 R13 R14 R15 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact HS
  iexact Hg

end Cert.Kernel.Hand

end
-- ==== Proof.K.R1A.lean ====
import proofs.«145154_j42898133352735_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the accumulator, as pieces (last first), in
    case A (key tile 0: the accumulator is zeroed, then this tile's sums are added; the output is not stored), with the proof that on whole staging memrefs — the
    inputs' at their contents, the output's at contents handed back untouched, the accumulator at anything — the body runs to the
    continuation holding the inputs' as they were and each stored buffer with its pieces written. The pieces are the
    witness the run finds. -/
noncomputable def kernelRun1_A (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) :
    Σ' (L6 : List (View.Piece (Elt F) S128x1 .f32)), { LS0 : List (View.Piece (Elt F) S128x50 .f32) //
      ∀ (xi6 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_mbd_kernel i arg2 harg2 arg3 harg3 arg4 harg4 arg5 harg5 arg6 harg6 arg7 harg7 arg8 harg8 arg9 harg9) K } := by
  refine ⟨[], ?_, fun xi6 E K => ?run⟩
  case run =>
    simp only [cc1_mbd_kernel_eq_skeleton]; unfold cc1_mbd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R1B.lean ====
import proofs.«145154_j42898133352735_2_alg».proof.Proof.K.R1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the accumulator, as pieces (last first), in
    case B (key tiles 1…6: this tile's sums are added; the output is not stored), with the proof that on whole staging memrefs — the
    inputs' at their contents, the output's at contents handed back untouched, the accumulator at what the point before left — the body runs to the
    continuation holding the inputs' as they were and each stored buffer with its pieces written. The pieces are the
    witness the run finds. -/
noncomputable def kernelRun1_B (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    Σ' (L6 : List (View.Piece (Elt F) S128x1 .f32)), { LS0 : List (View.Piece (Elt F) S128x50 .f32) //
      ∀ (xi6 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_mbd_kernel i arg2 harg2 arg3 harg3 arg4 harg4 arg5 harg5 arg6 harg6 arg7 harg7 arg8 harg8 arg9 harg9) K } := by
  refine ⟨[], ?_, fun xi6 E K => ?run⟩
  case run =>
    simp only [cc1_mbd_kernel_eq_skeleton]; unfold cc1_mbd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R1C.lean ====
import proofs.«145154_j42898133352735_2_alg».proof.Proof.K.R1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the accumulator, as pieces (last first), in
    case C (key tile 7: this tile's sums are added and the score is stored), with the proof that on whole staging memrefs — the
    inputs' at their contents, the output's at anything, the accumulator at what the point before left — the body runs to the
    continuation holding the inputs' as they were and each stored buffer with its pieces written. The pieces are the
    witness the run finds. -/
noncomputable def kernelRun1_C (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    Σ' (L6 : List (View.Piece (Elt F) S128x1 .f32)), { LS0 : List (View.Piece (Elt F) S128x50 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_mbd_kernel i arg2 harg2 arg3 harg3 arg4 harg4 arg5 harg5 arg6 harg6 arg7 harg7 arg8 harg8 arg9 harg9) K } := by
  refine ⟨?_, ?_, fun E K => ?run⟩
  case run =>
    simp only [cc1_mbd_kernel_eq_skeleton]; unfold cc1_mbd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.R1.lean ====
import proofs.«145154_j42898133352735_2_alg».proof.Proof.K.R1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: what each case leaves, the point-by-point accumulation, the proof data, the body obligation -/

/-- Case A stores nothing into the output window (idle at its points and not written back there): no pieces — a
    placeholder nothing consults. -/
def out1_A_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) : Vec F S128x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's stores into the accumulator cover it (each is the whole buffer). -/
theorem scover1_A_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (y : S128x50.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S128x50.size (by sl_kernel_rfl) y

/-- What case A leaves in the accumulator: its pieces read back over junk. -/
def sout1_A_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) : Vec F S128x50 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- Case B stores nothing into the output window (idle at its points and not written back there): no pieces — a
    placeholder nothing consults. -/
def out1_B_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's stores into the accumulator cover it (each is the whole buffer). -/
theorem scover1_B_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) (y : S128x50.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S128x50.size (by sl_kernel_rfl) y

/-- What case B leaves in the accumulator: its pieces read back over junk. -/
def sout1_B_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x50 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Case C's one store into the output window covers its block. -/
theorem cover1_C_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) (y : S128x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S128x1.size (by sl_kernel_rfl) y

/-- What case C leaves in the output window's staging buffer: its pieces read back over junk. -/
def out1_C_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's stores into the accumulator cover it (each is the whole buffer). -/
theorem scover1_C_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) (y : S128x50.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S128x50.size (by sl_kernel_rfl) y

/-- What case C leaves in the accumulator: its pieces read back over junk. -/
def sout1_C_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x50 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the output window and the accumulator hold after each point -/

/-- THE ACCUMULATION. What the output window's staging buffer and the accumulator hold after the body at position `n`:
    the case the closed forms select at `n`, run at the point's memrefs and input blocks, the accumulator (cases B, C)
    at what position `n - 1` left. -/
def outsAt1 (c : Dev nD) : (n : ℕ) → n < cfg1.N → Vec F S128x1 .f32 × Vec F S128x50 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The class's invariant as the untouched buffers, the accumulator at some contents, and the generator register. -/
theorem PhiA1_eq (c : Dev nD) :
    (Pipeline.ΦA spec1 c : sProp 𝕄) = iprop(rest1 (F := F) c ∗ (∃ d, owns (c : Thread nD τ) scM1_0 fullShare d) ∗ (∃ r, prngReg c r)) :=
  Entails.antisymm (PhiA1_elim c) (PhiA1_intro c)

/-- The region invariant before position `n`: before the first point the class's (the accumulator at anything);
    afterwards the accumulator at what the point before left in it (`outsAt1`'s second component), the untouched
    buffers and the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1 (F := F) c ∗ owns (c : Thread nD τ) scM1_0 fullShare ((outsAt1 V c n hn).2) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in, so
    that case's run applies; the invariant hands the body the accumulator at what the point before left (at anything
    at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, Hg⟩
  isplitl [HR]; · iexact HR
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Frame.lean ====
/-
  The frame of the two-region program: every weakly fair execution of @main terminates without a fault, the
  sixteen argument arrays end as launched, and the result buffer ends at the last reshape of what the second
  region wrote.

  @main is five items: a reshape of the projection tensor, the feature region (one grid point; it writes the
  feature rows and the flat projected rows), a stretch of reshapes, slices and one transpose, the all-pairs region
  (an 8 × 8 grid; it writes the score column), and the closing reshape. Between two items a core holds every
  unscoped buffer whole, at contents named by a fold from the launch memory: a stretch's operations applied in
  order, a region's output arrays replaced by what its write-backs leave and every other buffer kept. Beside the
  buffers a core carries its generator register at some state and owes nothing. Each region is entered by taking
  its windows' arrays out of the unscoped buffers and is left by putting them back at their final contents; the
  all-pairs region's invariant additionally carries its accumulator between grid points and forgets it at the end.
-/
import proofs.«145154_j42898133352735_2_alg».proof.Proof.K.R0
import proofs.«145154_j42898133352735_2_alg».proof.Proof.K.R1
import proofs.«145154_j42898133352735_2_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- The buffers as the feature region finds them, read at the core's references. -/
abbrev VR1 : (c : Dev nD) → (b : Ref sig .tc) → Buf (Elt F) ((c : Thread nD τ).loc b) := fun c b => Gen.V1 m c b

/-- The buffers as the feature region leaves them: its arrays at what the write-backs leave, the rest kept. -/
def W2 (c : Dev nD) : Valuation τ sig (Elt F) :=
  Pipeline.withArrays spec0 c (Gen.V1 m c) fun w => (dat0 (VR1 m) c).arrAt w cfg0.N

theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb

/-- What the feature region leaves in the buffers it may change. -/
def outsA : Gen.Outs (F := F) := fun _ r c => W2 m c r

/-- The buffers as the all-pairs region finds them, read at the core's references. -/
abbrev VR3 : (c : Dev nD) → (b : Ref sig .tc) → Buf (Elt F) ((c : Thread nD τ).loc b) := fun c b => Gen.V3 m (outsA m) c b

/-- The buffers as the all-pairs region leaves them. -/
def W4 (c : Dev nD) : Valuation τ sig (Elt F) :=
  Pipeline.withArrays spec1 c (Gen.V3 m (outsA m) c) fun w => (dat1 (VR3 m) c).arrAt w cfg1.N

theorem W4_arr (c : Dev nD) (w : Fin cfg1.W) :
    W4 m c (Proc.devRef .tc (Pipeline.arrRef spec1 w)) = (dat1 (VR3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = Gen.V3 m (outsA m) c (Proc.devRef .tc b) := by
  unfold W4; exact Pipeline.withArrays_of_ne spec1 c _ _ b hb

/-- What each region leaves in the buffers it may change: after item 1 the feature region's, after item 3 the
    all-pairs region's. -/
def outs : Gen.Outs (F := F) := fun J r c => if J = 2 then W2 m c r else W4 m c r

theorem V2_outs (c : Dev nD) : Gen.V2 m (outs m) c = Gen.V2 m (outsA m) c := rfl
theorem V3_outs (c : Dev nD) : Gen.V3 m (outs m) c = Gen.V3 m (outsA m) c := rfl

/-! ## Every region's array at its exit contents -/

/-- Every window of the feature region but its two outputs is an input. -/
theorem isIn0 : ∀ w : Fin 16, Pipeline.arrRef spec0 w ≠ main_v1_0 → Pipeline.arrRef spec0 w ≠ main_v1_1 → (win0 w).isOut = false := by
  decide
/-- Every window of the all-pairs region but its output is an input. -/
theorem isIn1 : ∀ w : Fin 7, Pipeline.arrRef spec1 w ≠ main_v7 → (win1 w).isOut = false := by
  decide

/-- The contents after the feature region, written as updates of the two output buffers, are the fold that replaces
    the region's arrays: an input's array is left as found. -/
theorem V2_eq_W2 (c : Dev nD) (r : Ref sig .tc) :
    Gen.V2 m (outs m) c (Proc.devRef .tc r) = W2 m c (Proc.devRef .tc r) := by
  by_cases h1 : r = main_v1_1
  · subst h1; exact Function.update_self ..
  by_cases h0 : r = main_v1_0
  · subst h0
    show Function.update (Function.update (Gen.V1 m c) main_v1_0 _) main_v1_1 _ (Proc.devRef .tc main_v1_0) = _
    rw [Function.update_of_ne (StableHlo.devRef_ne_of_ne (by decide)), Function.update_self]; rfl
  · refine (Gen.V2_of m (outs m) c r (by simp only [List.mem_cons, List.not_mem_nil, or_false]; exact fun h => h.elim h0 h1)).trans ?_
    by_cases hr : ∃ w, Pipeline.arrRef spec0 w = r
    · obtain ⟨w, rfl⟩ := hr
      exact ((W2_arr m c w).trans (((dat0 (VR1 m) c).arrAt_in w (isIn0 w h0 h1) _).trans (A_eq0 (VR1 m) c w))).symm
    · exact (W2_of_ne m c r fun w e => hr ⟨w, e⟩).symm

/-- After the feature region each of its arrays holds what the pipeline leaves, -/
theorem hF0 (c : Dev nD) (w : Fin cfg0.W) :
    (dat0 (VR1 m) c).arrAt w cfg0.N = (fun b : Ref sig .tc => Gen.V2 m (outs m) c b) (Pipeline.arrRef spec0 w) :=
  ((V2_eq_W2 m c (Pipeline.arrRef spec0 w)).trans (W2_arr m c w)).symm
/-- and every other buffer what it held at entry. -/
theorem hrest0 (c : Dev nD) : ∀ b : Ref sig .tc, b ∉ Finset.univ.image (Pipeline.arrRef spec0) →
    (fun b : Ref sig .tc => Gen.V2 m (outs m) c b) b = VR1 m c b :=
  fun b hb => (V2_eq_W2 m c b).trans (W2_of_ne m c b fun w e => hb (Finset.mem_image.mpr ⟨w, Finset.mem_univ _, e⟩))

/-- The contents after the all-pairs region, written as an update of the score buffer, are the fold that replaces
    the region's arrays. -/
theorem V4_eq_W4 (c : Dev nD) (r : Ref sig .tc) :
    Gen.V4 m (outs m) c (Proc.devRef .tc r) = W4 m c (Proc.devRef .tc r) := by
  by_cases h1 : r = main_v7
  · subst h1; exact Function.update_self ..
  · refine (Gen.V4_of m (outs m) c r (by simp only [List.mem_cons, List.not_mem_nil, or_false]; exact h1)).trans ?_
    by_cases hr : ∃ w, Pipeline.arrRef spec1 w = r
    · obtain ⟨w, rfl⟩ := hr
      exact ((W4_arr m c w).trans (((dat1 (VR3 m) c).arrAt_in w (isIn1 w h1) _).trans (A_eq1 (VR3 m) c w))).symm
    · exact (W4_of_ne m c r fun w e => hr ⟨w, e⟩).symm

/-- After the all-pairs region each of its arrays holds what the pipeline leaves, -/
theorem hF1 (c : Dev nD) (w : Fin cfg1.W) :
    (dat1 (VR3 m) c).arrAt w cfg1.N = (fun b : Ref sig .tc => Gen.V4 m (outs m) c b) (Pipeline.arrRef spec1 w) :=
  ((V4_eq_W4 m c (Pipeline.arrRef spec1 w)).trans (W4_arr m c w)).symm
/-- and every other buffer what it held at entry. -/
theorem hrest1 (c : Dev nD) : ∀ b : Ref sig .tc, b ∉ Finset.univ.image (Pipeline.arrRef spec1) →
    (fun b : Ref sig .tc => Gen.V4 m (outs m) c b) b = VR3 m c b :=
  fun b hb => (V4_eq_W4 m c b).trans (W4_of_ne m c b fun w e => hb (Finset.mem_image.mpr ⟨w, Finset.mem_univ _, e⟩))

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## The regions as segments -/

set_option backward.isDefEq.respectTransparency.types false in
/-- The feature region: entered from every unscoped buffer at the contents after the first reshape, left with its
    two output arrays at what its write-backs leave. Its arrays are taken out of the unscoped buffers and put back;
    the generator register goes into the region's invariant and comes out; nothing is owed. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ Lz lvz 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The all-pairs region: entered from every unscoped buffer at the contents after the middle stretch, left with the
    score column at what its write-backs leave. As the feature region, except that its invariant carries the
    accumulator between grid points: it starts as the plain one and gives the plain one back at the end. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ Lz lvz 1 fun _ _ => rfl
  pre c := iprop(StableHlo.held (c : Thread nD τ) (Pipeline.ucRefs τ sig) (Gen.V3 m (outsA m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (VR3 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (VR3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the frame -/

/-- On one core: the launch's generator register and its empty debt are the riding state. -/
theorem launch_rest1 (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c) : sProp 𝕄)
      ⊢ Est (F := F) 0 c := by
  iintro ⟨-, HO, -, Hp, -⟩
  isplitl [Hp]; · iexists _; iexact Hp
  iexists ∅; iexact HO

/-- What the launch leaves on a core beside the buffers makes the riding state: the generator register, nothing owed. -/
theorem launch_rest :
    (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts Lz lvz) : sProp 𝕄)
      ⊢ |={Set.univ}=> bigSep Finset.univ (Est (F := F) 0) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
      ⊢ (bigSep Finset.univ (Est (F := F) 0) : sProp 𝕄) :=
    bigSep_mono fun c _ => launch_rest1 ρ c
  iintro ⟨H, -⟩
  imodintro
  ihave H' := hmono $$ H
  iexact H'

set_option backward.isDefEq.respectTransparency.types false in
/-- THE FRAME at any instance: from any memory with zero counters every weakly fair execution of @main terminates,
    nothing faulting, and every final state has the sixteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond m emb₁ () 𝒱₀ Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Est (launch_rest ρ)
    (fun c => by iintro ⟨-, H⟩; iexact H)
    (reg0 m) (fun c => .rfl) (fun c => .rfl)
    (reg1 m) (fun c => by rw [V3_outs]; exact .rfl) (fun c => .rfl)

end Cert.Kernel.Hand

end
-- ==== Proof.KI.R0.lean ====
/- Region 0 of @main: the gridless backbone call (pipeline 0, one grid point, sixteen windows — fourteen inputs and
   the two outputs h [1024,64] and Mflat [1024,250]). Every load and every store of its body is of a whole staging buffer,
   so what the body leaves in an output buffer is the stored payload, a pure function of the fourteen input blocks. This
   module states the windows' blocks at the region's entry contents, what the body leaves in each output buffer, the
   body's triple, the pipeline's proof data and the library's body obligation. -/
import proofs.«145154_j42898133352735_2_alg».proof.Proof.Gen.KernelIdeal.Launch
import proofs.«145154_j42898133352735_2_alg».proof.Proof.Gen.KernelIdeal.Skeleton
import proofs.«145154_j42898133352735_2_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not, for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not, for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not, for any proof data whose
    array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not, for any proof data whose
    array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not, for any proof data whose
    array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not, for any proof data whose
    array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not, for any proof data whose
    array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not, for any proof data whose
    array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not, for any proof data whose
    array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not, for any proof data whose
    array is `V`'s and whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's staging buffer holds its block at every point, fetched there or not, for any proof data whose
    array is `V`'s and whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's staging buffer holds its block at every point, fetched there or not, for any proof data whose
    array is `V`'s and whose body leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's staging buffer holds its block at every point, fetched there or not, for any proof data whose
    array is `V`'s and whose body leaves the block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer, the unit rectangle at zero offsets of the buffer's own sizes -/

abbrev r_S1024x128 : Rect S1024x128 := Rect.unit (s := S1024x128) ![0, 0] S1024x128.size inb_S1024x128_S1024x128_0_0
abbrev r_S128x256 : Rect S128x256 := Rect.unit (s := S128x256) ![0, 0] S128x256.size inb_S128x256_S128x256_0_0
abbrev r_S256 : Rect S256 := Rect.unit (s := S256) ![0] S256.size inb_S256_S256_0
abbrev r_S256x128 : Rect S256x128 := Rect.unit (s := S256x128) ![0, 0] S256x128.size inb_S256x128_S256x128_0_0
abbrev r_S128 : Rect S128 := Rect.unit (s := S128) ![0] S128.size inb_S128_S128_0
abbrev r_S128x64 : Rect S128x64 := Rect.unit (s := S128x64) ![0, 0] S128x64.size inb_S128x64_S128x64_0_0
abbrev r_S64 : Rect S64 := Rect.unit (s := S64) ![0] S64.size inb_S64_S64_0
abbrev r_S64x64 : Rect S64x64 := Rect.unit (s := S64x64) ![0, 0] S64x64.size inb_S64x64_S64x64_0_0
abbrev r_S64x250 : Rect S64x250 := Rect.unit (s := S64x250) ![0, 0] S64x250.size inb_S64x250_S64x250_0_0
abbrev r_S1024x64 : Rect S1024x64 := Rect.unit (s := S1024x64) ![0, 0] S1024x64.size inb_S1024x64_S1024x64_0_0
abbrev r_S1024x250 : Rect S1024x250 := Rect.unit (s := S1024x250) ![0, 0] S1024x250.size inb_S1024x250_S1024x250_0_0

theorem hz1 : (![0] : Fin 1 → Nat) = fun _ => 0 := funext fun a => by fin_cases a <;> rfl
theorem hz2 : (![0, 0] : Fin 2 → Nat) = fun _ => 0 := funext fun a => by fin_cases a <;> rfl

/-! ## What the body leaves in each output window's buffer -/

/-- Window 14's staging buffer (h) after the body, from the input windows' blocks: its one store as a piece. -/
def out0_14 (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x64 .f32 :=
  View.canon [⟨r_S1024x64, k0_pay3 (k0_pay2 (View.ld x0 r_S1024x128) (View.ld x1 r_S128x256) (View.ld x2 r_S256) (View.ld x3 r_S256x128) (View.ld x4 r_S128)) (View.ld x5 r_S128) (View.ld x6 r_S128) (View.ld x7 r_S128x64) (View.ld x8 r_S64) (View.ld x9 r_S64x64) (View.ld x10 r_S64) (View.ld x11 r_S64x64) (View.ld x12 r_S64)⟩]

/-- Window 15's staging buffer (Mflat) after the body, from the input windows' blocks: its one store as a piece. -/
def out0_15 (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x250 .f32 :=
  View.canon [⟨r_S1024x250, k0_pay1 (k0_pay4 (k0_pay2 (View.ld x0 r_S1024x128) (View.ld x1 r_S128x256) (View.ld x2 r_S256) (View.ld x3 r_S256x128) (View.ld x4 r_S128)) (View.ld x5 r_S128) (View.ld x6 r_S128) (View.ld x7 r_S128x64) (View.ld x8 r_S64) (View.ld x9 r_S64x64) (View.ld x10 r_S64) (View.ld x11 r_S64x64) (View.ld x12 r_S64)) (View.ld x13 r_S64x250)⟩]

/-- The one store covers the buffer. -/
theorem cover0_14 (p0 : Vec F S1024x64 .f32) (y : S1024x64.Idx) :
    ∃ pc ∈ ([⟨r_S1024x64, p0⟩] : List (View.Piece (Elt F) S1024x64 .f32)), y ∈ pc.1.set :=
  ⟨_, List.mem_singleton_self _, View.mem_set_unit_zero hz2 inb_S1024x64_S1024x64_0_0 y⟩
theorem cover0_15 (p0 : Vec F S1024x250 .f32) (y : S1024x250.Idx) :
    ∃ pc ∈ ([⟨r_S1024x250, p0⟩] : List (View.Piece (Elt F) S1024x250 .f32)), y ∈ pc.1.set :=
  ⟨_, List.mem_singleton_self _, View.mem_set_unit_zero hz2 inb_S1024x250_S1024x250_0_0 y⟩

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S64x64 .f32) (harg12 : arg12.IsWhole) (arg13 : Memref sig .tc .vmem S64 .f32) (harg13 : arg13.IsWhole) (arg14 : Memref sig .tc .vmem S64x250 .f32) (harg14 : arg14.IsWhole) (arg15 : Memref sig .tc .vmem S1024x64 .f32) (harg15 : arg15.IsWhole) (arg16 : Memref sig .tc .vmem S1024x250 .f32) (harg16 : arg16.IsWhole)
    (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_backbone_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_backbone_kernel_eq_skeleton]; unfold cc0_backbone_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover0_14 _)
  iexists _; isplitr
  swap; · iexact H15
  ipureintro
  try dsimp only
  exact View.read_writes_eq_canon _ _ _ (cover0_15 _)

/-! ## The pipeline's proof data -/

/-- The proof data of pipeline 0 on core `c`: the arrays as the region finds them (`V`); after the body at point `t`
    each input's buffer at its block and each output's at `out0_W` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 1000000 in
/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs as the skeleton's payloads -/

/-- A load of a whole buffer reads its contents and the one whole-buffer store leaves its payload: the buffer of window
    14 holds the payload of `%82` of the input blocks. -/
theorem out0_14_eq (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) :
    out0_14 x0 x1 x2 x3 x4 x5 x6 x7 x8 x9 x10 x11 x12 x13 = k0_pay3 (k0_pay2 x0 x1 x2 x3 x4) x5 x6 x7 x8 x9 x10 x11 x12 := by
  unfold out0_14
  rw [View.canon_unit_zero (S := S1024x64) hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]

/-- Likewise the buffer of window 15 holds the payload of `%87` of the input blocks. -/
theorem out0_15_eq (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) :
    out0_15 x0 x1 x2 x3 x4 x5 x6 x7 x8 x9 x10 x11 x12 x13 = k0_pay1 (k0_pay4 (k0_pay2 x0 x1 x2 x3 x4) x5 x6 x7 x8 x9 x10 x11 x12) x13 := by
  unfold out0_15
  rw [View.canon_unit_zero (S := S1024x250) hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]

end Cert.KernelIdeal.Hand

end
-- ==== Proof.KI.R1Runs.lean ====
import proofs.«145154_j42898133352735_2_alg».proof.Proof.Gen.KernelIdeal.Launch
import proofs.«145154_j42898133352735_2_alg».proof.Proof.Gen.KernelIdeal.Skeleton
import proofs.«145154_j42898133352735_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the all-pairs kernel, pipeline 1) at the entry contents `V`: what its three cases' runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The first conditional's condition (the key-tile coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the key-tile coordinate is 7), from the grid coordinates. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- At the points of case A (key tile 0) the output window is idle and is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At the points of case B (key tiles 1…6) likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the points of case C (key tile 7) the output window is live: the case stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of the output window, through which its contents are stated (the choice does not matter). -/
abbrev VO1_6 : View sig .tc .vmem S128x1 .f32 := (Memref.whole cc1_stg6_0 : Memref sig .tc .vmem S128x1 .f32).view
abbrev ms1_0 (t : Fin cfg1.N) : Memref sig .tc .vmem S128x50x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S50x5x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S50x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, carried between points. -/
abbrev scM1_0 : Memref sig .tc .vmem S128x50 .f32 := Memref.whole cc1_scratch0
/-- The same as a view: what it holds is stated through it. -/
abbrev VS1_0 : View sig .tc .vmem S128x50 .f32 := scM1_0.view

/-! ## The region invariant's other scoped buffers -/

/-- The core's scoped buffers that region 1 never touches (the first region's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f))

/-- The class's invariant, opened: the untouched buffers, the scratch at some contents, the generator register. -/
theorem PhiA1_elim (c : Dev nD) :
    (Pipeline.ΦA spec1 c : sProp 𝕄) ⊢ iprop(rest1 c ∗ (∃ d, owns (c : Thread nD τ) scM1_0 fullShare d) ∗ (∃ r, prngReg c r)) := by
  unfold Pipeline.ΦA rest1; rw [scopedRest1_eq]; simp only [scM1_0, owns_whole]
  iintro ⟨⟨R0, R1, R2, R3, R4, R5, R6, R7, R8, R9, R10, R11, R12, R13, R14, R15, HS⟩, Hg⟩
  isplitl [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  isplitl [HS]; · iexact HS
  iexact Hg

/-- and closed again. -/
theorem PhiA1_intro (c : Dev nD) :
    iprop(rest1 c ∗ (∃ d, owns (c : Thread nD τ) scM1_0 fullShare d) ∗ (∃ r, prngReg c r)) ⊢ (Pipeline.ΦA spec1 c : sProp 𝕄) := by
  unfold Pipeline.ΦA rest1; rw [scopedRest1_eq]; simp only [scM1_0, owns_whole]
  iintro ⟨⟨R0, R1, R2, R3, R4, R5, R6, R7, R8, R9, R10, R11, R12, R13, R14, R15⟩, HS, Hg⟩
  isplitl [R0 R1 R2 R3 R4 R5 R6 R7 R8 R9 R10 R11 R12 R13 R14 R15 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact HS
  iexact Hg

end Cert.KernelIdeal.Hand

end
-- ==== Proof.KI.R1A.lean ====
import proofs.«145154_j42898133352735_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the accumulator, as pieces (last first), in
    case A (key tile 0: the accumulator is zeroed, then this tile's sums are added; the output is not stored), with the proof that on whole staging memrefs — the
    inputs' at their contents, the output's at contents handed back untouched, the accumulator at anything — the body runs to the
    continuation holding the inputs' as they were and each stored buffer with its pieces written. The pieces are the
    witness the run finds. -/
noncomputable def kernelRun1_A (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) :
    Σ' (L6 : List (View.Piece (Elt F) S128x1 .f32)), { LS0 : List (View.Piece (Elt F) S128x50 .f32) //
      ∀ (xi6 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_mbd_kernel i arg2 harg2 arg3 harg3 arg4 harg4 arg5 harg5 arg6 harg6 arg7 harg7 arg8 harg8 arg9 harg9) K } := by
  refine ⟨[], ?_, fun xi6 E K => ?run⟩
  case run =>
    simp only [cc1_mbd_kernel_eq_skeleton]; unfold cc1_mbd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R1B.lean ====
import proofs.«145154_j42898133352735_2_alg».proof.Proof.KI.R1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the accumulator, as pieces (last first), in
    case B (key tiles 1…6: this tile's sums are added; the output is not stored), with the proof that on whole staging memrefs — the
    inputs' at their contents, the output's at contents handed back untouched, the accumulator at what the point before left — the body runs to the
    continuation holding the inputs' as they were and each stored buffer with its pieces written. The pieces are the
    witness the run finds. -/
noncomputable def kernelRun1_B (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    Σ' (L6 : List (View.Piece (Elt F) S128x1 .f32)), { LS0 : List (View.Piece (Elt F) S128x50 .f32) //
      ∀ (xi6 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_mbd_kernel i arg2 harg2 arg3 harg3 arg4 harg4 arg5 harg5 arg6 harg6 arg7 harg7 arg8 harg8 arg9 harg9) K } := by
  refine ⟨[], ?_, fun xi6 E K => ?run⟩
  case run =>
    simp only [cc1_mbd_kernel_eq_skeleton]; unfold cc1_mbd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R1C.lean ====
import proofs.«145154_j42898133352735_2_alg».proof.Proof.KI.R1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output's staging memref and in the accumulator, as pieces (last first), in
    case C (key tile 7: this tile's sums are added and the score is stored), with the proof that on whole staging memrefs — the
    inputs' at their contents, the output's at anything, the accumulator at what the point before left — the body runs to the
    continuation holding the inputs' as they were and each stored buffer with its pieces written. The pieces are the
    witness the run finds. -/
noncomputable def kernelRun1_C (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    Σ' (L6 : List (View.Piece (Elt F) S128x1 .f32)), { LS0 : List (View.Piece (Elt F) S128x50 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_mbd_kernel i arg2 harg2 arg3 harg3 arg4 harg4 arg5 harg5 arg6 harg6 arg7 harg7 arg8 harg8 arg9 harg9) K } := by
  refine ⟨?_, ?_, fun E K => ?run⟩
  case run =>
    simp only [cc1_mbd_kernel_eq_skeleton]; unfold cc1_mbd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.R1.lean ====
import proofs.«145154_j42898133352735_2_alg».proof.Proof.KI.R1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: what each case leaves, the point-by-point accumulation, the proof data, the body obligation -/

/-- Case A stores nothing into the output window (idle at its points and not written back there): no pieces — a
    placeholder nothing consults. -/
def out1_A_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) : Vec F S128x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's stores into the accumulator cover it (each is the whole buffer). -/
theorem scover1_A_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (y : S128x50.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S128x50.size (by sl_kernel_rfl) y

/-- What case A leaves in the accumulator: its pieces read back over junk. -/
def sout1_A_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) : Vec F S128x50 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- Case B stores nothing into the output window (idle at its points and not written back there): no pieces — a
    placeholder nothing consults. -/
def out1_B_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's stores into the accumulator cover it (each is the whole buffer). -/
theorem scover1_B_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) (y : S128x50.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S128x50.size (by sl_kernel_rfl) y

/-- What case B leaves in the accumulator: its pieces read back over junk. -/
def sout1_B_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x50 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Case C's one store into the output window covers its block. -/
theorem cover1_C_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) (y : S128x1.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S128x1.size (by sl_kernel_rfl) y

/-- What case C leaves in the output window's staging buffer: its pieces read back over junk. -/
def out1_C_6 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's stores into the accumulator cover it (each is the whole buffer). -/
theorem scover1_C_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) (y : S128x50.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S128x50.size (by sl_kernel_rfl) y

/-- What case C leaves in the accumulator: its pieces read back over junk. -/
def sout1_C_0 (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) : Vec F S128x50 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the output window and the accumulator hold after each point -/

/-- THE ACCUMULATION. What the output window's staging buffer and the accumulator hold after the body at position `n`:
    the case the closed forms select at `n`, run at the point's memrefs and input blocks, the accumulator (cases B, C)
    at what position `n - 1` left. -/
def outsAt1 (c : Dev nD) : (n : ℕ) → n < cfg1.N → Vec F S128x1 .f32 × Vec F S128x50 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The class's invariant as the untouched buffers, the accumulator at some contents, and the generator register. -/
theorem PhiA1_eq (c : Dev nD) :
    (Pipeline.ΦA spec1 c : sProp 𝕄) = iprop(rest1 (F := F) c ∗ (∃ d, owns (c : Thread nD τ) scM1_0 fullShare d) ∗ (∃ r, prngReg c r)) :=
  Entails.antisymm (PhiA1_elim c) (PhiA1_intro c)

/-- The region invariant before position `n`: before the first point the class's (the accumulator at anything);
    afterwards the accumulator at what the point before left in it (`outsAt1`'s second component), the untouched
    buffers and the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1 (F := F) c ∗ owns (c : Thread nD τ) scM1_0 fullShare ((outsAt1 V c n hn).2) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in, so
    that case's run applies; the invariant hands the body the accumulator at what the point before left (at anything
    at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, Hg⟩
  isplitl [HR]; · iexact HR
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Frame.lean ====
/-
  The frame of the two-region program: every weakly fair execution of @main terminates without a fault, the
  sixteen argument arrays end as launched, and the result buffer ends at the last reshape of what the second
  region wrote.

  @main is five items: a reshape of the projection tensor, the feature region (one grid point; it writes the
  feature rows and the flat projected rows), a stretch of reshapes, slices and one transpose, the all-pairs region
  (an 8 × 8 grid; it writes the score column), and the closing reshape. Between two items a core holds every
  unscoped buffer whole, at contents named by a fold from the launch memory: a stretch's operations applied in
  order, a region's output arrays replaced by what its write-backs leave and every other buffer kept. Beside the
  buffers a core carries its generator register at some state and owes nothing. Each region is entered by taking
  its windows' arrays out of the unscoped buffers and is left by putting them back at their final contents; the
  all-pairs region's invariant additionally carries its accumulator between grid points and forgets it at the end.
-/
import proofs.«145154_j42898133352735_2_alg».proof.Proof.KI.R0
import proofs.«145154_j42898133352735_2_alg».proof.Proof.KI.R1
import proofs.«145154_j42898133352735_2_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- The buffers as the feature region finds them, read at the core's references. -/
abbrev VR1 : (c : Dev nD) → (b : Ref sig .tc) → Buf (Elt F) ((c : Thread nD τ).loc b) := fun c b => Gen.V1 m c b

/-- The buffers as the feature region leaves them: its arrays at what the write-backs leave, the rest kept. -/
def W2 (c : Dev nD) : Valuation τ sig (Elt F) :=
  Pipeline.withArrays spec0 c (Gen.V1 m c) fun w => (dat0 (VR1 m) c).arrAt w cfg0.N

theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb

/-- What the feature region leaves in the buffers it may change. -/
def outsA : Gen.Outs (F := F) := fun _ r c => W2 m c r

/-- The buffers as the all-pairs region finds them, read at the core's references. -/
abbrev VR3 : (c : Dev nD) → (b : Ref sig .tc) → Buf (Elt F) ((c : Thread nD τ).loc b) := fun c b => Gen.V3 m (outsA m) c b

/-- The buffers as the all-pairs region leaves them. -/
def W4 (c : Dev nD) : Valuation τ sig (Elt F) :=
  Pipeline.withArrays spec1 c (Gen.V3 m (outsA m) c) fun w => (dat1 (VR3 m) c).arrAt w cfg1.N

theorem W4_arr (c : Dev nD) (w : Fin cfg1.W) :
    W4 m c (Proc.devRef .tc (Pipeline.arrRef spec1 w)) = (dat1 (VR3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = Gen.V3 m (outsA m) c (Proc.devRef .tc b) := by
  unfold W4; exact Pipeline.withArrays_of_ne spec1 c _ _ b hb

/-- What each region leaves in the buffers it may change: after item 1 the feature region's, after item 3 the
    all-pairs region's. -/
def outs : Gen.Outs (F := F) := fun J r c => if J = 2 then W2 m c r else W4 m c r

theorem V2_outs (c : Dev nD) : Gen.V2 m (outs m) c = Gen.V2 m (outsA m) c := rfl
theorem V3_outs (c : Dev nD) : Gen.V3 m (outs m) c = Gen.V3 m (outsA m) c := rfl

/-! ## Every region's array at its exit contents -/

/-- Every window of the feature region but its two outputs is an input. -/
theorem isIn0 : ∀ w : Fin 16, Pipeline.arrRef spec0 w ≠ main_v1_0 → Pipeline.arrRef spec0 w ≠ main_v1_1 → (win0 w).isOut = false := by
  decide
/-- Every window of the all-pairs region but its output is an input. -/
theorem isIn1 : ∀ w : Fin 7, Pipeline.arrRef spec1 w ≠ main_v7 → (win1 w).isOut = false := by
  decide

/-- The contents after the feature region, written as updates of the two output buffers, are the fold that replaces
    the region's arrays: an input's array is left as found. -/
theorem V2_eq_W2 (c : Dev nD) (r : Ref sig .tc) :
    Gen.V2 m (outs m) c (Proc.devRef .tc r) = W2 m c (Proc.devRef .tc r) := by
  by_cases h1 : r = main_v1_1
  · subst h1; exact Function.update_self ..
  by_cases h0 : r = main_v1_0
  · subst h0
    show Function.update (Function.update (Gen.V1 m c) main_v1_0 _) main_v1_1 _ (Proc.devRef .tc main_v1_0) = _
    rw [Function.update_of_ne (StableHlo.devRef_ne_of_ne (by decide)), Function.update_self]; rfl
  · refine (Gen.V2_of m (outs m) c r (by simp only [List.mem_cons, List.not_mem_nil, or_false]; exact fun h => h.elim h0 h1)).trans ?_
    by_cases hr : ∃ w, Pipeline.arrRef spec0 w = r
    · obtain ⟨w, rfl⟩ := hr
      exact ((W2_arr m c w).trans (((dat0 (VR1 m) c).arrAt_in w (isIn0 w h0 h1) _).trans (A_eq0 (VR1 m) c w))).symm
    · exact (W2_of_ne m c r fun w e => hr ⟨w, e⟩).symm

/-- After the feature region each of its arrays holds what the pipeline leaves, -/
theorem hF0 (c : Dev nD) (w : Fin cfg0.W) :
    (dat0 (VR1 m) c).arrAt w cfg0.N = (fun b : Ref sig .tc => Gen.V2 m (outs m) c b) (Pipeline.arrRef spec0 w) :=
  ((V2_eq_W2 m c (Pipeline.arrRef spec0 w)).trans (W2_arr m c w)).symm
/-- and every other buffer what it held at entry. -/
theorem hrest0 (c : Dev nD) : ∀ b : Ref sig .tc, b ∉ Finset.univ.image (Pipeline.arrRef spec0) →
    (fun b : Ref sig .tc => Gen.V2 m (outs m) c b) b = VR1 m c b :=
  fun b hb => (V2_eq_W2 m c b).trans (W2_of_ne m c b fun w e => hb (Finset.mem_image.mpr ⟨w, Finset.mem_univ _, e⟩))

/-- The contents after the all-pairs region, written as an update of the score buffer, are the fold that replaces
    the region's arrays. -/
theorem V4_eq_W4 (c : Dev nD) (r : Ref sig .tc) :
    Gen.V4 m (outs m) c (Proc.devRef .tc r) = W4 m c (Proc.devRef .tc r) := by
  by_cases h1 : r = main_v7
  · subst h1; exact Function.update_self ..
  · refine (Gen.V4_of m (outs m) c r (by simp only [List.mem_cons, List.not_mem_nil, or_false]; exact h1)).trans ?_
    by_cases hr : ∃ w, Pipeline.arrRef spec1 w = r
    · obtain ⟨w, rfl⟩ := hr
      exact ((W4_arr m c w).trans (((dat1 (VR3 m) c).arrAt_in w (isIn1 w h1) _).trans (A_eq1 (VR3 m) c w))).symm
    · exact (W4_of_ne m c r fun w e => hr ⟨w, e⟩).symm

/-- After the all-pairs region each of its arrays holds what the pipeline leaves, -/
theorem hF1 (c : Dev nD) (w : Fin cfg1.W) :
    (dat1 (VR3 m) c).arrAt w cfg1.N = (fun b : Ref sig .tc => Gen.V4 m (outs m) c b) (Pipeline.arrRef spec1 w) :=
  ((V4_eq_W4 m c (Pipeline.arrRef spec1 w)).trans (W4_arr m c w)).symm
/-- and every other buffer what it held at entry. -/
theorem hrest1 (c : Dev nD) : ∀ b : Ref sig .tc, b ∉ Finset.univ.image (Pipeline.arrRef spec1) →
    (fun b : Ref sig .tc => Gen.V4 m (outs m) c b) b = VR3 m c b :=
  fun b hb => (V4_eq_W4 m c b).trans (W4_of_ne m c b fun w e => hb (Finset.mem_image.mpr ⟨w, Finset.mem_univ _, e⟩))

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## The regions as segments -/

set_option backward.isDefEq.respectTransparency.types false in
/-- The feature region: entered from every unscoped buffer at the contents after the first reshape, left with its
    two output arrays at what its write-backs leave. Its arrays are taken out of the unscoped buffers and put back;
    the generator register goes into the region's invariant and comes out; nothing is owed. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ Lz lvz 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The all-pairs region: entered from every unscoped buffer at the contents after the middle stretch, left with the
    score column at what its write-backs leave. As the feature region, except that its invariant carries the
    accumulator between grid points: it starts as the plain one and gives the plain one back at the end. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ Lz lvz 1 fun _ _ => rfl
  pre c := iprop(StableHlo.held (c : Thread nD τ) (Pipeline.ucRefs τ sig) (Gen.V3 m (outsA m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (VR3 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (VR3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the frame -/

/-- On one core: the launch's generator register and its empty debt are the riding state. -/
theorem launch_rest1 (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c) : sProp 𝕄)
      ⊢ Est (F := F) 0 c := by
  iintro ⟨-, HO, -, Hp, -⟩
  isplitl [Hp]; · iexists _; iexact Hp
  iexists ∅; iexact HO

/-- What the launch leaves on a core beside the buffers makes the riding state: the generator register, nothing owed. -/
theorem launch_rest :
    (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts Lz lvz) : sProp 𝕄)
      ⊢ |={Set.univ}=> bigSep Finset.univ (Est (F := F) 0) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
      ⊢ (bigSep Finset.univ (Est (F := F) 0) : sProp 𝕄) :=
    bigSep_mono fun c _ => launch_rest1 ρ c
  iintro ⟨H, -⟩
  imodintro
  ihave H' := hmono $$ H
  iexact H'

set_option backward.isDefEq.respectTransparency.types false in
/-- THE FRAME at any instance: from any memory with zero counters every weakly fair execution of @main terminates,
    nothing faulting, and every final state has the sixteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond m emb₁ () 𝒱₀ Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Est (launch_rest ρ)
    (fun c => by iintro ⟨-, H⟩; iexact H)
    (reg0 m) (fun c => .rfl) (fun c => .rfl)
    (reg1 m) (fun c => by rw [V3_outs]; exact .rfl) (fun c => .rfl)

end Cert.KernelIdeal.Hand

end
-- ==== Proof.KI.Run.lean ====
/-
  The run of the two-region program with every unscoped buffer named at the end: from any memory with zero
  counters every weakly fair execution of @main terminates, nothing faulting, and each unscoped buffer of a core
  ends at the last valuation of the fold through @main's five items — the launch contents, each stretch's
  operations applied, each region's arrays replaced by what its write-backs leave. The result buffer is among
  them: it ends at the closing reshape of the score column.
-/
import proofs.«145154_j42898133352735_2_alg».proof.Proof.KI.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) adm (pdats m) () cellOf_inj emb₁ defs₀ 𝒱₀ Lz lvz m ρ main
    (Gen.segs m (outs m) 𝒱₀ Lz lvz Est () (pdats m) (reg0 m) (reg1 m))
    (fun c Q => by
      rewrite [main_chain c, Seg.run_eq_chain,
        show (Gen.segs m (outs m) 𝒱₀ Lz lvz Est () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Est 0 c))
    (Tₙ := fun c => StableHlo.held (c : Thread nD τ) (Pipeline.ucRefs τ sig) (Gen.V5 m (outs m) c))
    (hch := fun c => ⟨.rfl, .rfl, .rfl,
      (show iprop(StableHlo.held (c : Thread nD τ) (Pipeline.ucRefs τ sig) (Gen.V3 m (outs m) c) ∗ Est (F := F) 1 c)
          ⊢ iprop(StableHlo.held (c : Thread nD τ) (Pipeline.ucRefs τ sig) (Gen.V3 m (outsA m) c) ∗ Rst (F := F) c) from by
        rw [V3_outs]),
      .rfl, sep_mono .rfl (by iintro ⟨-, H⟩; iexact H)⟩)
    (hinit := ?_)
    (QY := fun c s => ∀ b ∈ Pipeline.ucRefs τ sig, s.mem (((c : Thread nD τ)).1, b) = Gen.V5 m (outs m) c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    have key : (bigSep Finset.univ (fun c : Dev nD => iprop(StableHlo.held (c : Thread nD τ) (Pipeline.ucRefs τ sig) (Gen.V0 m c) ∗ Est (F := F) 0 c)) : sProp 𝕄)
        = iprop((bigSep Finset.univ fun c : Dev nD => StableHlo.held (c : Thread nD τ) (Pipeline.ucRefs τ sig) (Gen.V0 m c)) ∗ bigSep Finset.univ (Est (F := F) 0)) :=
      bigSep_sep' _ _ _
    rw [key]
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (Gen.V5 m (outs m) c) s')
    isplitl [Hh] <;> iassumption

/-- The run in the shape a value claim reads: the result buffer at the last valuation, every argument as launched
    (no stretch writes an argument and no region may change one). -/
theorem run_value : θ_run defs (onTc (τ := τ) (main (F := F))) ⟨m, fun _ => 0, ρ⟩ (fun r => ∀ c : Dev nD,
      r.2.mem ((c.tc : Thread nD τ).loc main_v8) = Gen.V5 m (outs m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c (Proc.devRef .tc main_v8) (Finset.mem_filter.mpr ⟨StableHlo.devRef_mem_tcRefs main_v8, by decide⟩),
      (h c (Proc.devRef .tc main_arg0) (Finset.mem_filter.mpr ⟨StableHlo.devRef_mem_tcRefs main_arg0, by decide⟩)).trans (Gen.V5_main_arg0 m (outs m) c),
      (h c (Proc.devRef .tc main_arg1) (Finset.mem_filter.mpr ⟨StableHlo.devRef_mem_tcRefs main_arg1, by decide⟩)).trans (Gen.V5_main_arg1 m (outs m) c),
      (h c (Proc.devRef .tc main_arg2) (Finset.mem_filter.mpr ⟨StableHlo.devRef_mem_tcRefs main_arg2, by decide⟩)).trans (Gen.V5_main_arg2 m (outs m) c),
      (h c (Proc.devRef .tc main_arg3) (Finset.mem_filter.mpr ⟨StableHlo.devRef_mem_tcRefs main_arg3, by decide⟩)).trans (Gen.V5_main_arg3 m (outs m) c),
      (h c (Proc.devRef .tc main_arg4) (Finset.mem_filter.mpr ⟨StableHlo.devRef_mem_tcRefs main_arg4, by decide⟩)).trans (Gen.V5_main_arg4 m (outs m) c),
      (h c (Proc.devRef .tc main_arg5) (Finset.mem_filter.mpr ⟨StableHlo.devRef_mem_tcRefs main_arg5, by decide⟩)).trans (Gen.V5_main_arg5 m (outs m) c),
      (h c (Proc.devRef .tc main_arg6) (Finset.mem_filter.mpr ⟨StableHlo.devRef_mem_tcRefs main_arg6, by decide⟩)).trans (Gen.V5_main_arg6 m (outs m) c),
      (h c (Proc.devRef .tc main_arg7) (Finset.mem_filter.mpr ⟨StableHlo.devRef_mem_tcRefs main_arg7, by decide⟩)).trans (Gen.V5_main_arg7 m (outs m) c),
      (h c (Proc.devRef .tc main_arg8) (Finset.mem_filter.mpr ⟨StableHlo.devRef_mem_tcRefs main_arg8, by decide⟩)).trans (Gen.V5_main_arg8 m (outs m) c),
      (h c (Proc.devRef .tc main_arg9) (Finset.mem_filter.mpr ⟨StableHlo.devRef_mem_tcRefs main_arg9, by decide⟩)).trans (Gen.V5_main_arg9 m (outs m) c),
      (h c (Proc.devRef .tc main_arg10) (Finset.mem_filter.mpr ⟨StableHlo.devRef_mem_tcRefs main_arg10, by decide⟩)).trans (Gen.V5_main_arg10 m (outs m) c),
      (h c (Proc.devRef .tc main_arg11) (Finset.mem_filter.mpr ⟨StableHlo.devRef_mem_tcRefs main_arg11, by decide⟩)).trans (Gen.V5_main_arg11 m (outs m) c),
      (h c (Proc.devRef .tc main_arg12) (Finset.mem_filter.mpr ⟨StableHlo.devRef_mem_tcRefs main_arg12, by decide⟩)).trans (Gen.V5_main_arg12 m (outs m) c),
      (h c (Proc.devRef .tc main_arg13) (Finset.mem_filter.mpr ⟨StableHlo.devRef_mem_tcRefs main_arg13, by decide⟩)).trans (Gen.V5_main_arg13 m (outs m) c),
      (h c (Proc.devRef .tc main_arg14) (Finset.mem_filter.mpr ⟨StableHlo.devRef_mem_tcRefs main_arg14, by decide⟩)).trans (Gen.V5_main_arg14 m (outs m) c),
      (h c (Proc.devRef .tc main_arg15) (Finset.mem_filter.mpr ⟨StableHlo.devRef_mem_tcRefs main_arg15, by decide⟩)).trans (Gen.V5_main_arg15 m (outs m) c)⟩) (run_all m ρ)

end Cert.KernelIdeal.Hand

end
-- ==== Proof.KI.R0Value.lean ====
/- Region 0 of @main, the value side: the grid has one point and every window's block is its whole array, so each
   input block is the array the region finds, the one write-back of an output window writes the whole array, and the two
   arrays the region leaves are the body's outputs `out0_14`, `out0_15` of the fourteen input arrays. -/
import proofs.«145154_j42898133352735_2_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Every block index is zero: a block's rectangle starts at the array's origin -/

theorem off0_0 (t : Fin cfg0.N) : (fun a => win0_0.index t a * main_arg0.ty.shape.size a) = fun _ => 0 :=
  funext fun a => by fin_cases a <;> rfl
theorem off0_1 (t : Fin cfg0.N) : (fun a => win0_1.index t a * main_arg1.ty.shape.size a) = fun _ => 0 :=
  funext fun a => by fin_cases a <;> rfl
theorem off0_2 (t : Fin cfg0.N) : (fun a => win0_2.index t a * main_arg2.ty.shape.size a) = fun _ => 0 :=
  funext fun a => by fin_cases a <;> rfl
theorem off0_3 (t : Fin cfg0.N) : (fun a => win0_3.index t a * main_arg3.ty.shape.size a) = fun _ => 0 :=
  funext fun a => by fin_cases a <;> rfl
theorem off0_4 (t : Fin cfg0.N) : (fun a => win0_4.index t a * main_arg4.ty.shape.size a) = fun _ => 0 :=
  funext fun a => by fin_cases a <;> rfl
theorem off0_5 (t : Fin cfg0.N) : (fun a => win0_5.index t a * main_arg5.ty.shape.size a) = fun _ => 0 :=
  funext fun a => by fin_cases a <;> rfl
theorem off0_6 (t : Fin cfg0.N) : (fun a => win0_6.index t a * main_arg6.ty.shape.size a) = fun _ => 0 :=
  funext fun a => by fin_cases a <;> rfl
theorem off0_7 (t : Fin cfg0.N) : (fun a => win0_7.index t a * main_arg7.ty.shape.size a) = fun _ => 0 :=
  funext fun a => by fin_cases a <;> rfl
theorem off0_8 (t : Fin cfg0.N) : (fun a => win0_8.index t a * main_arg8.ty.shape.size a) = fun _ => 0 :=
  funext fun a => by fin_cases a <;> rfl
theorem off0_9 (t : Fin cfg0.N) : (fun a => win0_9.index t a * main_arg9.ty.shape.size a) = fun _ => 0 :=
  funext fun a => by fin_cases a <;> rfl
theorem off0_10 (t : Fin cfg0.N) : (fun a => win0_10.index t a * main_arg10.ty.shape.size a) = fun _ => 0 :=
  funext fun a => by fin_cases a <;> rfl
theorem off0_11 (t : Fin cfg0.N) : (fun a => win0_11.index t a * main_arg11.ty.shape.size a) = fun _ => 0 :=
  funext fun a => by fin_cases a <;> rfl
theorem off0_12 (t : Fin cfg0.N) : (fun a => win0_12.index t a * main_arg12.ty.shape.size a) = fun _ => 0 :=
  funext fun a => by fin_cases a <;> rfl
theorem off0_13 (t : Fin cfg0.N) : (fun a => win0_13.index t a * main_v0.ty.shape.size a) = fun _ => 0 :=
  funext fun a => by fin_cases a <;> rfl
theorem off0_14 (t : Fin cfg0.N) : (fun a => win0_14.index t a * main_v1_0.ty.shape.size a) = fun _ => 0 :=
  funext fun a => by fin_cases a <;> rfl
theorem off0_15 (t : Fin cfg0.N) : (fun a => win0_15.index t a * main_v1_1.ty.shape.size a) = fun _ => 0 :=
  funext fun a => by fin_cases a <;> rfl

/-! ## Each input block is the whole array as the region finds it -/

theorem iblk0_0_eq (c : Dev nD) (t : Fin cfg0.N) : iblk0 V c 0 t = (V c main_arg0 : S1024x128.Idx → Elt F .f32) := by
  unfold iblk0
  exact Memref.read_access_unit_zero (Elt F) main_arg0 (off0_0 t) (fun a => by rw [congrFun (off0_0 t) a]; simp) (V c main_arg0)
theorem iblk0_1_eq (c : Dev nD) (t : Fin cfg0.N) : iblk0 V c 1 t = (V c main_arg1 : S128x256.Idx → Elt F .f32) := by
  unfold iblk0
  exact Memref.read_access_unit_zero (Elt F) main_arg1 (off0_1 t) (fun a => by rw [congrFun (off0_1 t) a]; simp) (V c main_arg1)
theorem iblk0_2_eq (c : Dev nD) (t : Fin cfg0.N) : iblk0 V c 2 t = (V c main_arg2 : S256.Idx → Elt F .f32) := by
  unfold iblk0
  exact Memref.read_access_unit_zero (Elt F) main_arg2 (off0_2 t) (fun a => by rw [congrFun (off0_2 t) a]; simp) (V c main_arg2)
theorem iblk0_3_eq (c : Dev nD) (t : Fin cfg0.N) : iblk0 V c 3 t = (V c main_arg3 : S256x128.Idx → Elt F .f32) := by
  unfold iblk0
  exact Memref.read_access_unit_zero (Elt F) main_arg3 (off0_3 t) (fun a => by rw [congrFun (off0_3 t) a]; simp) (V c main_arg3)
theorem iblk0_4_eq (c : Dev nD) (t : Fin cfg0.N) : iblk0 V c 4 t = (V c main_arg4 : S128.Idx → Elt F .f32) := by
  unfold iblk0
  exact Memref.read_access_unit_zero (Elt F) main_arg4 (off0_4 t) (fun a => by rw [congrFun (off0_4 t) a]; simp) (V c main_arg4)
theorem iblk0_5_eq (c : Dev nD) (t : Fin cfg0.N) : iblk0 V c 5 t = (V c main_arg5 : S128.Idx → Elt F .f32) := by
  unfold iblk0
  exact Memref.read_access_unit_zero (Elt F) main_arg5 (off0_5 t) (fun a => by rw [congrFun (off0_5 t) a]; simp) (V c main_arg5)
theorem iblk0_6_eq (c : Dev nD) (t : Fin cfg0.N) : iblk0 V c 6 t = (V c main_arg6 : S128.Idx → Elt F .f32) := by
  unfold iblk0
  exact Memref.read_access_unit_zero (Elt F) main_arg6 (off0_6 t) (fun a => by rw [congrFun (off0_6 t) a]; simp) (V c main_arg6)
theorem iblk0_7_eq (c : Dev nD) (t : Fin cfg0.N) : iblk0 V c 7 t = (V c main_arg7 : S128x64.Idx → Elt F .f32) := by
  unfold iblk0
  exact Memref.read_access_unit_zero (Elt F) main_arg7 (off0_7 t) (fun a => by rw [congrFun (off0_7 t) a]; simp) (V c main_arg7)
theorem iblk0_8_eq (c : Dev nD) (t : Fin cfg0.N) : iblk0 V c 8 t = (V c main_arg8 : S64.Idx → Elt F .f32) := by
  unfold iblk0
  exact Memref.read_access_unit_zero (Elt F) main_arg8 (off0_8 t) (fun a => by rw [congrFun (off0_8 t) a]; simp) (V c main_arg8)
theorem iblk0_9_eq (c : Dev nD) (t : Fin cfg0.N) : iblk0 V c 9 t = (V c main_arg9 : S64x64.Idx → Elt F .f32) := by
  unfold iblk0
  exact Memref.read_access_unit_zero (Elt F) main_arg9 (off0_9 t) (fun a => by rw [congrFun (off0_9 t) a]; simp) (V c main_arg9)
theorem iblk0_10_eq (c : Dev nD) (t : Fin cfg0.N) : iblk0 V c 10 t = (V c main_arg10 : S64.Idx → Elt F .f32) := by
  unfold iblk0
  exact Memref.read_access_unit_zero (Elt F) main_arg10 (off0_10 t) (fun a => by rw [congrFun (off0_10 t) a]; simp) (V c main_arg10)
theorem iblk0_11_eq (c : Dev nD) (t : Fin cfg0.N) : iblk0 V c 11 t = (V c main_arg11 : S64x64.Idx → Elt F .f32) := by
  unfold iblk0
  exact Memref.read_access_unit_zero (Elt F) main_arg11 (off0_11 t) (fun a => by rw [congrFun (off0_11 t) a]; simp) (V c main_arg11)
theorem iblk0_12_eq (c : Dev nD) (t : Fin cfg0.N) : iblk0 V c 12 t = (V c main_arg12 : S64.Idx → Elt F .f32) := by
  unfold iblk0
  exact Memref.read_access_unit_zero (Elt F) main_arg12 (off0_12 t) (fun a => by rw [congrFun (off0_12 t) a]; simp) (V c main_arg12)
theorem iblk0_13_eq (c : Dev nD) (t : Fin cfg0.N) : iblk0 V c 13 t = (V c main_v0 : S64x250.Idx → Elt F .f32) := by
  unfold iblk0
  exact Memref.read_access_unit_zero (Elt F) main_v0 (off0_13 t) (fun a => by rw [congrFun (off0_13 t) a]; simp) (V c main_v0)

/-! ## Output window 14 -/

/-- What the one point writes back is the whole of `out0_14` of the input arrays: block (0, 0) of the array read through
    zero offsets is the array. -/
theorem flushed0_14_eq (c : Dev nD) (t : Fin cfg0.N) :
    (dat0 V c).flushed 14 t = ((cfg0.win 14).blk t).view.read (Elt F) (out0_14 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0) : S1024x64.Idx → Elt F .f32) := by
  show (cfg0.win 14).cut (grid0.coords t) ((dat0 V c).after 14 t) = _
  rw [after0_14]
  rw [iblk0_0_eq V c t, iblk0_1_eq V c t, iblk0_2_eq V c t, iblk0_3_eq V c t, iblk0_4_eq V c t, iblk0_5_eq V c t, iblk0_6_eq V c t, iblk0_7_eq V c t, iblk0_8_eq V c t, iblk0_9_eq V c t, iblk0_10_eq V c t, iblk0_11_eq V c t, iblk0_12_eq V c t, iblk0_13_eq V c t]
  exact (Memref.read_access_unit_zero (Elt F) main_v1_0 (off0_14 t) (fun a => by rw [congrFun (off0_14 t) a]; simp) (out0_14 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0))).symm

/-- Every index of the array is in the one point's block. -/
theorem cover0_14_arr (i : S1024x64.Idx) : ∃ t : Fin cfg0.N, (cfg0.win 14).flush t = true ∧ i ∈ ((cfg0.win 14).blk t).view.set :=
  ⟨t0_0, flush0_14 t0_0, by
    show i ∈ ((View.whole main_v1_0).slice (win0_14.rect t0_0)).set
    rw [View.set_slice_whole, Rect.mem_set_unit]
    intro a
    have h0 : (i 0 : Nat) < 1024 := (i 0).isLt
    have h1 : (i 1 : Nat) < 64 := (i 1).isLt
    match a with
    | ⟨0, _⟩ => show win0_14.index t0_0 0 * win0_14.size 0 ≤ (i 0 : Nat) ∧ (i 0 : Nat) < win0_14.index t0_0 0 * win0_14.size 0 + win0_14.xsize (grid0.coords t0_0) 0
                rw [show win0_14.index t0_0 0 * win0_14.size 0 = 0 from rfl, show win0_14.xsize (grid0.coords t0_0) 0 = 1024 from rfl]; omega
    | ⟨1, _⟩ => show win0_14.index t0_0 1 * win0_14.size 1 ≤ (i 1 : Nat) ∧ (i 1 : Nat) < win0_14.index t0_0 1 * win0_14.size 1 + win0_14.xsize (grid0.coords t0_0) 1
                rw [show win0_14.index t0_0 1 * win0_14.size 1 = 0 from rfl, show win0_14.xsize (grid0.coords t0_0) 1 = 64 from rfl]; omega⟩

/-- The array the region leaves: `out0_14` of the fourteen input arrays as the region finds them. -/
theorem arr0_14 (c : Dev nD) : (dat0 V c).arrAt 14 cfg0.N = (out0_14 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0) : Vec F S1024x64 .f32) :=
  (dat0 V c).arrAt_eq_of_cover 14 (out0_14 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0)) (fun t _ => flushed0_14_eq V c t) (cover0_14_arr)

/-! ## Output window 15 -/

/-- What the one point writes back is the whole of `out0_15` of the input arrays: block (0, 0) of the array read through
    zero offsets is the array. -/
theorem flushed0_15_eq (c : Dev nD) (t : Fin cfg0.N) :
    (dat0 V c).flushed 15 t = ((cfg0.win 15).blk t).view.read (Elt F) (out0_15 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0) : S1024x250.Idx → Elt F .f32) := by
  show (cfg0.win 15).cut (grid0.coords t) ((dat0 V c).after 15 t) = _
  rw [after0_15]
  rw [iblk0_0_eq V c t, iblk0_1_eq V c t, iblk0_2_eq V c t, iblk0_3_eq V c t, iblk0_4_eq V c t, iblk0_5_eq V c t, iblk0_6_eq V c t, iblk0_7_eq V c t, iblk0_8_eq V c t, iblk0_9_eq V c t, iblk0_10_eq V c t, iblk0_11_eq V c t, iblk0_12_eq V c t, iblk0_13_eq V c t]
  exact (Memref.read_access_unit_zero (Elt F) main_v1_1 (off0_15 t) (fun a => by rw [congrFun (off0_15 t) a]; simp) (out0_15 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0))).symm

/-- Every index of the array is in the one point's block. -/
theorem cover0_15_arr (i : S1024x250.Idx) : ∃ t : Fin cfg0.N, (cfg0.win 15).flush t = true ∧ i ∈ ((cfg0.win 15).blk t).view.set :=
  ⟨t0_0, flush0_15 t0_0, by
    show i ∈ ((View.whole main_v1_1).slice (win0_15.rect t0_0)).set
    rw [View.set_slice_whole, Rect.mem_set_unit]
    intro a
    have h0 : (i 0 : Nat) < 1024 := (i 0).isLt
    have h1 : (i 1 : Nat) < 250 := (i 1).isLt
    match a with
    | ⟨0, _⟩ => show win0_15.index t0_0 0 * win0_15.size 0 ≤ (i 0 : Nat) ∧ (i 0 : Nat) < win0_15.index t0_0 0 * win0_15.size 0 + win0_15.xsize (grid0.coords t0_0) 0
                rw [show win0_15.index t0_0 0 * win0_15.size 0 = 0 from rfl, show win0_15.xsize (grid0.coords t0_0) 0 = 1024 from rfl]; omega
    | ⟨1, _⟩ => show win0_15.index t0_0 1 * win0_15.size 1 ≤ (i 1 : Nat) ∧ (i 1 : Nat) < win0_15.index t0_0 1 * win0_15.size 1 + win0_15.xsize (grid0.coords t0_0) 1
                rw [show win0_15.index t0_0 1 * win0_15.size 1 = 0 from rfl, show win0_15.xsize (grid0.coords t0_0) 1 = 250 from rfl]; omega⟩

/-- The array the region leaves: `out0_15` of the fourteen input arrays as the region finds them. -/
theorem arr0_15 (c : Dev nD) : (dat0 V c).arrAt 15 cfg0.N = (out0_15 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0) : Vec F S1024x250 .f32) :=
  (dat0 V c).arrAt_eq_of_cover 15 (out0_15 (V c main_arg0) (V c main_arg1) (V c main_arg2) (V c main_arg3) (V c main_arg4) (V c main_arg5) (V c main_arg6) (V c main_arg7) (V c main_arg8) (V c main_arg9) (V c main_arg10) (V c main_arg11) (V c main_arg12) (V c main_v0)) (fun t _ => flushed0_15_eq V c t) (cover0_15_arr)

end Cert.KernelIdeal.Hand

end
-- ==== Proof.KI.HostValue.lean ====
/- The host stretches between the two regions, read at an index: the reshape before the feature region, the reshapes,
   slices and transpose before the all-pairs region, and the closing reshape, each a relabelling of indices of the
   buffer it reads. -/
import proofs.«145154_j42898133352735_2_alg».proof.Proof.KI.Frame
import proofs.«145154_j42898133352735_2_alg».proof.Proof.KI.R0Value
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ)

/-! ## Before the feature region: the arguments as launched, the projection tensor flattened -/
theorem VR1_arg0 (c : Dev nD) : VR1 m c main_arg0 = m ((c : Thread nD τ).loc main_arg0) :=
  (Gen.V1_of m c main_arg0 (by decide)).trans rfl
theorem VR1_arg1 (c : Dev nD) : VR1 m c main_arg1 = m ((c : Thread nD τ).loc main_arg1) :=
  (Gen.V1_of m c main_arg1 (by decide)).trans rfl
theorem VR1_arg2 (c : Dev nD) : VR1 m c main_arg2 = m ((c : Thread nD τ).loc main_arg2) :=
  (Gen.V1_of m c main_arg2 (by decide)).trans rfl
theorem VR1_arg3 (c : Dev nD) : VR1 m c main_arg3 = m ((c : Thread nD τ).loc main_arg3) :=
  (Gen.V1_of m c main_arg3 (by decide)).trans rfl
theorem VR1_arg4 (c : Dev nD) : VR1 m c main_arg4 = m ((c : Thread nD τ).loc main_arg4) :=
  (Gen.V1_of m c main_arg4 (by decide)).trans rfl
theorem VR1_arg5 (c : Dev nD) : VR1 m c main_arg5 = m ((c : Thread nD τ).loc main_arg5) :=
  (Gen.V1_of m c main_arg5 (by decide)).trans rfl
theorem VR1_arg6 (c : Dev nD) : VR1 m c main_arg6 = m ((c : Thread nD τ).loc main_arg6) :=
  (Gen.V1_of m c main_arg6 (by decide)).trans rfl
theorem VR1_arg7 (c : Dev nD) : VR1 m c main_arg7 = m ((c : Thread nD τ).loc main_arg7) :=
  (Gen.V1_of m c main_arg7 (by decide)).trans rfl
theorem VR1_arg8 (c : Dev nD) : VR1 m c main_arg8 = m ((c : Thread nD τ).loc main_arg8) :=
  (Gen.V1_of m c main_arg8 (by decide)).trans rfl
theorem VR1_arg9 (c : Dev nD) : VR1 m c main_arg9 = m ((c : Thread nD τ).loc main_arg9) :=
  (Gen.V1_of m c main_arg9 (by decide)).trans rfl
theorem VR1_arg10 (c : Dev nD) : VR1 m c main_arg10 = m ((c : Thread nD τ).loc main_arg10) :=
  (Gen.V1_of m c main_arg10 (by decide)).trans rfl
theorem VR1_arg11 (c : Dev nD) : VR1 m c main_arg11 = m ((c : Thread nD τ).loc main_arg11) :=
  (Gen.V1_of m c main_arg11 (by decide)).trans rfl
theorem VR1_arg12 (c : Dev nD) : VR1 m c main_arg12 = m ((c : Thread nD τ).loc main_arg12) :=
  (Gen.V1_of m c main_arg12 (by decide)).trans rfl
theorem VR1_arg13 (c : Dev nD) : VR1 m c main_arg13 = m ((c : Thread nD τ).loc main_arg13) :=
  (Gen.V1_of m c main_arg13 (by decide)).trans rfl
theorem VR1_arg14 (c : Dev nD) : VR1 m c main_arg14 = m ((c : Thread nD τ).loc main_arg14) :=
  (Gen.V1_of m c main_arg14 (by decide)).trans rfl
theorem VR1_arg15 (c : Dev nD) : VR1 m c main_arg15 = m ((c : Thread nD τ).loc main_arg15) :=
  (Gen.V1_of m c main_arg15 (by decide)).trans rfl

/-- The flattened projection tensor at `(cc, 5 o + k)` is the tensor at `(cc, o, k)`. -/
theorem VR1_v0 (c : Dev nD) (cc : Fin 64) (o : Fin 50) (k : Fin 5) :
    (VR1 m c main_v0 : S64x250.Idx → Elt F .f32) (ix2 cc ⟨5 * o.val + k.val, by omega⟩)
      = (m ((c : Thread nD τ).loc main_arg13) : S64x50x5.Idx → Elt F .f32) (ix3 cc o k) := by
  dsimp only [VR1, Gen.V1, hostOps0]
  after_results
  exact shapeCast_apply (s := S64x50x5) (t := S64x250) _ _ _ _ (by
    show ((⟨3, ![64, 50, 5]⟩ : Shape).rowMajor (ix3 cc o k)).val = ((⟨2, ![64, 250]⟩ : Shape).rowMajor (ix2 cc ⟨5 * o.val + k.val, by omega⟩)).val
    rw [Shape.rowMajor_val_three, Shape.rowMajor_val_two]
    show (cc.val * 50 + o.val) * 5 + k.val = cc.val * 250 + (5 * o.val + k.val)
    omega)

/-! ## Before the all-pairs region -/

/-- The feature rows and the flat projected rows are what the feature region's write-backs leave: the stretch
    between the regions writes neither. -/
theorem VR3_v1_0 (c : Dev nD) : VR3 m c main_v1_0 = (dat0 (VR1 m) c).arrAt 14 cfg0.N :=
  (Gen.V3_of m (outsA m) c main_v1_0 (by decide)).trans ((V2_eq_W2 m c main_v1_0).trans (W2_arr m c 14))
theorem VR3_v1_1 (c : Dev nD) : VR3 m c main_v1_1 = (dat0 (VR1 m) c).arrAt 15 cfg0.N :=
  (Gen.V3_of m (outsA m) c main_v1_1 (by decide)).trans ((V2_eq_W2 m c main_v1_1).trans (W2_arr m c 15))

/-- The projected rows reshaped to [1024, 50, 5]: `(a, o, k)` is the flat row's entry `5 o + k`. -/
theorem VR3_v2 (c : Dev nD) (a : Fin 1024) (o : Fin 50) (k : Fin 5) :
    (VR3 m c main_v2 : S1024x50x5.Idx → Elt F .f32) (ix3 a o k)
      = (VR3 m c main_v1_1 : S1024x250.Idx → Elt F .f32) (ix2 a ⟨5 * o.val + k.val, by omega⟩) := by
  dsimp only [VR3, Gen.V3, hostOps1]
  after_results
  exact shapeCast_apply (s := S1024x250) (t := S1024x50x5) _ _ _ _ (by
    show ((⟨2, ![1024, 250]⟩ : Shape).rowMajor (ix2 a ⟨5 * o.val + k.val, by omega⟩)).val = ((⟨3, ![1024, 50, 5]⟩ : Shape).rowMajor (ix3 a o k)).val
    rw [Shape.rowMajor_val_three, Shape.rowMajor_val_two]
    show a.val * 250 + (5 * o.val + k.val) = (a.val * 50 + o.val) * 5 + k.val
    omega)

/-- The transposed copy [50, 5, 1024]: `(o, k, a)` is the reshaped rows' `(a, o, k)`. -/
theorem VR3_v6 (c : Dev nD) (o : Fin 50) (k : Fin 5) (a : Fin 1024) :
    (VR3 m c main_v6 : S50x5x1024.Idx → Elt F .f32) (ix3 o k a) = (VR3 m c main_v2 : S1024x50x5.Idx → Elt F .f32) (ix3 a o k) := by
  dsimp only [VR3, Gen.V3, hostOps1]
  after_results
  exact transpose_apply _ _ _ _ (ix3 a o k) fun b => match b with | ⟨0, _⟩ => rfl | ⟨1, _⟩ => rfl | ⟨2, _⟩ => rfl

/-- The score weights' first 64 rows. -/
theorem VR3_v3 (c : Dev nD) (cc : Fin 64) :
    (VR3 m c main_v3 : S64x1.Idx → Elt F .f32) (ix2 cc (0 : Fin 1))
      = (m ((c : Thread nD τ).loc main_arg14) : S114x1.Idx → Elt F .f32) (ix2 (⟨cc.val, by omega⟩ : Fin 114) (0 : Fin 1)) := by
  dsimp only [VR3, Gen.V3, hostOps1]
  after_results
  refine (slice2_axis0_apply 0 _ _ cc (0 : Fin 1) (⟨cc.val, by omega⟩ : Fin 114) (by simp)).trans ?_
  exact congrFun ((Gen.V2_of m (outsA m) c main_arg14 (by decide)).trans ((Gen.V1_of m c main_arg14 (by decide)).trans rfl)) _

/-- The score weights' last 50 rows. -/
theorem VR3_v4 (c : Dev nD) (o : Fin 50) :
    (VR3 m c main_v4 : S50x1.Idx → Elt F .f32) (ix2 o (0 : Fin 1))
      = (m ((c : Thread nD τ).loc main_arg14) : S114x1.Idx → Elt F .f32) (ix2 (⟨64 + o.val, by omega⟩ : Fin 114) (0 : Fin 1)) := by
  dsimp only [VR3, Gen.V3, hostOps1]
  after_results
  refine (slice2_axis0_apply 64 _ _ o (0 : Fin 1) (⟨64 + o.val, by omega⟩ : Fin 114) rfl).trans ?_
  exact congrFun ((Gen.V2_of m (outsA m) c main_arg14 (by decide)).trans ((Gen.V1_of m c main_arg14 (by decide)).trans rfl)) _

/-- The score bias as a [1, 1] array. -/
theorem VR3_v5 (c : Dev nD) :
    (VR3 m c main_v5 : S1x1.Idx → Elt F .f32) (ix2 (0 : Fin 1) (0 : Fin 1))
      = (m ((c : Thread nD τ).loc main_arg15) : S1.Idx → Elt F .f32) (ix1 (0 : Fin 1)) := by
  dsimp only [VR3, Gen.V3, hostOps1]
  after_results
  refine (shapeCast_a_1a_apply _ _ (0 : Fin 1) (0 : Fin 1)).trans ?_
  exact congrFun ((Gen.V2_of m (outsA m) c main_arg15 (by decide)).trans ((Gen.V1_of m c main_arg15 (by decide)).trans rfl)) _

/-! ## After the all-pairs region -/

/-- The result vector at `b` is the score column the all-pairs region's write-backs leave, at `(b, 0)`. -/
theorem V5_v8 (c : Dev nD) (b : Fin 1024) :
    (Gen.V5 m (outs m) c main_v8 : S1024.Idx → Elt F .f32) (ix1 b)
      = ((dat1 (VR3 m) c).arrAt 6 cfg1.N : S1024x1.Idx → Elt F .f32) (ix2 b (0 : Fin 1)) := by
  dsimp only [Gen.V5, hostOps2]
  after_results
  refine (shapeCast_apply (s := S1024x1) (t := S1024) _ _ _ (ix2 b (0 : Fin 1)) (by
    show ((⟨2, ![1024, 1]⟩ : Shape).rowMajor (ix2 b (0 : Fin 1))).val = ((⟨1, ![1024]⟩ : Shape).rowMajor (ix1 b)).val
    rw [Shape.rowMajor_val_two, Shape.rowMajor_val_one]
    show b.val * 1 + 0 = b.val
    omega)).trans ?_
  exact congrFun ((V4_eq_W4 m c main_v7).trans (W4_arr m c 6)) _

end Cert.KernelIdeal.Hand

end
-- ==== Proof.KI.R1Blocks.lean ====
/- The all-pairs region's blocks and its exit array. Grid point t = 8 i + j works on query tile i = t / 8 and key
   tile j = t % 8: the query window's block is rows 128 i … 128 i + 127 of the reshaped rows, the key window's block is
   lanes 128 j … 128 j + 127 of the transposed copy, the feature window's block is rows 128 i … of the feature rows, and
   the three small operands are read whole. The score column is written back in blocks of 128 rows, block i at the last
   key tile (j = 7) only; those eight blocks tile the column. -/
import proofs.«145154_j42898133352735_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The block indices over the grid -/

/-- The printed index maps in closed form, decided over the 64 points: the query, feature and score windows move with
    the query tile `t / 8`, the key window with the key tile `t % 8`. -/
theorem idx1_facts : ∀ t : Fin cfg1.N,
    win1_0.index t (0 : Fin 3) = t.val / 8 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val % 8
    ∧ win1_2.index t (0 : Fin 2) = t.val / 8 ∧ win1_2.index t (1 : Fin 2) = 0
    ∧ win1_6.index t (0 : Fin 2) = t.val / 8 ∧ win1_6.index t (1 : Fin 2) = 0 :=
  (by decide +kernel : ∀ t : Fin grid1.N, _)

theorem lt_N1 (t : Fin cfg1.N) : t.val < 64 := by
  have h : t.val < grid1.N := t.isLt
  rw [N_1] at h; exact h

/-- The array row under row `r` of point `t`'s query tile. -/
def rowOf (t : Fin cfg1.N) (r : Fin 128) : Fin 1024 := ⟨128 * (t.val / 8) + r.val, by have := lt_N1 t; omega⟩
/-- The array lane under lane `l` of point `t`'s key tile. -/
def colOf (t : Fin cfg1.N) (l : Fin 128) : Fin 1024 := ⟨128 * (t.val % 8) + l.val, by omega⟩

/-! ## The input blocks -/

/-- The query block at `(r, o, k)` is the reshaped rows at `(128 (t / 8) + r, o, k)`. -/
theorem iblk1_0_apply (c : Dev nD) (t : Fin cfg1.N) (r : Fin 128) (o : Fin 50) (k : Fin 5) :
    (iblk1 V c 0 t : S128x50x5.Idx → Elt F .f32) (ix3 r o k) = (V c main_v2 : S1024x50x5.Idx → Elt F .f32) (ix3 (rowOf t r) o k) := by
  obtain ⟨e0, e1, e2, -⟩ := idx1_facts t
  unfold iblk1
  rw [View.read_apply]
  show V c main_v2 _ = V c main_v2 _
  congr 1
  funext a; apply Fin.ext
  match a with
  | ⟨0, _⟩ => show win1_0.index t (0 : Fin 3) * 128 + 1 * r.val = 128 * (t.val / 8) + r.val; rw [e0]; omega
  | ⟨1, _⟩ => show win1_0.index t (1 : Fin 3) * 50 + 1 * o.val = o.val; rw [e1]; omega
  | ⟨2, _⟩ => show win1_0.index t (2 : Fin 3) * 5 + 1 * k.val = k.val; rw [e2]; omega

/-- The key block at `(o, k, l)` is the transposed copy at `(o, k, 128 (t % 8) + l)`. -/
theorem iblk1_1_apply (c : Dev nD) (t : Fin cfg1.N) (o : Fin 50) (k : Fin 5) (l : Fin 128) :
    (iblk1 V c 1 t : S50x5x128.Idx → Elt F .f32) (ix3 o k l) = (V c main_v6 : S50x5x1024.Idx → Elt F .f32) (ix3 o k (colOf t l)) := by
  obtain ⟨-, -, -, e0, e1, e2, -⟩ := idx1_facts t
  unfold iblk1
  rw [View.read_apply]
  show V c main_v6 _ = V c main_v6 _
  congr 1
  funext a; apply Fin.ext
  match a with
  | ⟨0, _⟩ => show win1_1.index t (0 : Fin 3) * 50 + 1 * o.val = o.val; rw [e0]; omega
  | ⟨1, _⟩ => show win1_1.index t (1 : Fin 3) * 5 + 1 * k.val = k.val; rw [e1]; omega
  | ⟨2, _⟩ => show win1_1.index t (2 : Fin 3) * 128 + 1 * l.val = 128 * (t.val % 8) + l.val; rw [e2]; omega

/-- The feature block at `(r, cc)` is the feature rows at `(128 (t / 8) + r, cc)`. -/
theorem iblk1_2_apply (c : Dev nD) (t : Fin cfg1.N) (r : Fin 128) (cc : Fin 64) :
    (iblk1 V c 2 t : S128x64.Idx → Elt F .f32) (ix2 r cc) = (V c main_v1_0 : S1024x64.Idx → Elt F .f32) (ix2 (rowOf t r) cc) := by
  obtain ⟨-, -, -, -, -, -, e0, e1, -⟩ := idx1_facts t
  unfold iblk1
  rw [View.read_apply]
  show V c main_v1_0 _ = V c main_v1_0 _
  congr 1
  funext a; apply Fin.ext
  match a with
  | ⟨0, _⟩ => show win1_2.index t (0 : Fin 2) * 128 + 1 * r.val = 128 * (t.val / 8) + r.val; rw [e0]; omega
  | ⟨1, _⟩ => show win1_2.index t (1 : Fin 2) * 64 + 1 * cc.val = cc.val; rw [e1]; omega

theorem off1_3 (t : Fin cfg1.N) : (fun a => win1_3.index t a * main_v3.ty.shape.size a) = fun _ => 0 :=
  funext fun a => by fin_cases a <;> rfl
theorem off1_4 (t : Fin cfg1.N) : (fun a => win1_4.index t a * main_v4.ty.shape.size a) = fun _ => 0 :=
  funext fun a => by fin_cases a <;> rfl
theorem off1_5 (t : Fin cfg1.N) : (fun a => win1_5.index t a * main_v5.ty.shape.size a) = fun _ => 0 :=
  funext fun a => by fin_cases a <;> rfl

/-- The three small operands' blocks are their whole arrays. -/
theorem iblk1_3_eq (c : Dev nD) (t : Fin cfg1.N) : iblk1 V c 3 t = (V c main_v3 : S64x1.Idx → Elt F .f32) := by
  unfold iblk1
  exact Memref.read_access_unit_zero (Elt F) main_v3 (off1_3 t) (fun a => by rw [congrFun (off1_3 t) a]; simp) (V c main_v3)
theorem iblk1_4_eq (c : Dev nD) (t : Fin cfg1.N) : iblk1 V c 4 t = (V c main_v4 : S50x1.Idx → Elt F .f32) := by
  unfold iblk1
  exact Memref.read_access_unit_zero (Elt F) main_v4 (off1_4 t) (fun a => by rw [congrFun (off1_4 t) a]; simp) (V c main_v4)
theorem iblk1_5_eq (c : Dev nD) (t : Fin cfg1.N) : iblk1 V c 5 t = (V c main_v5 : S1x1.Idx → Elt F .f32) := by
  unfold iblk1
  exact Memref.read_access_unit_zero (Elt F) main_v5 (off1_5 t) (fun a => by rw [congrFun (off1_5 t) a]; simp) (V c main_v5)

/-! ## The score column the region leaves -/

/-- What a flushing point writes back: its 128 rows of `G`, whenever each flushing point leaves `G`'s rows in the
    score window's buffer. -/
theorem flushed1_6_eq (c : Dev nD) (G : S1024x1.Idx → Elt F .f32)
    (hG : ∀ (t : Fin cfg1.N), t.val % 8 = 7 → ∀ r : Fin 128, (outsAt1 V c t.val t.isLt).1 (ix2 r (0 : Fin 1)) = G (ix2 (rowOf t r) (0 : Fin 1)))
    (t : Fin cfg1.N) (hf : (cfg1.win 6).flush t = true) :
    (dat1 V c).flushed 6 t = ((cfg1.win 6).blk t).view.read (Elt F) G := by
  have h7 : t.val % 8 = 7 := (flush1_6 t).mp hf
  obtain ⟨-, -, -, -, -, -, -, -, e0, e1⟩ := idx1_facts t
  show (cfg1.win 6).cut (grid1.coords t) ((dat1 V c).after 6 t) = _
  rw [after1_6]
  funext j
  rw [View.read_apply]
  have hj0 : (j 0).val < 128 := (j 0).isLt
  have hj1 : (j 1).val < 1 := (j 1).isLt
  have h := hG t h7 ⟨(j 0).val, hj0⟩
  show (outsAt1 V c t.val t.isLt).1 _ = G _
  refine Eq.trans (congrArg _ ?_) (h.trans (congrArg G ?_))
  · funext a; apply Fin.ext
    match a with
    | ⟨0, _⟩ => rfl
    | ⟨1, _⟩ => show (j 1).val = 0; omega
  · funext a; apply Fin.ext
    match a with
    | ⟨0, _⟩ => show 128 * (t.val / 8) + (j 0).val = win1_6.index t (0 : Fin 2) * 128 + 1 * (j 0).val; rw [e0]; omega
    | ⟨1, _⟩ => show 0 = win1_6.index t (1 : Fin 2) * 1 + 1 * (j 1).val; rw [e1]; omega

/-- Row `b` of the column is in the block of the last key tile of its query tile, the point `8 (b / 128) + 7`. -/
theorem cover1_6 (i : S1024x1.Idx) : ∃ t : Fin cfg1.N, (cfg1.win 6).flush t = true ∧ i ∈ ((cfg1.win 6).blk t).view.set := by
  have hi0 : (i 0).val < 1024 := (i 0).isLt
  have hi1 : (i 1).val < 1 := (i 1).isLt
  have hlt : 8 * ((i 0).val / 128) + 7 < cfg1.N := by show _ < grid1.N; rw [N_1]; omega
  obtain ⟨-, -, -, -, -, -, -, -, e0, e1⟩ := idx1_facts ⟨8 * ((i 0).val / 128) + 7, hlt⟩
  have e0' : win1_6.index ⟨8 * ((i 0).val / 128) + 7, hlt⟩ (0 : Fin 2) = (8 * ((i 0).val / 128) + 7) / 8 := e0
  refine ⟨⟨8 * ((i 0).val / 128) + 7, hlt⟩, (flush1_6 _).mpr (by show (8 * ((i 0).val / 128) + 7) % 8 = 7; omega), ?_⟩
  show i ∈ ((View.whole main_v7).slice (win1_6.rect ⟨8 * ((i 0).val / 128) + 7, hlt⟩)).set
  rw [View.set_slice_whole, Rect.mem_set_unit]
  intro a
  match a with
  | ⟨0, _⟩ =>
    show win1_6.index ⟨8 * ((i 0).val / 128) + 7, hlt⟩ (0 : Fin 2) * 128 ≤ (i 0).val ∧ (i 0).val < win1_6.index ⟨8 * ((i 0).val / 128) + 7, hlt⟩ (0 : Fin 2) * 128 + 128
    rw [e0']; omega
  | ⟨1, _⟩ =>
    show win1_6.index ⟨8 * ((i 0).val / 128) + 7, hlt⟩ (1 : Fin 2) * 1 ≤ (i 1).val ∧ (i 1).val < win1_6.index ⟨8 * ((i 0).val / 128) + 7, hlt⟩ (1 : Fin 2) * 1 + 1
    rw [e1]; omega

/-- THE SCORE COLUMN after the region: `G`, whenever each flushing point leaves `G`'s rows in the score window's buffer. -/
theorem arr1_6 (c : Dev nD) (G : S1024x1.Idx → Elt F .f32)
    (hG : ∀ (t : Fin cfg1.N), t.val % 8 = 7 → ∀ r : Fin 128, (outsAt1 V c t.val t.isLt).1 (ix2 r (0 : Fin 1)) = G (ix2 (rowOf t r) (0 : Fin 1))) :
    (dat1 V c).arrAt 6 cfg1.N = G :=
  (dat1 V c).arrAt_eq_of_cover 6 G (fun t hf => flushed1_6_eq V c G hG t hf) cover1_6

end Cert.KernelIdeal.Hand

end
-- ==== Proof.KI.R1Val.lean ====
import proofs.«145154_j42898133352735_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1's values: what each case's found pieces are, through the skeleton's payloads -/

theorem hz2 : (![0, 0] : Fin 2 → Nat) = fun _ => 0 := funext fun a => by fin_cases a <;> rfl

/-- The rectangles of the ten loads of the two input blocks: feature `k` of the query block and of the key block. -/
abbrev rq0 : Rect S128x50x5 := Rect.unit (s := S128x50x5) ![0, 0, 0] S128x50x1.size inb_S128x50x5_S128x50x1_0_0_0
abbrev rk0 : Rect S50x5x128 := Rect.unit (s := S50x5x128) ![0, 0, 0] S50x1x128.size inb_S50x5x128_S50x1x128_0_0_0
abbrev rq1 : Rect S128x50x5 := Rect.unit (s := S128x50x5) ![0, 0, 1] S128x50x1.size inb_S128x50x5_S128x50x1_0_0_1
abbrev rk1 : Rect S50x5x128 := Rect.unit (s := S50x5x128) ![0, 1, 0] S50x1x128.size inb_S50x5x128_S50x1x128_0_1_0
abbrev rq2 : Rect S128x50x5 := Rect.unit (s := S128x50x5) ![0, 0, 2] S128x50x1.size inb_S128x50x5_S128x50x1_0_0_2
abbrev rk2 : Rect S50x5x128 := Rect.unit (s := S50x5x128) ![0, 2, 0] S50x1x128.size inb_S50x5x128_S50x1x128_0_2_0
abbrev rq3 : Rect S128x50x5 := Rect.unit (s := S128x50x5) ![0, 0, 3] S128x50x1.size inb_S128x50x5_S128x50x1_0_0_3
abbrev rk3 : Rect S50x5x128 := Rect.unit (s := S50x5x128) ![0, 3, 0] S50x1x128.size inb_S50x5x128_S50x1x128_0_3_0
abbrev rq4 : Rect S128x50x5 := Rect.unit (s := S128x50x5) ![0, 0, 4] S128x50x1.size inb_S128x50x5_S128x50x1_0_0_4
abbrev rk4 : Rect S50x5x128 := Rect.unit (s := S50x5x128) ![0, 4, 0] S50x1x128.size inb_S50x5x128_S50x1x128_0_4_0

/-- One point's accumulation: over an accumulator `a`, the query block `q` and the key block `kT`, the body stores
    `a + Σ_lane exp (−Σ_{k<5} |q[r,o,k] − kT[o,k,lane]|)` — the payload of its accumulator store at the ten loads. -/
def acc1 (q : Vec F S128x50x5 .f32) (kT : Vec F S50x5x128 .f32) (a : Vec F S128x50 .f32) : Vec F S128x50 .f32 :=
  k1_pay1 (k1_pay4 (View.ld q rq0) (View.ld kT rk0) (View.ld q rq1) (View.ld kT rk1)) (k1_pay5 (View.ld q rq2) (View.ld kT rk2))
      (View.ld q rq3) (View.ld kT rk3) (View.ld q rq4) (View.ld kT rk4) a

/-- Cases B and C leave in the accumulator one point's accumulation over what it held. -/
theorem sout1_B_0_eq (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    sout1_B_0 c i arg2 harg2 arg3 harg3 arg4 harg4 arg5 harg5 arg6 harg6 arg7 harg7 arg8 harg8 arg9 harg9 hc0 hc1 x0 x1 x2 x3 x4 x5 xs0 = acc1 x0 x1 xs0 := by
  unfold sout1_B_0 acc1
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero hz2]
  simp only [View.readAt_eq_ld, harg2.read_unread, harg3.read_unread, harg9.read_unread, View.ld_unit_zero (S := S128x50) hz2]

theorem sout1_C_0_eq (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    sout1_C_0 c i arg2 harg2 arg3 harg3 arg4 harg4 arg5 harg5 arg6 harg6 arg7 harg7 arg8 harg8 arg9 harg9 hc0 hc1 x0 x1 x2 x3 x4 x5 xs0 = acc1 x0 x1 xs0 := by
  unfold sout1_C_0 acc1
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz2]
  simp only [View.readAt_eq_ld, harg2.read_unread, harg3.read_unread, harg9.read_unread, View.ld_unit_zero (S := S128x50) hz2]

/-- Case A zeroes the accumulator first: it leaves one point's accumulation over the zeros just stored. -/
theorem sout1_A_0_eq (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : cond1_0 i) (hc1 : ¬cond1_1 i)
    (x0 : Vec F S128x50x5 .f32) (x1 : Vec F S50x5x128 .f32) (x2 : Vec F S128x64 .f32) (x3 : Vec F S64x1 .f32) (x4 : Vec F S50x1 .f32) (x5 : Vec F S1x1 .f32) :
    sout1_A_0 c i arg2 harg2 arg3 harg3 arg4 harg4 arg5 harg5 arg6 harg6 arg7 harg7 arg8 harg8 arg9 harg9 hc0 hc1 x0 x1 x2 x3 x4 x5 = acc1 x0 x1 (k1_pay3 (F := F)) := by
  unfold sout1_A_0 acc1
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S128x50) hz2, View.readCov_unit_zero (S := S128x50) _ hz2]
  simp only [View.readAt_eq_ld, harg2.read_unread, harg3.read_unread, View.ld_unit_zero (S := S128x50) hz2]

/-- Case C stores the score: the query rows' projection plus the projection of (the accumulator just left, minus one),
    plus the bias — the payload of its output store at the accumulator read back and the four whole input blocks. -/
theorem out1_C_6_eq (c : Dev nD) (i : grid1.Coords) (arg2 : Memref sig .tc .vmem S128x50x5 .f32) (harg2 : arg2.IsWhole) (arg3 : Memref sig .tc .vmem S50x5x128 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole) (hc0 : ¬cond1_0 i) (hc1 : cond1_1 i)
    (x0 : Vec F S128x50x5 .f32) (x1 : Vec F S50x5x128 .f32) (x2 : Vec F S128x64 .f32) (x3 : Vec F S64x1 .f32) (x4 : Vec F S50x1 .f32) (x5 : Vec F S1x1 .f32) (xs0 : Vec F S128x50 .f32) :
    out1_C_6 c i arg2 harg2 arg3 harg3 arg4 harg4 arg5 harg5 arg6 harg6 arg7 harg7 arg8 harg8 arg9 harg9 hc0 hc1 x0 x1 x2 x3 x4 x5 xs0 = k1_pay2 (acc1 x0 x1 xs0) x2 x3 x4 x5 := by
  unfold out1_C_6 acc1
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz2, View.readCov_unit_zero (S := S128x50) _ hz2]
  simp only [View.readAt_eq_ld, harg2.read_unread, harg3.read_unread, harg4.read_unread, harg5.read_unread, harg6.read_unread, harg7.read_unread, harg9.read_unread,
    View.ld_unit_zero (S := S128x50) hz2, View.ld_unit_zero (S := S128x64) hz2, View.ld_unit_zero (S := S64x1) hz2, View.ld_unit_zero (S := S50x1) hz2, View.ld_unit_zero (S := S1x1) hz2]

/-! ## The accumulation, point by point, through the payloads -/

/-- After a point of case A (key tile 0): one point's accumulation of the point's two blocks over zeros. -/
theorem outsAt1_A_acc (c : Dev nD) (t : Fin cfg1.N) (h0 : t.val % 8 = 0) (h1 : ¬t.val % 8 = 7) :
    (outsAt1 V c t.val t.isLt).2 = acc1 (iblk1 V c 0 t) (iblk1 V c 1 t) (k1_pay3 (F := F)) := by
  rw [outsAt1_A V c t h0 h1]; dsimp only
  exact sout1_A_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

/-- After a point of case B (key tiles 1…6): the same over what the point before left. -/
theorem outsAt1_B_acc (c : Dev nD) (t : Fin cfg1.N) (h0 : ¬t.val % 8 = 0) (h1 : ¬t.val % 8 = 7) :
    (outsAt1 V c t.val t.isLt).2 = acc1 (iblk1 V c 0 t) (iblk1 V c 1 t) (outsAt1 V c (t.val - 1) (Nat.lt_of_le_of_lt (Nat.sub_le _ _) t.isLt)).2 := by
  rw [outsAt1_B V c t h0 h1]; dsimp only
  exact sout1_B_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- After a point of case C (key tile 7): the same, -/
theorem outsAt1_C_acc (c : Dev nD) (t : Fin cfg1.N) (h0 : ¬t.val % 8 = 0) (h1 : t.val % 8 = 7) :
    (outsAt1 V c t.val t.isLt).2 = acc1 (iblk1 V c 0 t) (iblk1 V c 1 t) (outsAt1 V c (t.val - 1) (Nat.lt_of_le_of_lt (Nat.sub_le _ _) t.isLt)).2 := by
  rw [outsAt1_C V c t h0 h1]; dsimp only
  exact sout1_C_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- so after any point but a query tile's first the accumulator is one point's accumulation over the point before's. -/
theorem outsAt1_step_acc (c : Dev nD) (t : Fin cfg1.N) (h0 : ¬t.val % 8 = 0) :
    (outsAt1 V c t.val t.isLt).2 = acc1 (iblk1 V c 0 t) (iblk1 V c 1 t) (outsAt1 V c (t.val - 1) (Nat.lt_of_le_of_lt (Nat.sub_le _ _) t.isLt)).2 := by
  by_cases h1 : t.val % 8 = 7
  · exact outsAt1_C_acc V c t h0 h1
  · exact outsAt1_B_acc V c t h0 h1

/-- and at a point of case C the output window's buffer holds the score computed from the accumulator just left and
    the point's blocks of the query rows' hidden state, the two weight columns and the bias. -/
theorem outsAt1_C_out (c : Dev nD) (t : Fin cfg1.N) (h0 : ¬t.val % 8 = 0) (h1 : t.val % 8 = 7) :
    (outsAt1 V c t.val t.isLt).1
      = k1_pay2 (outsAt1 V c t.val t.isLt).2 (iblk1 V c 2 t) (iblk1 V c 3 t) (iblk1 V c 4 t) (iblk1 V c 5 t) := by
  rw [outsAt1_C_acc V c t h0 h1, outsAt1_C V c t h0 h1]; dsimp only
  exact out1_C_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

end Cert.KernelIdeal.Hand

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«145154_j42898133352735_2_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.KI.Pay1.lean ====
/-
  The all-pairs kernel's arithmetic at one entry, read at the extended reals.

  For a query tile Mq [128, 50, 5] and a key tile Mk [50, 5, 128] the kernel adds to its running block, at (r, o), the sum
  over the 128 lanes l of exp (−∑_{k<5} |Mq (r, o, k) − Mk (o, k, l)|): five loaded slices of each tile are broadcast
  against each other, their absolute differences summed from a zero block, negated as 0 − s, exponentiated and summed
  along the lanes. At the last key tile it takes the score column: the feature block times its weight column, plus the
  running block minus one times its weight column, plus the bias.
-/
import proofs.«145154_j42898133352735_2_alg».proof.Proof.Gen.KernelIdeal.Skeleton
import proofs.«145154_j42898133352735_2_alg».proof.Proof.LibPlainDot
import Idealize.ShloMosaic.Lib.Pipeline.Value
import Idealize.ShloMosaic.Lib.ValueIdx
import Idealize.ShloMosaic.PureOps.Ideal.Laws

set_option pp.maxSteps 5000
set_option pp.deepTerms false

noncomputable section

open scoped BigOperators

namespace Cert.KernelIdeal.PayValue

open Idealize.ShloMosaic Idealize.ShloMosaic.ValueIdx Cert.KernelIdeal Cert.KernelIdeal.Gen

/-! ## Reading the broadcast slices at an entry -/

/-- A query slice [128, 50, 1], flattened, restored and broadcast along the lanes, read at (r, o, l): the slice at (r, o, 0). -/
theorem bq_apply (v : FVec Ideal S128x50x1 .f32) (h1 : S128x50x1.ShapeCasts S128x50) (h2 : S128x50.ShapeCasts S128x50x1)
    (h3 : S128x50x1.Broadcasts S128x50x128) (r : Fin 128) (o : Fin 50) (l : Fin 128) :
    broadcastTo S128x50x128 (shapeCast S128x50x1 (shapeCast S128x50 v h1) h2) h3 (ix3 r o l) = v (ix3 r o (0 : Fin 1)) := by
  rw [shapeCast_shapeCast]
  exact broadcastTo_apply v h3 (ix3 r o l) (ix3 r o (0 : Fin 1)) fun a => by
    match a with
    | ⟨0, _⟩ => rfl
    | ⟨1, _⟩ => rfl
    | ⟨2, _⟩ => rfl

/-- A key slice [50, 1, 128], flattened, given a leading unit axis and broadcast along the rows, read at (r, o, l): the
    slice at (o, 0, l). -/
theorem bk_apply (w : FVec Ideal S50x1x128 .f32) (h1 : S50x1x128.ShapeCasts S50x128) (h2 : S50x128.ShapeCasts S1x50x128)
    (h3 : S1x50x128.Broadcasts S128x50x128) (r : Fin 128) (o : Fin 50) (l : Fin 128) :
    broadcastTo S128x50x128 (shapeCast S1x50x128 (shapeCast S50x128 w h1) h2) h3 (ix3 r o l) = w (ix3 o (0 : Fin 1) l) := by
  rw [broadcastTo_apply _ h3 (ix3 r o l) (ix3 (0 : Fin 1) o l) (fun a => by
        match a with
        | ⟨0, _⟩ => rfl
        | ⟨1, _⟩ => rfl
        | ⟨2, _⟩ => rfl),
    shapeCast_apply _ h2 (ix3 (0 : Fin 1) o l) (ix2 o l) (by
      rw [Shape.rowMajor_val_two, Shape.rowMajor_val_three]
      show o.val * 128 + l.val = (0 * 50 + o.val) * 128 + l.val
      omega),
    shapeCast_apply _ h1 (ix2 o l) (ix3 o (0 : Fin 1) l) (by
      rw [Shape.rowMajor_val_three, Shape.rowMajor_val_two]
      show (o.val * 1 + 0) * 128 + l.val = o.val * 128 + l.val
      omega)]

/-- The absolute difference of a broadcast query slice and a broadcast key slice at (r, o, l). -/
theorem pair_apply (v : FVec Ideal S128x50x1 .f32) (w : FVec Ideal S50x1x128 .f32)
    (h1 : S128x50x1.ShapeCasts S128x50) (h2 : S128x50.ShapeCasts S128x50x1) (h3 : S128x50x1.Broadcasts S128x50x128)
    (g1 : S50x1x128.ShapeCasts S50x128) (g2 : S50x128.ShapeCasts S1x50x128) (g3 : S1x50x128.Broadcasts S128x50x128)
    (r : Fin 128) (o : Fin 50) (l : Fin 128) :
    absf (subf (broadcastTo S128x50x128 (shapeCast S128x50x1 (shapeCast S128x50 v h1) h2) h3)
        (broadcastTo S128x50x128 (shapeCast S1x50x128 (shapeCast S50x128 w g1) g2) g3)) (ix3 r o l)
      = max (v (ix3 r o (0 : Fin 1)) - w (ix3 o (0 : Fin 1) l)) (-(v (ix3 r o (0 : Fin 1)) - w (ix3 o (0 : Fin 1) l))) := by
  show max (broadcastTo S128x50x128 (shapeCast S128x50x1 (shapeCast S128x50 v h1) h2) h3 (ix3 r o l)
        - broadcastTo S128x50x128 (shapeCast S1x50x128 (shapeCast S50x128 w g1) g2) g3 (ix3 r o l))
      (-(broadcastTo S128x50x128 (shapeCast S128x50x1 (shapeCast S128x50 v h1) h2) h3 (ix3 r o l)
        - broadcastTo S128x50x128 (shapeCast S1x50x128 (shapeCast S50x128 w g1) g2) g3 (ix3 r o l))) = _
  rw [bq_apply, bk_apply]

/-- The sum along the lanes of a [128, 50, 128] array of exact values, at (r, o): the sum over the 128 lanes. -/
theorem lane_sum3 (src : FVec Ideal S128x50x128 .f32) (h : S128x50x128.Reduces [2] S128x50)
    (hφ : FKind.Formats .f32) (hacc : (0x00000000#32 : BitVec 32) = 0x00000000#32) (r : Fin 128) (o : Fin 50) :
    multiReduction .add [2] S128x50 src 0x00000000#32 h hφ hacc (ix2 r o) = ∑ l : Fin 128, src (ix3 r o l) := by
  refine (Ideal.multiReduction_add_single src 0x00000000#32 h hφ hacc (ix2 r o)).trans ?_
  exact Finset.sum_congr rfl fun l _ => congrArg src (funext fun c => Fin.ext (by
    match c with
    | ⟨0, _⟩ => rfl
    | ⟨1, _⟩ => rfl
    | ⟨2, _⟩ => rfl))

theorem exp_apply {s : Shape} (a : FVec Ideal s .f32) (i : s.Idx) : exp a i = Ideal.exp (a i) := rfl

theorem scalar_zero : Scalar.ofBits (F := Ideal) .f32 0x00000000#32 = (0 : EReal) := Ideal.ofBits_zero_f32

theorem ofBits_one_f32 : Ideal.ofBits .f32 0x3F800000#32 = 1 := by
  simp [Ideal.ofBits, Ideal.ieee, -EReal.coe_mul]; norm_num

/-- A [1, 1] array broadcast to a column of 128 reads its one entry at every row. -/
theorem bias_apply (v : FVec Ideal S1x1 .f32) (h : S1x1.Broadcasts S128x1) (r : Fin 128) :
    broadcastTo S128x1 v h (ix2 r (0 : Fin 1)) = v (ix2 (0 : Fin 1) (0 : Fin 1)) :=
  broadcastTo_apply v h (ix2 r (0 : Fin 1)) (ix2 (0 : Fin 1) (0 : Fin 1)) fun a => by
    match a with
    | ⟨0, _⟩ => rfl
    | ⟨1, _⟩ => rfl

/-! ## The all-pairs block -/

section Pairs

variable (Mq : FVec Ideal S128x50x5 .f32) (Mk : FVec Ideal S50x5x128 .f32)
  (v4 v15 v26 v37 v48 : FVec Ideal S128x50x1 .f32) (v6 v17 v28 v39 v50 : FVec Ideal S50x1x128 .f32)
  (acc : FVec Ideal S128x50 .f32)

/-- The running block after one key tile: what it held plus, at (r, o), the lane sum of the similarities. -/
theorem pay1_apply
    (hq0 : ∀ (r : Fin 128) (o : Fin 50), v4 (ix3 r o (0 : Fin 1)) = Mq (ix3 r o (0 : Fin 5)))
    (hq1 : ∀ (r : Fin 128) (o : Fin 50), v15 (ix3 r o (0 : Fin 1)) = Mq (ix3 r o (1 : Fin 5)))
    (hq2 : ∀ (r : Fin 128) (o : Fin 50), v26 (ix3 r o (0 : Fin 1)) = Mq (ix3 r o (2 : Fin 5)))
    (hq3 : ∀ (r : Fin 128) (o : Fin 50), v37 (ix3 r o (0 : Fin 1)) = Mq (ix3 r o (3 : Fin 5)))
    (hq4 : ∀ (r : Fin 128) (o : Fin 50), v48 (ix3 r o (0 : Fin 1)) = Mq (ix3 r o (4 : Fin 5)))
    (hk0 : ∀ (o : Fin 50) (l : Fin 128), v6 (ix3 o (0 : Fin 1) l) = Mk (ix3 o (0 : Fin 5) l))
    (hk1 : ∀ (o : Fin 50) (l : Fin 128), v17 (ix3 o (0 : Fin 1) l) = Mk (ix3 o (1 : Fin 5) l))
    (hk2 : ∀ (o : Fin 50) (l : Fin 128), v28 (ix3 o (0 : Fin 1) l) = Mk (ix3 o (2 : Fin 5) l))
    (hk3 : ∀ (o : Fin 50) (l : Fin 128), v39 (ix3 o (0 : Fin 1) l) = Mk (ix3 o (3 : Fin 5) l))
    (hk4 : ∀ (o : Fin 50) (l : Fin 128), v50 (ix3 o (0 : Fin 1) l) = Mk (ix3 o (4 : Fin 5) l))
    (r : Fin 128) (o : Fin 50) :
    k1_pay1 (F := Ideal) (k1_pay4 v4 v6 v15 v17) (k1_pay5 v26 v28) v37 v39 v48 v50 acc (ix2 r o)
      = acc (ix2 r o) + ∑ l : Fin 128, Ideal.exp (-(∑ k : Fin 5,
          max (Mq (ix3 r o k) - Mk (ix3 o k l)) (-(Mq (ix3 r o k) - Mk (ix3 o k l))))) := by
  simp only [k1_pay1, k1_pay4, k1_pay5]
  simp only [shapeCast_self, addf_apply]
  rw [lane_sum3]
  simp only [exp_apply, subf_apply, addf_apply, broadcast_apply, pair_apply, hq0, hq1, hq2, hq3, hq4, hk0, hk1, hk2, hk3, hk4,
    Ideal.ofBits_def, Ideal.ofBits_zero_f32, zero_add, zero_sub, Fin.sum_univ_five]

/-- The block the running sum starts from is zero. -/
theorem pay3_apply (r : Fin 128) (o : Fin 50) : k1_pay3 (F := Ideal) (ix2 r o) = 0 := by
  simp only [k1_pay3, shapeCast_self, broadcast_apply]
  exact scalar_zero

end Pairs

/-! ## The score column -/

/-- The score of row r of a query tile: the feature row against its weight column, plus the running block less one
    against its weight column, plus the bias. -/
theorem pay2_apply (acc : FVec Ideal S128x50 .f32) (hblk : FVec Ideal S128x64 .f32) (wsh : FVec Ideal S64x1 .f32)
    (wso : FVec Ideal S50x1 .f32) (bsb : FVec Ideal S1x1 .f32) (r : Fin 128) :
    k1_pay2 (F := Ideal) acc hblk wsh wso bsb (ix2 r (0 : Fin 1))
      = (∑ c : Fin 64, hblk (ix2 r c) * wsh (ix2 c (0 : Fin 1)))
        + (∑ o : Fin 50, (acc (ix2 r o) - 1) * wso (ix2 o (0 : Fin 1)))
        + bsb (ix2 (0 : Fin 1) (0 : Fin 1)) := by
  simp only [k1_pay2, shapeCast_self, addf_apply, matmul]
  rw [Cert.LibPlainDot.matmul_zero_apply ⟨rfl, rfl, rfl, rfl, rfl, rfl⟩,
    Cert.LibPlainDot.matmul_zero_apply ⟨rfl, rfl, rfl, rfl, rfl, rfl⟩, bias_apply]
  simp only [subf_apply, broadcast_apply, Ideal.ofBits_def, ofBits_one_f32]

end Cert.KernelIdeal.PayValue

end
-- ==== Proof.KI.TileSum.lean ====
/-
  Eight tile sums are one sum, and a running sum started from zero is the sum of its increments.

  A sum over the 1024 rows, taken tile by tile (8 tiles of 128 rows, row a = 128 · j + l), is the sum over all rows;
  and a sequence that starts at zero and at step j adds the j-th tile's sum ends, after the eight steps, at the sum
  over all rows. Stated in any commutative monoid, so in particular over the extended reals.
-/
import Mathlib.Algebra.BigOperators.Fin
import Mathlib.Algebra.BigOperators.Intervals
import Mathlib.Logic.Equiv.Fin.Basic
import Mathlib.Tactic

open scoped BigOperators

namespace Cert.TileSum

variable {M : Type*} [AddCommMonoid M]

/-- Row l of tile j is a row of the array. -/
theorem tile_lt {a b : ℕ} (j : Fin a) (l : Fin b) : b * j.val + l.val < a * b := by
  have h1 : j.val + 1 ≤ a := j.isLt
  have h2 : l.val < b := l.isLt
  calc b * j.val + l.val < b * j.val + b := by omega
    _ = b * (j.val + 1) := by ring
    _ ≤ b * a := Nat.mul_le_mul_left b h1
    _ = a * b := Nat.mul_comm b a

/-- A sum over a · b rows taken tile by tile (row b · j + l of tile j) is the sum over all rows. -/
theorem sum_tiles (a b : ℕ) (f : Fin (a * b) → M) :
    ∑ j : Fin a, ∑ l : Fin b, f ⟨b * j.val + l.val, tile_lt j l⟩ = ∑ x : Fin (a * b), f x := by
  rw [← Equiv.sum_comp (finProdFinEquiv (m := a) (n := b)) f, Fintype.sum_prod_type]
  refine Finset.sum_congr rfl fun j _ => Finset.sum_congr rfl fun l _ => congrArg f (Fin.ext ?_)
  show b * j.val + l.val = l.val + b * j.val
  omega

/-- Eight tiles of 128 rows: the sum over the 1024 rows. -/
theorem sum_tiles_1024 (f : Fin 1024 → M) :
    ∑ j : Fin 8, ∑ l : Fin 128, f ⟨128 * j.val + l.val, by have := j.isLt; have := l.isLt; omega⟩ = ∑ x : Fin 1024, f x :=
  sum_tiles 8 128 f

/-- A running sum from zero: after n steps, the sum of the first n increments. -/
theorem acc_eq_sum_range (acc s : ℕ → M) (h0 : acc 0 = 0) (n : ℕ) (hs : ∀ j, j < n → acc (j + 1) = acc j + s j) :
    acc n = ∑ j ∈ Finset.range n, s j := by
  induction n with
  | zero => simpa using h0
  | succ n ih =>
    rw [Finset.sum_range_succ, hs n (Nat.lt_succ_self n), ih fun j hj => hs j (Nat.lt_succ_of_lt hj)]

/-- A running sum from zero over the eight tiles: at step j it adds the sum over tile j's 128 rows; after the eight steps
    it is the sum over all 1024 rows. -/
theorem acc_tiles_1024 (g : Fin 1024 → M) (acc : ℕ → M) (h0 : acc 0 = 0)
    (hs : ∀ (j : ℕ) (hj : j < 8), acc (j + 1) = acc j + ∑ l : Fin 128, g ⟨128 * j + l.val, by have := l.isLt; omega⟩) :
    acc 8 = ∑ x : Fin 1024, g x := by
  have h := acc_eq_sum_range acc
    (fun j => if hj : j < 8 then ∑ l : Fin 128, g ⟨128 * j + l.val, by have := l.isLt; omega⟩ else 0) h0 8
    (fun j hj => by rw [hs j hj, dif_pos hj])
  rw [h, Finset.sum_range, ← sum_tiles_1024 g]
  exact Finset.sum_congr rfl fun j _ => by rw [dif_pos j.isLt]

end Cert.TileSum
-- ==== Proof.Spec.lean ====
/-
  The closing stage of the discriminator as one function of its inputs, over the extended reals.

  Given the feature rows `h : [1024, 64]`, the projected rows `M : [1024, 50, 5]`, the scoring column
  `Ws : [114, 1]` and the bias `bs : [1]`:
  * `dist M a b o = ∑ k, |M a o k − M b o k|` is the L1 distance of rows `a` and `b` in kernel `o`
    (the absolute value of an extended real `x` being `max x (−x)`);
  * `closeness M b o = (∑ a, exp (−dist M a b o)) − 1` sums the similarities of row `b` to every row and
    removes the self term;
  * `score h M Ws bs b = ∑ c < 64, h b c · Ws c + ∑ o < 50, closeness M b o · Ws (64 + o) + bs`:
    the product of the joined row `[h b, closeness M b]` with the column, split at the joint.
  Both programs are shown to end at `fun i => score h M Ws bs (i 0)` for the same `h` and `M`.
-/
import Idealize.ShloMosaic.PureOps.Ideal
import Idealize.ShloMosaic.Lib.ValueIdx

noncomputable section

open scoped BigOperators

namespace Cert.PairScore

open Idealize.ShloMosaic Idealize.ShloMosaic.ValueIdx

/-- The L1 distance of rows `a` and `b` of `M` in kernel `o`, over the five coordinates. -/
def dist (M : (⟨3, ![1024, 50, 5]⟩ : Shape).Idx → EReal) (a b : Fin 1024) (o : Fin 50) : EReal :=
  ∑ k : Fin 5, max (M (ix3 a o k) - M (ix3 b o k)) (-(M (ix3 a o k) - M (ix3 b o k)))

/-- Row `b`'s summed similarity to all rows in kernel `o`, the self term `exp 0 = 1` removed. -/
def closeness (M : (⟨3, ![1024, 50, 5]⟩ : Shape).Idx → EReal) (b : Fin 1024) (o : Fin 50) : EReal :=
  (∑ a : Fin 1024, Ideal.exp (-(dist M a b o))) - 1

/-- The score of row `b`: the joined features against the scoring column, plus the bias. -/
def score (h : (⟨2, ![1024, 64]⟩ : Shape).Idx → EReal) (M : (⟨3, ![1024, 50, 5]⟩ : Shape).Idx → EReal)
    (Ws : (⟨2, ![114, 1]⟩ : Shape).Idx → EReal) (bs : (⟨1, ![1]⟩ : Shape).Idx → EReal) (b : Fin 1024) : EReal :=
  (∑ c : Fin 64, h (ix2 b c) * Ws (ix2 (⟨c.val, by omega⟩ : Fin 114) (0 : Fin 1)))
    + (∑ o : Fin 50, closeness M b o * Ws (ix2 (⟨64 + o.val, by omega⟩ : Fin 114) (0 : Fin 1)))
    + bs (ix1 (0 : Fin 1))

/-- The absolute value of a difference of extended reals does not depend on the order, the infinite cases included:
    `⊤ − ⊤` and `⊥ − ⊥` are `⊥` either way, and an infinite difference has absolute value `⊤` either way. -/
theorem abs_sub_comm (x y : EReal) : max (x - y) (-(x - y)) = max (y - x) (-(y - x)) := by
  induction x using EReal.rec <;> induction y using EReal.rec <;>
    simp [EReal.neg_sub, max_comm, sub_eq_add_neg, ← EReal.coe_neg, ← EReal.coe_add, neg_add_rev, add_comm]

/-- The distance is symmetric in the two rows. -/
theorem dist_comm (M : (⟨3, ![1024, 50, 5]⟩ : Shape).Idx → EReal) (a b : Fin 1024) (o : Fin 50) :
    dist M a b o = dist M b a o := by
  unfold dist; exact Finset.sum_congr rfl fun k _ => abs_sub_comm _ _

end Cert.PairScore

end
-- ==== Proof.SpecTiles.lean ====
/-
  The all-pairs stage as the second region sees it: the query rows `Mq : [1024, 50, 5]`, the key rows transposed
  `MkT : [50, 5, 1024]`, the feature rows, the scoring column cut in two (`wsh : [64, 1]`, `wso : [50, 1]`) and the
  bias as a `[1, 1]` array. `score1` is row `b`'s score from these; when `MkT` is the transpose of `Mq` and the two
  column pieces and the bias are the cuts of `Ws` and `bs`, it is `PairScore.score`: the one difference is the order
  of the two rows inside each absolute difference, which does not matter.
-/
import proofs.«145154_j42898133352735_2_alg».proof.Proof.Spec

noncomputable section

open scoped BigOperators

namespace Cert.PairScore

open Idealize.ShloMosaic Idealize.ShloMosaic.ValueIdx

/-- The similarity of query row `b` and key row `a` in kernel `o`: `exp (−∑ₖ |Mq b o k − MkT o k a|)`. -/
def pairTerm (Mq : (⟨3, ![1024, 50, 5]⟩ : Shape).Idx → EReal) (MkT : (⟨3, ![50, 5, 1024]⟩ : Shape).Idx → EReal)
    (b : Fin 1024) (o : Fin 50) (a : Fin 1024) : EReal :=
  Ideal.exp (-(∑ k : Fin 5, max (Mq (ix3 b o k) - MkT (ix3 o k a)) (-(Mq (ix3 b o k) - MkT (ix3 o k a)))))

/-- Row `b`'s score from the second region's inputs. -/
def score1 (Mq : (⟨3, ![1024, 50, 5]⟩ : Shape).Idx → EReal) (MkT : (⟨3, ![50, 5, 1024]⟩ : Shape).Idx → EReal)
    (h : (⟨2, ![1024, 64]⟩ : Shape).Idx → EReal) (wsh : (⟨2, ![64, 1]⟩ : Shape).Idx → EReal)
    (wso : (⟨2, ![50, 1]⟩ : Shape).Idx → EReal) (bsb : (⟨2, ![1, 1]⟩ : Shape).Idx → EReal) (b : Fin 1024) : EReal :=
  (∑ c : Fin 64, h (ix2 b c) * wsh (ix2 c (0 : Fin 1)))
    + (∑ o : Fin 50, ((∑ a : Fin 1024, pairTerm Mq MkT b o a) - 1) * wso (ix2 o (0 : Fin 1)))
    + bsb (ix2 (0 : Fin 1) (0 : Fin 1))

/-- With the key rows the transpose of the query rows, the column pieces the two cuts of `Ws` and the bias that of
    `bs`, the second region's score is the specification's. -/
theorem score1_eq_score (M : (⟨3, ![1024, 50, 5]⟩ : Shape).Idx → EReal) (MkT : (⟨3, ![50, 5, 1024]⟩ : Shape).Idx → EReal)
    (h : (⟨2, ![1024, 64]⟩ : Shape).Idx → EReal) (wsh : (⟨2, ![64, 1]⟩ : Shape).Idx → EReal)
    (wso : (⟨2, ![50, 1]⟩ : Shape).Idx → EReal) (bsb : (⟨2, ![1, 1]⟩ : Shape).Idx → EReal)
    (Ws : (⟨2, ![114, 1]⟩ : Shape).Idx → EReal) (bs : (⟨1, ![1]⟩ : Shape).Idx → EReal)
    (hT : ∀ (o : Fin 50) (k : Fin 5) (a : Fin 1024), MkT (ix3 o k a) = M (ix3 a o k))
    (hsh : ∀ c : Fin 64, wsh (ix2 c (0 : Fin 1)) = Ws (ix2 (⟨c.val, by omega⟩ : Fin 114) (0 : Fin 1)))
    (hso : ∀ o : Fin 50, wso (ix2 o (0 : Fin 1)) = Ws (ix2 (⟨64 + o.val, by omega⟩ : Fin 114) (0 : Fin 1)))
    (hb : bsb (ix2 (0 : Fin 1) (0 : Fin 1)) = bs (ix1 (0 : Fin 1))) (b : Fin 1024) :
    score1 M MkT h wsh wso bsb b = score h M Ws bs b := by
  unfold score1 score closeness
  rw [hb]
  congr 1
  congr 1
  · exact Finset.sum_congr rfl fun c _ => by rw [hsh c]
  · refine Finset.sum_congr rfl fun o _ => ?_
    rw [hso o]
    congr 2
    refine Finset.sum_congr rfl fun a _ => ?_
    unfold pairTerm dist
    congr 2
    refine Finset.sum_congr rfl fun k _ => ?_
    rw [hT o k a]
    exact abs_sub_comm _ _

end Cert.PairScore

end
-- ==== Proof.KI.R1Sum.lean ====
import proofs.«145154_j42898133352735_2_alg».proof.Proof.KI.R1Val
import proofs.«145154_j42898133352735_2_alg».proof.Proof.KI.R1Blocks
import proofs.«145154_j42898133352735_2_alg».proof.Proof.KI.Pay1
import proofs.«145154_j42898133352735_2_alg».proof.Proof.KI.TileSum
import proofs.«145154_j42898133352735_2_alg».proof.Proof.SpecTiles

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # Region 1 at the extended reals: one point's accumulation, the sum over a query tile's key tiles, the score -/

/-! ## The ten loads at an entry: feature `k` of a query row, of a key row -/

theorem ld_rq0 (q : Vec Ideal S128x50x5 .f32) (r : Fin 128) (o : Fin 50) :
    (View.ld q rq0 : Vec Ideal S128x50x1 .f32) (ix3 r o (0 : Fin 1)) = q (ix3 r o (0 : Fin 5)) := by
  show q (rq0.idx (ix3 r o (0 : Fin 1))) = q (ix3 r o (0 : Fin 5))
  congr 1; funext a; apply Fin.ext
  match a with
  | ⟨0, _⟩ => show 0 + 1 * r.val = r.val; omega
  | ⟨1, _⟩ => show 0 + 1 * o.val = o.val; omega
  | ⟨2, _⟩ => rfl

theorem ld_rk0 (kT : Vec Ideal S50x5x128 .f32) (o : Fin 50) (l : Fin 128) :
    (View.ld kT rk0 : Vec Ideal S50x1x128 .f32) (ix3 o (0 : Fin 1) l) = kT (ix3 o (0 : Fin 5) l) := by
  show kT (rk0.idx (ix3 o (0 : Fin 1) l)) = kT (ix3 o (0 : Fin 5) l)
  congr 1; funext a; apply Fin.ext
  match a with
  | ⟨0, _⟩ => show 0 + 1 * o.val = o.val; omega
  | ⟨1, _⟩ => rfl
  | ⟨2, _⟩ => show 0 + 1 * l.val = l.val; omega

theorem ld_rq1 (q : Vec Ideal S128x50x5 .f32) (r : Fin 128) (o : Fin 50) :
    (View.ld q rq1 : Vec Ideal S128x50x1 .f32) (ix3 r o (0 : Fin 1)) = q (ix3 r o (1 : Fin 5)) := by
  show q (rq1.idx (ix3 r o (0 : Fin 1))) = q (ix3 r o (1 : Fin 5))
  congr 1; funext a; apply Fin.ext
  match a with
  | ⟨0, _⟩ => show 0 + 1 * r.val = r.val; omega
  | ⟨1, _⟩ => show 0 + 1 * o.val = o.val; omega
  | ⟨2, _⟩ => rfl

theorem ld_rk1 (kT : Vec Ideal S50x5x128 .f32) (o : Fin 50) (l : Fin 128) :
    (View.ld kT rk1 : Vec Ideal S50x1x128 .f32) (ix3 o (0 : Fin 1) l) = kT (ix3 o (1 : Fin 5) l) := by
  show kT (rk1.idx (ix3 o (0 : Fin 1) l)) = kT (ix3 o (1 : Fin 5) l)
  congr 1; funext a; apply Fin.ext
  match a with
  | ⟨0, _⟩ => show 0 + 1 * o.val = o.val; omega
  | ⟨1, _⟩ => rfl
  | ⟨2, _⟩ => show 0 + 1 * l.val = l.val; omega

theorem ld_rq2 (q : Vec Ideal S128x50x5 .f32) (r : Fin 128) (o : Fin 50) :
    (View.ld q rq2 : Vec Ideal S128x50x1 .f32) (ix3 r o (0 : Fin 1)) = q (ix3 r o (2 : Fin 5)) := by
  show q (rq2.idx (ix3 r o (0 : Fin 1))) = q (ix3 r o (2 : Fin 5))
  congr 1; funext a; apply Fin.ext
  match a with
  | ⟨0, _⟩ => show 0 + 1 * r.val = r.val; omega
  | ⟨1, _⟩ => show 0 + 1 * o.val = o.val; omega
  | ⟨2, _⟩ => rfl

theorem ld_rk2 (kT : Vec Ideal S50x5x128 .f32) (o : Fin 50) (l : Fin 128) :
    (View.ld kT rk2 : Vec Ideal S50x1x128 .f32) (ix3 o (0 : Fin 1) l) = kT (ix3 o (2 : Fin 5) l) := by
  show kT (rk2.idx (ix3 o (0 : Fin 1) l)) = kT (ix3 o (2 : Fin 5) l)
  congr 1; funext a; apply Fin.ext
  match a with
  | ⟨0, _⟩ => show 0 + 1 * o.val = o.val; omega
  | ⟨1, _⟩ => rfl
  | ⟨2, _⟩ => show 0 + 1 * l.val = l.val; omega

theorem ld_rq3 (q : Vec Ideal S128x50x5 .f32) (r : Fin 128) (o : Fin 50) :
    (View.ld q rq3 : Vec Ideal S128x50x1 .f32) (ix3 r o (0 : Fin 1)) = q (ix3 r o (3 : Fin 5)) := by
  show q (rq3.idx (ix3 r o (0 : Fin 1))) = q (ix3 r o (3 : Fin 5))
  congr 1; funext a; apply Fin.ext
  match a with
  | ⟨0, _⟩ => show 0 + 1 * r.val = r.val; omega
  | ⟨1, _⟩ => show 0 + 1 * o.val = o.val; omega
  | ⟨2, _⟩ => rfl

theorem ld_rk3 (kT : Vec Ideal S50x5x128 .f32) (o : Fin 50) (l : Fin 128) :
    (View.ld kT rk3 : Vec Ideal S50x1x128 .f32) (ix3 o (0 : Fin 1) l) = kT (ix3 o (3 : Fin 5) l) := by
  show kT (rk3.idx (ix3 o (0 : Fin 1) l)) = kT (ix3 o (3 : Fin 5) l)
  congr 1; funext a; apply Fin.ext
  match a with
  | ⟨0, _⟩ => show 0 + 1 * o.val = o.val; omega
  | ⟨1, _⟩ => rfl
  | ⟨2, _⟩ => show 0 + 1 * l.val = l.val; omega

theorem ld_rq4 (q : Vec Ideal S128x50x5 .f32) (r : Fin 128) (o : Fin 50) :
    (View.ld q rq4 : Vec Ideal S128x50x1 .f32) (ix3 r o (0 : Fin 1)) = q (ix3 r o (4 : Fin 5)) := by
  show q (rq4.idx (ix3 r o (0 : Fin 1))) = q (ix3 r o (4 : Fin 5))
  congr 1; funext a; apply Fin.ext
  match a with
  | ⟨0, _⟩ => show 0 + 1 * r.val = r.val; omega
  | ⟨1, _⟩ => show 0 + 1 * o.val = o.val; omega
  | ⟨2, _⟩ => rfl

theorem ld_rk4 (kT : Vec Ideal S50x5x128 .f32) (o : Fin 50) (l : Fin 128) :
    (View.ld kT rk4 : Vec Ideal S50x1x128 .f32) (ix3 o (0 : Fin 1) l) = kT (ix3 o (4 : Fin 5) l) := by
  show kT (rk4.idx (ix3 o (0 : Fin 1) l)) = kT (ix3 o (4 : Fin 5) l)
  congr 1; funext a; apply Fin.ext
  match a with
  | ⟨0, _⟩ => show 0 + 1 * o.val = o.val; omega
  | ⟨1, _⟩ => rfl
  | ⟨2, _⟩ => show 0 + 1 * l.val = l.val; omega

/-- One point's accumulation at (r, o): what the accumulator held plus the lane sum of the similarities of query row r
    and the key tile's 128 rows in kernel o. -/
theorem acc1_apply (q : Vec Ideal S128x50x5 .f32) (kT : Vec Ideal S50x5x128 .f32) (a : Vec Ideal S128x50 .f32) (r : Fin 128) (o : Fin 50) :
    acc1 q kT a (ix2 r o) = a (ix2 r o) + ∑ l : Fin 128, Ideal.exp (-(∑ k : Fin 5,
        max (q (ix3 r o k) - kT (ix3 o k l)) (-(q (ix3 r o k) - kT (ix3 o k l))))) := by
  unfold acc1
  exact Cert.KernelIdeal.PayValue.pay1_apply (Mq := q) (Mk := kT) (v4 := View.ld q rq0) (v15 := View.ld q rq1) (v26 := View.ld q rq2)
    (v37 := View.ld q rq3) (v48 := View.ld q rq4) (v6 := View.ld kT rk0) (v17 := View.ld kT rk1) (v28 := View.ld kT rk2)
    (v39 := View.ld kT rk3) (v50 := View.ld kT rk4) (acc := a)
    (ld_rq0 q) (ld_rq1 q) (ld_rq2 q) (ld_rq3 q) (ld_rq4 q) (ld_rk0 kT) (ld_rk1 kT) (ld_rk2 kT) (ld_rk3 kT) (ld_rk4 kT) r o

/-! ## The sum over a query tile's key tiles -/

variable (V : (c : Dev nD) → (b : Ref sig .tc) → Buf (Elt Ideal) ((c : Thread nD τ).loc b))

/-- The similarities of query row `b` and the 128 rows of key tile `j` in kernel `o`, summed (zero past the eighth tile). -/
def tileSum (c : Dev nD) (b : Fin 1024) (o : Fin 50) (j : ℕ) : EReal :=
  ∑ l : Fin 128, if h : 128 * j + l.val < 1024 then Cert.PairScore.pairTerm (V c main_v2 : S1024x50x5.Idx → Elt Ideal .f32) (V c main_v6 : S50x5x1024.Idx → Elt Ideal .f32) b o ⟨128 * j + l.val, h⟩ else 0

/-- What one point adds at (r, o) is the tile sum of the point's key tile for the point's query row: for blocks `q`,
    `kT` that are the point's row block of the queries and column block of the transposed keys. -/
theorem point_tile (c : Dev nD) (t : Fin cfg1.N) (r : Fin 128) (o : Fin 50)
    (q : Vec Ideal S128x50x5 .f32) (kT : Vec Ideal S50x5x128 .f32)
    (hq : ∀ (r : Fin 128) (o : Fin 50) (k : Fin 5), q (ix3 r o k) = (V c main_v2 : S1024x50x5.Idx → Elt Ideal .f32) (ix3 (rowOf t r) o k))
    (hk : ∀ (o : Fin 50) (k : Fin 5) (l : Fin 128), kT (ix3 o k l) = (V c main_v6 : S50x5x1024.Idx → Elt Ideal .f32) (ix3 o k (colOf t l))) :
    (∑ l : Fin 128, Ideal.exp (-(∑ k : Fin 5,
        max (q (ix3 r o k) - kT (ix3 o k l)) (-(q (ix3 r o k) - kT (ix3 o k l))))))
      = tileSum V c (rowOf t r) o (t.val % 8) := by
  unfold tileSum
  refine Finset.sum_congr rfl fun l _ => ?_
  have hl : 128 * (t.val % 8) + l.val < 1024 := by have := l.isLt; omega
  rw [dif_pos hl]
  unfold Cert.PairScore.pairTerm
  simp only [hq, hk]
  rfl

/-- THE ACCUMULATION: after point `t` the accumulator holds at (r, o) the tile sums of the key tiles so far. -/
theorem scratch_sum (c : Dev nD) (r : Fin 128) (o : Fin 50) : ∀ (n : ℕ) (t : Fin cfg1.N), t.val = n →
    (outsAt1 V c t.val t.isLt).2 (ix2 r o) = ∑ j ∈ Finset.range (t.val % 8 + 1), tileSum V c (rowOf t r) o j := by
  intro n
  induction n with
  | zero =>
    intro t ht
    have h0 : t.val % 8 = 0 := by omega
    rw [outsAt1_A_acc V c t h0 (by omega), acc1_apply, Cert.KernelIdeal.PayValue.pay3_apply, zero_add, point_tile V c t r o (iblk1 V c 0 t) (iblk1 V c 1 t) (iblk1_0_apply V c t) (iblk1_1_apply V c t), h0,
      Finset.sum_range_one]
  | succ n ih =>
    intro t ht
    by_cases h0 : t.val % 8 = 0
    · rw [outsAt1_A_acc V c t h0 (by omega), acc1_apply, Cert.KernelIdeal.PayValue.pay3_apply, zero_add, point_tile V c t r o (iblk1 V c 0 t) (iblk1 V c 1 t) (iblk1_0_apply V c t) (iblk1_1_apply V c t), h0,
        Finset.sum_range_one]
    · have hlt : t.val - 1 < cfg1.N := Nat.lt_of_le_of_lt (Nat.sub_le _ _) t.isLt
      have hrow : rowOf ⟨t.val - 1, hlt⟩ r = rowOf t r := Fin.ext (by
        show 128 * ((t.val - 1) / 8) + r.val = 128 * (t.val / 8) + r.val
        omega)
      have hprev : (outsAt1 V c (t.val - 1) hlt).2 (ix2 r o)
          = ∑ j ∈ Finset.range ((t.val - 1) % 8 + 1), tileSum V c (rowOf ⟨t.val - 1, hlt⟩ r) o j :=
        ih ⟨t.val - 1, hlt⟩ (by show t.val - 1 = n; omega)
      rw [outsAt1_step_acc V c t h0, acc1_apply, hprev, hrow, point_tile V c t r o (iblk1 V c 0 t) (iblk1 V c 1 t) (iblk1_0_apply V c t) (iblk1_1_apply V c t),
        show (t.val - 1) % 8 + 1 = t.val % 8 from by omega, ← Finset.sum_range_succ]

/-- The eight tile sums are the sum over all 1024 key rows. -/
theorem tiles_all (c : Dev nD) (b : Fin 1024) (o : Fin 50) :
    ∑ j ∈ Finset.range 8, tileSum V c b o j = ∑ a : Fin 1024, Cert.PairScore.pairTerm (V c main_v2 : S1024x50x5.Idx → Elt Ideal .f32) (V c main_v6 : S50x5x1024.Idx → Elt Ideal .f32) b o a := by
  rw [Finset.sum_range, ← Cert.TileSum.sum_tiles_1024]
  refine Finset.sum_congr rfl fun j _ => ?_
  unfold tileSum
  refine Finset.sum_congr rfl fun l _ => ?_
  have h : 128 * j.val + l.val < 1024 := by have := j.isLt; have := l.isLt; omega
  rw [dif_pos h]

/-- After a query tile's last point the accumulator holds, at (r, o), the sum over all key rows. -/
theorem acc_full (c : Dev nD) (t : Fin cfg1.N) (h7 : t.val % 8 = 7) (r : Fin 128) (o : Fin 50) :
    (outsAt1 V c t.val t.isLt).2 (ix2 r o) = ∑ a : Fin 1024, Cert.PairScore.pairTerm (V c main_v2 : S1024x50x5.Idx → Elt Ideal .f32) (V c main_v6 : S50x5x1024.Idx → Elt Ideal .f32) (rowOf t r) o a := by
  rw [scratch_sum V c r o t.val t rfl, h7]
  exact tiles_all V c (rowOf t r) o

/-! ## The score -/

/-- THE TARGET: at a query tile's last point the output window's buffer holds, at row r, that row's score. -/
theorem out_block (c : Dev nD) (t : Fin cfg1.N) (h7 : t.val % 8 = 7) (r : Fin 128) :
    (outsAt1 V c t.val t.isLt).1 (ix2 r (0 : Fin 1))
      = Cert.PairScore.score1 (V c main_v2 : S1024x50x5.Idx → Elt Ideal .f32) (V c main_v6 : S50x5x1024.Idx → Elt Ideal .f32) (V c main_v1_0 : S1024x64.Idx → Elt Ideal .f32) (V c main_v3 : S64x1.Idx → Elt Ideal .f32)
          (V c main_v4 : S50x1.Idx → Elt Ideal .f32) (V c main_v5 : S1x1.Idx → Elt Ideal .f32) (rowOf t r) := by
  have h0 : ¬t.val % 8 = 0 := by omega
  rw [outsAt1_C_out V c t h0 h7, Cert.KernelIdeal.PayValue.pay2_apply]
  unfold Cert.PairScore.score1
  simp only [acc_full V c t h7, iblk1_2_apply, iblk1_3_eq, iblk1_4_eq, iblk1_5_eq]

end Cert.KernelIdeal.Hand

end
-- ==== Proof.LibSameOps.lean ====
/-
  Kernel-side vector operations and the host's operations that compute the same array.

  A Pallas kernel body and a jnp reference spell one mathematical step in two vocabularies: a lane
  reduction (`vector.multi_reduction`) against `stablehlo.reduce`; a `vector.shape_cast` that adds a
  unit axis, or a `vector.broadcast`, against `stablehlo.broadcast_in_dim`; a scalar splat against the
  broadcast of a rank-0 constant. Read at the extended reals each pair is ONE function of the operand
  array. The lemmas below state that, as equalities of whole arrays, generic in the extents, so that a
  proof about two programs that take the same steps in the same order can rewrite one vocabulary into the
  other and compare terms.
-/
import Idealize.ShloMosaic.PureOps.Ideal.Laws
import Idealize.ShloMosaic.Lib.Pipeline.Value
import Idealize.ShloMosaic.Lib.ValueIdx

noncomputable section

namespace Cert.SameOps

open Idealize.ShloMosaic

variable {α : Type}

/-! ## Reductions over one axis

  A printed reduction carries a proof that its accumulator word is the operation's neutral word; printed, that
  proof is of the word's equality with itself, and the lemmas below take it in that form. -/

/-- The sum over one axis from the zero word: the kernel's lane sum is the host's `reduce` with an `add`
    body from the rank-0 zero. Both are, at each kept index, the exact sum over the dropped coordinate. -/
theorem laneSum_eq_hostSum {s t u : Shape} {a : Fin s.rank} (src : FVec Ideal s .f32)
    (h : s.Reduces [a] t) (hφ : FKind.Formats .f32) (hacc : (0x00000000#32 : BitVec 32) = 0x00000000#32)
    (h' : s.ReducesTo [a] t) (hu : 0 < u.numel) :
    multiReduction .add [a] t src 0x00000000#32 h hφ hacc
      = Host.reduceAdd src (constant u .f32 0x00000000#32) h' hu := by
  funext j
  refine (Ideal.multiReduction_add_single src _ h hφ hacc j).trans ?_
  simp only [Host.reduceAdd, Ideal.hostReduceAdd_def]
  rw [Ideal.hostReduceAdd_single h' h]
  show _ = Ideal.ofBits .f32 0x00000000#32 + _
  rw [Ideal.ofBits_zero_f32, zero_add]

/-- The minimum over one axis from +∞: the kernel's lane minimum is the host's `reduce` with a `minimum`
    body from the rank-0 constant +∞: the fold of `min` from the seed over the dropped coordinate, in any
    order. -/
theorem laneMin_eq_hostMin {s t u : Shape} {a : Fin s.rank} (src : FVec Ideal s .f32)
    (h : s.Reduces [a] t) (hφ : FKind.Formats .f32) (hacc : (0x7F800000#32 : BitVec 32) = 0x7F800000#32)
    (h' : s.ReducesTo [a] t) (hu : 0 < u.numel) :
    multiReduction .minimumf [a] t src 0x7F800000#32 h hφ hacc
      = Host.reduce FloatOps.minimumf src (constant u .f32 0x7F800000#32) h' hu := by
  funext j
  refine (multiReduction_minimumf_eq_fold src _ h hφ hacc j).trans ?_
  rw [h.fold_filter_drop_single, Host.reduce_eq_fold_single FloatOps.minimumf src _ h' h hu]
  rfl

/-- The maximum over one axis from −∞, likewise. -/
theorem laneMax_eq_hostMax {s t u : Shape} {a : Fin s.rank} (src : FVec Ideal s .f32)
    (h : s.Reduces [a] t) (hφ : FKind.Formats .f32) (hacc : (0xFF800000#32 : BitVec 32) = 0xFF800000#32)
    (h' : s.ReducesTo [a] t) (hu : 0 < u.numel) :
    multiReduction .maximumf [a] t src 0xFF800000#32 h hφ hacc
      = Host.reduce FloatOps.maximumf src (constant u .f32 0xFF800000#32) h' hu := by
  funext j
  refine (multiReduction_maximumf_eq_fold src _ h hφ hacc j).trans ?_
  rw [h.fold_filter_drop_single, Host.reduce_eq_fold_single FloatOps.maximumf src _ h' h hu]
  rfl

/-! ## Unit axes and broadcasts -/

/-- A vector of `a` entries as a column: the shape cast [a] → [a, 1] is the broadcast along new axis 1
    (`dims = [0]`): entry (p, 0) is entry p. -/
theorem castCol_eq_bcast {a : Nat} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v h = broadcastInDim ⟨2, ![a, 1]⟩ ![0] hb v := by
  funext j
  have h1 : (j 1).val < 1 := (j 1).isLt
  have h0 : (j 0).val < a := (j 0).isLt
  rw [shapeCast_apply v h j (ValueIdx.ix1 (⟨(j 0).val, h0⟩ : Fin a)) (by
      rw [Shape.rowMajor_val_one, Shape.rowMajor_val_two]
      show (j 0).val = (j 0).val * 1 + (j 1).val
      omega),
    broadcastInDim_apply ![0] hb v j (ValueIdx.ix1 (⟨(j 0).val, h0⟩ : Fin a)) (fun b => by
      match b with
      | ⟨0, _⟩ =>
        show (j 0).val = if a = 1 then 0 else (j 0).val
        split_ifs with e
        · omega
        · rfl)]

/-- A vector of `b` entries as a row: the shape cast [b] → [1, b] is the broadcast along new axis 0
    (`dims = [1]`): entry (0, q) is entry q. -/
theorem castRow_eq_bcast {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  have h0 : (j 0).val < 1 := (j 0).isLt
  have h1 : (j 1).val < b := (j 1).isLt
  rw [shapeCast_apply v h j (ValueIdx.ix1 (⟨(j 1).val, h1⟩ : Fin b)) (by
      rw [Shape.rowMajor_val_one, Shape.rowMajor_val_two]
      show (j 1).val = (j 0).val * b + (j 1).val
      have : (j 0).val = 0 := by omega
      rw [this, Nat.zero_mul, Nat.zero_add]),
    broadcastInDim_apply ![1] hb v j (ValueIdx.ix1 (⟨(j 1).val, h1⟩ : Fin b)) (fun c => by
      match c with
      | ⟨0, _⟩ =>
        show (j 1).val = if b = 1 then 0 else (j 1).val
        split_ifs with e
        · omega
        · rfl)]

/-- Between two rank-2 shapes a `vector.broadcast` is the `broadcast_in_dim` with `dims = [0, 1]`: each
    unit axis of the operand is read at 0, each other axis at the result's coordinate. -/
theorem broadcastTo_eq_inDim2 {d e : Fin 2 → Nat} (v : (⟨2, d⟩ : Shape).Idx → α)
    (h : (⟨2, d⟩ : Shape).Broadcasts ⟨2, e⟩) (hb : (⟨2, d⟩ : Shape).BroadcastsInDim ⟨2, e⟩ ![0, 1]) :
    broadcastTo ⟨2, e⟩ v h = broadcastInDim ⟨2, e⟩ ![0, 1] hb v := by
  funext j
  unfold broadcastTo broadcastInDim
  refine congrArg v (funext fun a => ?_)
  by_cases h1 : (⟨2, d⟩ : Shape).size a = 1
  · rw [dif_pos h1, dif_pos h1]
  · rw [dif_neg h1, dif_neg h1]
    apply Fin.ext
    match a with
    | ⟨0, _⟩ => rfl
    | ⟨1, _⟩ => rfl

/-- A scalar splat is the broadcast of the rank-0 constant of the same word. -/
theorem splat_eq_bcast {t : Shape} (w : BitVec 32) (hb : (⟨0, ![]⟩ : Shape).BroadcastsInDim t ![]) :
    broadcast t (Scalar.ofBits (F := Ideal) .f32 w) = broadcastInDim t ![] hb (constant (F := Ideal) ⟨0, ![]⟩ .f32 w) := by
  funext j
  rfl

/-- A shape cast to the same shape changes nothing. -/
theorem shapeCast_same {s : Shape} (v : s.Idx → α) (h : s.ShapeCasts s) : shapeCast s v h = v :=
  shapeCast_self v h

/-! ## Elementwise operations: one spelling in a kernel body, another on the host -/

variable {s : Shape}

theorem sqrt_eq_host (v : FVec Ideal s .f32) : sqrt v = Host.sqrt v := rfl
theorem exp_eq_host (v : FVec Ideal s .f32) : exp v = Host.exp v := rfl
theorem tanh_eq_host (v : FVec Ideal s .f32) : tanh v = Host.tanh v := rfl
theorem divf_eq_host (v w : FVec Ideal s .f32) : divf v w = Host.divf v w := rfl

/-! ## Products with one contracted axis -/

/-- A `tpu.matmul` into the zero accumulator, read at an entry: the sum over the one contracted
    coordinate of the products of the operands at the indices the caller names (`li`, `ri`). -/
theorem matmul_zero_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    matmul d none l r (constant so .f32 0x00000000#32) j = ∑ k : Fin n, l (li k) * r (ri k) := by
  simp only [matmul]
  rw [Ideal.matmul_constant_zero_apply, ← Equiv.sum_comp (ValueIdx.contrEquiv1 d n hr hs).symm]
  exact Finset.sum_congr rfl fun k _ => by rw [hl k, hri k]

/-- The host's `dot_general`, read at an entry, likewise. -/
theorem hostDot_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    Host.dotGeneral d none l r j = ∑ k : Fin n, l (li k) * r (ri k) := by
  simp only [Host.dotGeneral]
  rw [Ideal.dotGeneral_apply, ← Equiv.sum_comp (ValueIdx.contrEquiv1 d n hr hs).symm]
  exact Finset.sum_congr rfl fun k _ => by rw [hl k, hri k]

end Cert.SameOps

end
-- ==== Proof.KI.Pay0.lean ====
/-
  The backbone kernel's arithmetic, read at the extended reals, as whole arrays.

  The backbone computes, from the input rows and the layer parameters, the feature rows h [1024, 64] and the
  projected rows M [1024, 250]: five products (each operand rounded to bf16 on the way in, which is the identity
  at the extended reals), a batch normalisation over the rows, and the leaky rectifier with slope 0.2. The
  reference takes the same steps in the host's vocabulary. The statements below say that the kernel's values are
  the reference's stage values: step by step the same array, with one re-association of a sum at the end
  (h3 + (r + bo) against (h3 + r) + bo).
-/
import proofs.«145154_j42898133352735_2_alg».proof.Proof.Gen.KernelIdeal.Skeleton
import proofs.«145154_j42898133352735_2_alg».proof.Proof.RefRead
import proofs.«145154_j42898133352735_2_alg».proof.Proof.LibSameOps

set_option pp.maxSteps 5000
set_option pp.deepTerms false

noncomputable section

namespace Cert.KernelIdeal.PayValue

open Idealize.ShloMosaic Cert.KernelIdeal Cert.KernelIdeal.Gen

/-! ## Kernel operations and the host's, as whole arrays -/

section Generic

variable {s t : Shape}

/-- A product whose operands are rounded to bf16, into the zero accumulator, is the host's product of the
    unrounded operands: rounding is the identity and both are the exact sums over the contracted coordinate. -/
theorem matmul_trunc_eq_dot {sl sr so : Shape} (d d' : DotDims sl sr so) (hd : d = d')
    (a : FVec Ideal sl .f32) (W : FVec Ideal sr .f32) (ha : FTy.bf16.bits < FTy.f32.bits) (hW : FTy.bf16.bits < FTy.f32.bits) :
    matmul d none (truncf .bf16 a ha) (truncf .bf16 W hW) (constant so .f32 0x00000000#32)
      = Host.dotGeneral (F := Ideal) d' none a W := by
  subst hd
  funext j
  simp only [matmul, Host.dotGeneral]
  rw [Ideal.matmul_constant_zero_apply, Ideal.dotGeneral_apply]
  rfl

/-- Dividing a broadcast array by a splat is the broadcast of the host's quotient by the same constant. -/
theorem keep_divf (dims : Fin s.rank → Fin t.rank) (h : s.BroadcastsInDim t dims) (a : FVec Ideal s .f32) (w : BitVec 32)
    (hb : (⟨0, ![]⟩ : Shape).BroadcastsInDim s ![]) :
    divf (broadcastInDim t dims h a) (broadcast t (Scalar.ofBits (F := Ideal) .f32 w))
      = broadcastInDim t dims h (Host.divf (F := Ideal) a (broadcastInDim s ![] hb (constant (F := Ideal) ⟨0, ![]⟩ .f32 w))) := by
  funext j; rfl

/-- Adding a splat to a broadcast array likewise. -/
theorem keep_addf (dims : Fin s.rank → Fin t.rank) (h : s.BroadcastsInDim t dims) (a : FVec Ideal s .f32) (w : BitVec 32)
    (hb : (⟨0, ![]⟩ : Shape).BroadcastsInDim s ![]) :
    addf (broadcastInDim t dims h a) (broadcast t (Scalar.ofBits (F := Ideal) .f32 w))
      = broadcastInDim t dims h (addf a (broadcastInDim s ![] hb (constant (F := Ideal) ⟨0, ![]⟩ .f32 w))) := by
  funext j; rfl

/-- The reciprocal square root of a broadcast array is the broadcast of the host's. -/
theorem keep_rsqrt (dims : Fin s.rank → Fin t.rank) (h : s.BroadcastsInDim t dims) (a : FVec Ideal s .f32) :
    rsqrt (broadcastInDim t dims h a) = broadcastInDim t dims h (Host.rsqrt (F := Ideal) a) := by
  funext j; rfl

/-- A sum of three arrays re-associated. -/
theorem addf_assoc (a b c : FVec Ideal s .f32) : addf a (addf b c) = addf (addf a b) c := by
  funext j
  exact (add_assoc (a j) (b j) (c j)).symm

end Generic

/-! ## The backbone -/

section Backbone

variable (x : FVec Ideal S1024x128 .f32) (W1 : FVec Ideal S128x256 .f32) (b1 : FVec Ideal S256 .f32)
  (W2 : FVec Ideal S256x128 .f32) (b2 : FVec Ideal S128 .f32) (gamma beta : FVec Ideal S128 .f32)
  (W3 : FVec Ideal S128x64 .f32) (b3 : FVec Ideal S64 .f32) (Wv : FVec Ideal S64x64 .f32) (bv : FVec Ideal S64 .f32)
  (Wo : FVec Ideal S64x64 .f32) (bo : FVec Ideal S64 .f32) (Tf : FVec Ideal S64x250 .f32)

/-- The normalised second layer (before the scale and shift) is the reference's. -/
theorem pay2_eq :
    k0_pay2 (F := Ideal) x W1 b1 W2 b2 = Cert.ReferenceIdeal.ReadP.val_main_v31 (F := Ideal) x W1 b1 W2 b2 := by
  simp only [k0_pay2]
  simp only [matmul_trunc_eq_dot Cert.KernelIdeal.dot_S1024x128_S128x256_S1024x256_1_0_0_1_n_n Cert.ReferenceIdeal.dot_S1024x128_S128x256_S1024x256_1_0_0_1_n_n rfl, matmul_trunc_eq_dot Cert.KernelIdeal.dot_S1024x256_S256x128_S1024x128_1_0_0_1_n_n Cert.ReferenceIdeal.dot_S1024x256_S256x128_S1024x128_1_0_0_1_n_n rfl,
    Cert.SameOps.castRow_eq_bcast _ _ Cert.ReferenceIdeal.Gen.bcast_S256_S1x256_1, Cert.SameOps.castRow_eq_bcast _ _ Cert.ReferenceIdeal.Gen.bcast_S128_S1x128_1,
    Cert.SameOps.broadcastTo_eq_inDim2 _ _ Cert.ReferenceIdeal.Gen.bcast_S1x256_S1024x256_0_1, Cert.SameOps.broadcastTo_eq_inDim2 _ _ Cert.ReferenceIdeal.Gen.bcast_S1x128_S1024x128_0_1,
    Cert.SameOps.laneSum_eq_hostSum _ _ _ _ Cert.ReferenceIdeal.Gen.reducesTo_S1024x128_S128_d0 Cert.ReferenceIdeal.Gen.h_S_,
    keep_divf _ _ _ _ Cert.ReferenceIdeal.Gen.bcast_S_S128, keep_addf _ _ _ _ Cert.ReferenceIdeal.Gen.bcast_S_S128, keep_rsqrt,
    Cert.SameOps.splat_eq_bcast _ Cert.ReferenceIdeal.Gen.bcast_S_S1024x256]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_cst, Cert.ReferenceIdeal.ReadP.val_main_cst_0, Cert.ReferenceIdeal.ReadP.val_main_cst_1, Cert.ReferenceIdeal.ReadP.val_main_cst_2, Cert.ReferenceIdeal.ReadP.val_main_cst_3, Cert.ReferenceIdeal.ReadP.val_main_cst_4, Cert.ReferenceIdeal.ReadP.val_main_cst_5]

/-- The feature rows are the reference's. -/
theorem h_eq :
    k0_pay3 (F := Ideal) (k0_pay2 x W1 b1 W2 b2) gamma beta W3 b3 Wv bv Wo bo
      = Cert.ReferenceIdeal.ReadP.val_main_v60 (F := Ideal) x W1 b1 W2 b2 gamma beta W3 b3 Wv bv Wo bo := by
  rw [pay2_eq]
  simp only [k0_pay3]
  simp only [matmul_trunc_eq_dot Cert.KernelIdeal.dot_S1024x128_S128x64_S1024x64_1_0_0_1_n_n Cert.ReferenceIdeal.dot_S1024x128_S128x64_S1024x64_1_0_0_1_n_n rfl, matmul_trunc_eq_dot Cert.KernelIdeal.dot_S1024x64_S64x64_S1024x64_1_0_0_1_n_n Cert.ReferenceIdeal.dot_S1024x64_S64x64_S1024x64_1_0_0_1_n_n rfl,
    Cert.SameOps.castRow_eq_bcast _ _ Cert.ReferenceIdeal.Gen.bcast_S128_S1x128_1, Cert.SameOps.castRow_eq_bcast _ _ Cert.ReferenceIdeal.Gen.bcast_S64_S1x64_1,
    Cert.SameOps.broadcastTo_eq_inDim2 _ _ Cert.ReferenceIdeal.Gen.bcast_S1x128_S1024x128_0_1, Cert.SameOps.broadcastTo_eq_inDim2 _ _ Cert.ReferenceIdeal.Gen.bcast_S1x64_S1024x64_0_1,
    Cert.SameOps.splat_eq_bcast _ Cert.ReferenceIdeal.Gen.bcast_S_S1024x128, Cert.SameOps.splat_eq_bcast _ Cert.ReferenceIdeal.Gen.bcast_S_S1024x64]
  refine (addf_assoc _ _ _).trans ?_
  simp only [Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_cst_6, Cert.ReferenceIdeal.ReadP.val_main_cst_7, Cert.ReferenceIdeal.ReadP.val_main_cst_8, Cert.ReferenceIdeal.ReadP.val_main_cst_9]

/-- The projected rows are the host's product of the feature rows with the projection matrix. -/
theorem M_eq :
    k0_pay1 (F := Ideal) (k0_pay4 (k0_pay2 x W1 b1 W2 b2) gamma beta W3 b3 Wv bv Wo bo) Tf
      = Host.dotGeneral (F := Ideal) (φ₁ := .f32) (φ₂ := .f32) Cert.ReferenceIdeal.dot_S1024x64_S64x250_S1024x250_1_0_0_1_n_n none
          (Cert.ReferenceIdeal.ReadP.val_main_v60 (F := Ideal) x W1 b1 W2 b2 gamma beta W3 b3 Wv bv Wo bo) Tf := by
  rw [← h_eq]
  simp only [k0_pay1, k0_pay4, shapeCast_self]
  exact matmul_trunc_eq_dot Cert.KernelIdeal.dot_S1024x64_S64x250_S1024x250_1_0_0_1_n_n Cert.ReferenceIdeal.dot_S1024x64_S64x250_S1024x250_1_0_0_1_n_n rfl _ _ _ _

end Backbone

end Cert.KernelIdeal.PayValue

end
-- ==== Proof.RefValue.lean ====
/-
  The reference side of the value claim, over the extended reals.

  The reference program is a straight line of host operations. Its feature rows `Href` (the buffer the last
  residual sum writes, `[1024, 64]`) and its projected rows `Mref` (the product of the feature rows with the
  reshaped tensor, read as `[1024, 50, 5]`) are kept as whole-array terms of the program's own operations. From
  them the program computes, for every pair of rows `(a, b)` and every kernel `o`, the L1 distance over the five
  coordinates, its negated exponential, the sum over `a`, that sum less one, the row `[h b, o b]` joined along
  axis 1, its product with the scoring column, and the bias added. Read index by index, the result at row `b` is
  `Cert.PairScore.score Href Mref Ws bs b`: the sum over the 114 joined columns splits at the joint into the 64
  feature columns and the 50 closeness columns.
-/
import proofs.«145154_j42898133352735_2_alg».proof.Proof.RefRead
import proofs.«145154_j42898133352735_2_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.ReferenceIdeal.ReadP

/-- The reference's feature rows: the value of the buffer the second residual sum writes, as the whole-array term of
    the reference's own operations on the thirteen arguments it depends on. -/
def Href (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) : FVec Ideal S1024x64 .f32 :=
  val_main_v60 (F := Ideal) x W1 b1 W2 b2 gamma beta W3 b3 Wv bv Wo bo

/-- The reference's projected rows: the feature rows times the reshaped tensor `T`, read as `[1024, 50, 5]`. -/
def Mref (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) (T : FVec Ideal S64x50x5 .f32) : FVec Ideal S1024x50x5 .f32 :=
  val_main_v63 (F := Ideal) x W1 b1 W2 b2 gamma beta W3 b3 Wv bv Wo bo T

theorem Href_def (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) :
    val_main_v60 (F := Ideal) x W1 b1 W2 b2 gamma beta W3 b3 Wv bv Wo bo = Href x W1 b1 W2 b2 gamma beta W3 b3 Wv bv Wo bo := rfl

theorem Mref_def (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) (T : FVec Ideal S64x50x5 .f32) :
    val_main_v63 (F := Ideal) x W1 b1 W2 b2 gamma beta W3 b3 Wv bv Wo bo T = Mref x W1 b1 W2 b2 gamma beta W3 b3 Wv bv Wo bo T := rfl

section Stages

variable (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) (T : FVec Ideal S64x50x5 .f32)

/-- One pair of rows in one kernel: the exponential of minus the L1 distance. The two broadcasts put the first row
    index on axis 0 and the second on axis 1 of the four-dimensional difference. -/
theorem pair_term (a b : Fin 1024) (o : Fin 50) :
    val_main_v72 (F := Ideal) x W1 b1 W2 b2 gamma beta W3 b3 Wv bv Wo bo T (ix3 a b o) = Ideal.exp (-(Cert.PairScore.dist (Mref x W1 b1 W2 b2 gamma beta W3 b3 Wv bv Wo bo T) a b o)) := by
  rw [val_main_v72_apply, val_main_v71_apply, val_main_v70_apply]
  simp only [Ideal.hostUnary_exp_def, Ideal.hostNegf_def, Ideal.negf_def, val_main_cst_10_apply, Ideal.ofBits_def,
    Ideal.ofBits_zero_f32, zero_add]
  unfold Cert.PairScore.dist
  refine congrArg Ideal.exp (congrArg Neg.neg (Finset.sum_congr rfl fun k _ => ?_))
  rw [val_main_v69_apply, val_main_v68_apply, val_main_v66_apply, val_main_v64_apply, val_main_v67_apply, val_main_v65_apply]
  have e1 : idx_main_v64 (idx_main_v66 (idx_main_v70 (ix3 a b o) k)) = ix3 a o k := funext fun d => by
    match d with
    | ⟨0, _⟩ => rfl
    | ⟨1, _⟩ => rfl
    | ⟨2, _⟩ => rfl
  have e2 : idx_main_v65 (idx_main_v67 (idx_main_v70 (ix3 a b o) k)) = ix3 b o k := funext fun d => by
    match d with
    | ⟨0, _⟩ => rfl
    | ⟨1, _⟩ => rfl
    | ⟨2, _⟩ => rfl
  rw [e1, e2, Ideal.hostAbsf_def, Ideal.absf_def, Ideal.subf_def]
  rfl

/-- The closeness column: the sum over the first row index of the pair terms, less one. -/
theorem closeness_at (b : Fin 1024) (o : Fin 50) :
    val_main_v75 (F := Ideal) x W1 b1 W2 b2 gamma beta W3 b3 Wv bv Wo bo T (ix2 b o) = Cert.PairScore.closeness (Mref x W1 b1 W2 b2 gamma beta W3 b3 Wv bv Wo bo T) b o := by
  rw [val_main_v75_apply, val_main_v73_apply, val_main_v74_apply]
  simp only [Ideal.subf_def, val_main_cst_11_apply, val_main_cst_12_apply, Ideal.ofBits_def, Ideal.ofBits_zero_f32,
    Ideal.ofBits_one_f32, zero_add]
  unfold Cert.PairScore.closeness
  refine congrArg (· - 1) (Finset.sum_congr rfl fun a _ => ?_)
  have e : idx_main_v73 (ix2 b o) a = ix3 a b o := funext fun d => by
    match d with
    | ⟨0, _⟩ => rfl
    | ⟨1, _⟩ => rfl
    | ⟨2, _⟩ => rfl
  rw [e, pair_term]

/-- The joined row left of the joint is the feature row. -/
theorem joined_left (b : Fin 1024) (c : Fin 64) :
    val_main_v76 (F := Ideal) x W1 b1 W2 b2 gamma beta W3 b3 Wv bv Wo bo T (ix2 b (⟨c.val, by omega⟩ : Fin 114)) = Href x W1 b1 W2 b2 gamma beta W3 b3 Wv bv Wo bo (ix2 b c) := by
  unfold val_main_v76 Href
  exact concatenate_pair_apply_left (t := S1024x114) (s₁ := S1024x64) (s₂ := S1024x50) (1 : Fin 2) _ _
    concatenates_S1024x64_S1024x50_S1024x114_d1 _ rfl (ix2 b c) (fun d => by
      match d with
      | ⟨0, _⟩ => rfl
      | ⟨1, _⟩ => rfl)

/-- The joined row right of the joint is the closeness column. -/
theorem joined_right (b : Fin 1024) (o : Fin 50) :
    val_main_v76 (F := Ideal) x W1 b1 W2 b2 gamma beta W3 b3 Wv bv Wo bo T (ix2 b (⟨64 + o.val, by omega⟩ : Fin 114))
      = val_main_v75 (F := Ideal) x W1 b1 W2 b2 gamma beta W3 b3 Wv bv Wo bo T (ix2 b o) := by
  unfold val_main_v76
  exact concatenate_pair_apply_right (t := S1024x114) (s₁ := S1024x64) (s₂ := S1024x50) (1 : Fin 2) _ _
    concatenates_S1024x64_S1024x50_S1024x114_d1 _ rfl rfl (ix2 b o) (fun d hd => by
      match d, hd with
      | ⟨0, _⟩, _ => rfl
      | ⟨1, _⟩, hd => exact absurd rfl hd) (Nat.add_comm _ _)

end Stages

/-- A sum over the 114 joined columns splits at the joint. -/
theorem sum_joined (f : Fin 114 → EReal) :
    ∑ k : Fin 114, f k = (∑ c : Fin 64, f ⟨c.val, by omega⟩) + ∑ o : Fin 50, f ⟨64 + o.val, by omega⟩ :=
  Fin.sum_univ_add (a := 64) (b := 50) f

section Score

variable (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) (T : FVec Ideal S64x50x5 .f32) (Ws : FVec Ideal S114x1 .f32) (bs : FVec Ideal S1 .f32)

/-- The last stage at row `b`: the reshape reads the `[1024, 1]` column at `(b, 0)`, the bias is broadcast to every
    row, and the product of the joined row with the scoring column splits at the joint. -/
theorem score_at (b : Fin 1024) :
    val_main_v81 (F := Ideal) x W1 b1 W2 b2 gamma beta W3 b3 Wv bv Wo bo T Ws bs (ix1 b)
      = Cert.PairScore.score (Href x W1 b1 W2 b2 gamma beta W3 b3 Wv bv Wo bo) (Mref x W1 b1 W2 b2 gamma beta W3 b3 Wv bv Wo bo T) Ws bs b := by
  rw [val_main_v81_apply, val_main_v80_apply, val_main_v79_apply, val_main_v78_apply, val_main_v77_apply, sum_joined]
  have e0 : idx_main_v78 (idx_main_v79 (idx_main_v81 (ix1 b))) = ix1 (0 : Fin 1) := funext fun d => by
    match d with
    | ⟨0, _⟩ => rfl
  have el : ∀ k : Fin 114, lidx_main_v77 (idx_main_v81 (ix1 b)) k = ix2 b k := fun k => funext fun d => by
    match d with
    | ⟨0, _⟩ => exact Fin.ext (Nat.div_one _)
    | ⟨1, _⟩ => rfl
  have er : ∀ k : Fin 114, ridx_main_v77 (idx_main_v81 (ix1 b)) k = ix2 k (0 : Fin 1) := fun k => funext fun d => by
    match d with
    | ⟨0, _⟩ => rfl
    | ⟨1, _⟩ => rfl
  rw [e0, Ideal.addf_def]
  unfold Cert.PairScore.score
  refine congrArg (· + bs (ix1 (0 : Fin 1))) (congrArg₂ (· + ·) (Finset.sum_congr rfl fun c _ => ?_) (Finset.sum_congr rfl fun o _ => ?_))
  · rw [el, er, joined_left]
  · rw [el, er, joined_right, closeness_at]

end Score

/-- The reference's last stage, at the extended reals, is the score of each row. -/
theorem ref_result (x : FVec Ideal S1024x128 .f32) (W1 : FVec Ideal S128x256 .f32) (b1 : FVec Ideal S256 .f32) (W2 : FVec Ideal S256x128 .f32) (b2 gamma beta : FVec Ideal S128 .f32) (W3 : FVec Ideal S128x64 .f32) (b3 : FVec Ideal S64 .f32) (Wv : FVec Ideal S64x64 .f32) (bv : FVec Ideal S64 .f32) (Wo : FVec Ideal S64x64 .f32) (bo : FVec Ideal S64 .f32) (T : FVec Ideal S64x50x5 .f32) (Ws : FVec Ideal S114x1 .f32) (bs : FVec Ideal S1 .f32) :
    val_main_v81 (F := Ideal) x W1 b1 W2 b2 gamma beta W3 b3 Wv bv Wo bo T Ws bs
      = fun i => Cert.PairScore.score (Href x W1 b1 W2 b2 gamma beta W3 b3 Wv bv Wo bo) (Mref x W1 b1 W2 b2 gamma beta W3 b3 Wv bv Wo bo T) Ws bs (i 0) := by
  funext i
  exact (congrArg (val_main_v81 (F := Ideal) x W1 b1 W2 b2 gamma beta W3 b3 Wv bv Wo bo T Ws bs) (eq_ix1 (n := 1024) i)).trans
    (score_at x W1 b1 W2 b2 gamma beta W3 b3 Wv bv Wo bo T Ws bs (i 0))

end Cert.ReferenceIdeal.RefValue

end
-- ==== Proof.KI.KernelHM.lean ====
/-
  The inputs of the all-pairs region are the reference's stage values.

  When the all-pairs region is entered, the feature buffer holds what the feature region's write-back left, and the
  projected buffer, reshaped to [1024, 50, 5], holds the reshape of what the other write-back left. The feature region
  has one grid point whose blocks are whole arrays, so what it leaves are its two payloads of the thirteen parameter
  arrays and the flattened projection tensor; read at the extended reals those payloads are the reference's feature
  rows and its product of the feature rows with the flattened tensor. Hence the two buffers hold the reference's
  feature rows and projected rows of the launch contents of the arguments.
-/
import proofs.«145154_j42898133352735_2_alg».proof.Proof.KI.Frame
import proofs.«145154_j42898133352735_2_alg».proof.Proof.KI.R0Value
import proofs.«145154_j42898133352735_2_alg».proof.Proof.KI.Pay0
import proofs.«145154_j42898133352735_2_alg».proof.Proof.RefValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem
open Idealize.ShloMosaic.Pipeline (Dat Cfg Window)

/-! ## What the feature region leaves, of the arrays it finds -/

section Arrays

variable (V : (c : Dev nD) → (b : Ref sig .tc) → Buf (Elt Ideal) ((c : Thread nD τ).loc b))

/-- The feature rows the region leaves are the reference's feature rows of the parameter arrays it finds. -/
theorem arr14_eq_Href (c : Dev nD) :
    ((dat0 V c).arrAt 14 cfg0.N : S1024x64.Idx → EReal)
      = Cert.ReferenceIdeal.RefValue.Href (V c main_arg0) (V c main_arg1) (V c main_arg2) (V c main_arg3) (V c main_arg4) (V c main_arg5) (V c main_arg6) (V c main_arg7) (V c main_arg8) (V c main_arg9) (V c main_arg10) (V c main_arg11) (V c main_arg12) :=
  (arr0_14 V c).trans ((out0_14_eq _ _ _ _ _ _ _ _ _ _ _ _ _ _).trans
    (Cert.KernelIdeal.PayValue.h_eq (V c main_arg0) (V c main_arg1) (V c main_arg2) (V c main_arg3) (V c main_arg4) (V c main_arg5) (V c main_arg6) (V c main_arg7) (V c main_arg8) (V c main_arg9) (V c main_arg10) (V c main_arg11) (V c main_arg12)))

/-- The flat projected rows the region leaves, reshaped to [1024, 50, 5], are the reference's projected rows, when the
    flattened tensor the region finds is the reshape of a tensor `T`. -/
theorem arr15_eq_Mref (c : Dev nD) (T : FVec Ideal S64x50x5 .f32)
    (h0 : (V c main_v0 : S64x250.Idx → EReal) = shapeCast S64x250 T shapeCasts_S64x50x5_S64x250) :
    shapeCast S1024x50x5 ((dat0 V c).arrAt 15 cfg0.N : S1024x250.Idx → EReal) shapeCasts_S1024x250_S1024x50x5
      = Cert.ReferenceIdeal.RefValue.Mref (V c main_arg0) (V c main_arg1) (V c main_arg2) (V c main_arg3) (V c main_arg4) (V c main_arg5) (V c main_arg6) (V c main_arg7) (V c main_arg8) (V c main_arg9) (V c main_arg10) (V c main_arg11) (V c main_arg12) T := by
  rw [arr0_15 V c, out0_15_eq, h0, Cert.KernelIdeal.PayValue.M_eq]
  rfl

end Arrays

/-! ## The two buffers when the all-pairs region is entered -/

variable (m : (ℓ : Loc nD τ sig) → Buf (Elt Ideal) ℓ)

/-- The flattened projection tensor the feature region finds is the reshape of the launched tensor. -/
theorem hm_VR1_v0 (c : Dev nD) :
    (VR1 m c main_v0 : S64x250.Idx → EReal)
      = shapeCast S64x250 (m ((c : Thread nD τ).loc main_arg13) : S64x50x5.Idx → EReal) shapeCasts_S64x50x5_S64x250 := by
  dsimp only [VR1, Gen.V1, hostOps0]
  after_results
  rfl

/-- The reshaped projected rows are the reshape of the flat projected rows. -/
theorem hm_VR3_v2 (c : Dev nD) :
    (VR3 m c main_v2 : S1024x50x5.Idx → EReal)
      = shapeCast S1024x50x5 (VR3 m c main_v1_1 : S1024x250.Idx → EReal) shapeCasts_S1024x250_S1024x50x5 := by
  dsimp only [VR3, Gen.V3, hostOps1]
  after_results
  rfl

/-- The feature buffer at the all-pairs region's entry holds the reference's feature rows. -/
theorem h_kernel (c : Dev nD) :
    (VR3 m c main_v1_0 : S1024x64.Idx → EReal)
      = Cert.ReferenceIdeal.RefValue.Href (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e14 : VR3 m c main_v1_0 = (dat0 (VR1 m) c).arrAt 14 cfg0.N :=
    (Gen.V3_of m (outsA m) c main_v1_0 (by decide)).trans ((V2_eq_W2 m c main_v1_0).trans (W2_arr m c 14))
  refine e14.trans ((arr14_eq_Href (VR1 m) c).trans ?_)
  rw [show VR1 m c main_arg0 = m ((c : Thread nD τ).loc main_arg0) from (Gen.V1_of m c main_arg0 (by decide)).trans rfl]
  rw [show VR1 m c main_arg1 = m ((c : Thread nD τ).loc main_arg1) from (Gen.V1_of m c main_arg1 (by decide)).trans rfl]
  rw [show VR1 m c main_arg2 = m ((c : Thread nD τ).loc main_arg2) from (Gen.V1_of m c main_arg2 (by decide)).trans rfl]
  rw [show VR1 m c main_arg3 = m ((c : Thread nD τ).loc main_arg3) from (Gen.V1_of m c main_arg3 (by decide)).trans rfl]
  rw [show VR1 m c main_arg4 = m ((c : Thread nD τ).loc main_arg4) from (Gen.V1_of m c main_arg4 (by decide)).trans rfl]
  rw [show VR1 m c main_arg5 = m ((c : Thread nD τ).loc main_arg5) from (Gen.V1_of m c main_arg5 (by decide)).trans rfl]
  rw [show VR1 m c main_arg6 = m ((c : Thread nD τ).loc main_arg6) from (Gen.V1_of m c main_arg6 (by decide)).trans rfl]
  rw [show VR1 m c main_arg7 = m ((c : Thread nD τ).loc main_arg7) from (Gen.V1_of m c main_arg7 (by decide)).trans rfl]
  rw [show VR1 m c main_arg8 = m ((c : Thread nD τ).loc main_arg8) from (Gen.V1_of m c main_arg8 (by decide)).trans rfl]
  rw [show VR1 m c main_arg9 = m ((c : Thread nD τ).loc main_arg9) from (Gen.V1_of m c main_arg9 (by decide)).trans rfl]
  rw [show VR1 m c main_arg10 = m ((c : Thread nD τ).loc main_arg10) from (Gen.V1_of m c main_arg10 (by decide)).trans rfl]
  rw [show VR1 m c main_arg11 = m ((c : Thread nD τ).loc main_arg11) from (Gen.V1_of m c main_arg11 (by decide)).trans rfl]
  rw [show VR1 m c main_arg12 = m ((c : Thread nD τ).loc main_arg12) from (Gen.V1_of m c main_arg12 (by decide)).trans rfl]

/-- The reshaped projected buffer at the all-pairs region's entry holds the reference's projected rows. -/
theorem M_kernel (c : Dev nD) :
    (VR3 m c main_v2 : S1024x50x5.Idx → EReal)
      = Cert.ReferenceIdeal.RefValue.Mref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e15 : VR3 m c main_v1_1 = (dat0 (VR1 m) c).arrAt 15 cfg0.N :=
    (Gen.V3_of m (outsA m) c main_v1_1 (by decide)).trans ((V2_eq_W2 m c main_v1_1).trans (W2_arr m c 15))
  rw [hm_VR3_v2, e15]
  refine (arr15_eq_Mref (VR1 m) c (m ((c : Thread nD τ).loc main_arg13)) (hm_VR1_v0 m c)).trans ?_
  rw [show VR1 m c main_arg0 = m ((c : Thread nD τ).loc main_arg0) from (Gen.V1_of m c main_arg0 (by decide)).trans rfl]
  rw [show VR1 m c main_arg1 = m ((c : Thread nD τ).loc main_arg1) from (Gen.V1_of m c main_arg1 (by decide)).trans rfl]
  rw [show VR1 m c main_arg2 = m ((c : Thread nD τ).loc main_arg2) from (Gen.V1_of m c main_arg2 (by decide)).trans rfl]
  rw [show VR1 m c main_arg3 = m ((c : Thread nD τ).loc main_arg3) from (Gen.V1_of m c main_arg3 (by decide)).trans rfl]
  rw [show VR1 m c main_arg4 = m ((c : Thread nD τ).loc main_arg4) from (Gen.V1_of m c main_arg4 (by decide)).trans rfl]
  rw [show VR1 m c main_arg5 = m ((c : Thread nD τ).loc main_arg5) from (Gen.V1_of m c main_arg5 (by decide)).trans rfl]
  rw [show VR1 m c main_arg6 = m ((c : Thread nD τ).loc main_arg6) from (Gen.V1_of m c main_arg6 (by decide)).trans rfl]
  rw [show VR1 m c main_arg7 = m ((c : Thread nD τ).loc main_arg7) from (Gen.V1_of m c main_arg7 (by decide)).trans rfl]
  rw [show VR1 m c main_arg8 = m ((c : Thread nD τ).loc main_arg8) from (Gen.V1_of m c main_arg8 (by decide)).trans rfl]
  rw [show VR1 m c main_arg9 = m ((c : Thread nD τ).loc main_arg9) from (Gen.V1_of m c main_arg9 (by decide)).trans rfl]
  rw [show VR1 m c main_arg10 = m ((c : Thread nD τ).loc main_arg10) from (Gen.V1_of m c main_arg10 (by decide)).trans rfl]
  rw [show VR1 m c main_arg11 = m ((c : Thread nD τ).loc main_arg11) from (Gen.V1_of m c main_arg11 (by decide)).trans rfl]
  rw [show VR1 m c main_arg12 = m ((c : Thread nD τ).loc main_arg12) from (Gen.V1_of m c main_arg12 (by decide)).trans rfl]

end Cert.KernelIdeal.Hand

end
-- ==== Proof.KI.KernelValue.lean ====
/-
  The idealized kernel program's result as one function of its arguments.

  The result buffer ends at the closing reshape of the score column; the score column is the second region's exit
  array, whose block of rows `128 i … 128 i + 127` is what the last key tile's grid point stores: the row's score
  from the region's inputs (`PairScore.score1`). Those inputs are the middle stretch's readings of the first
  region's exit arrays — the key rows the transpose of the query rows, the scoring column cut at row 64, the bias
  reshaped — so the score is the specification's `PairScore.score` of the first region's feature rows and projected
  rows, which are the reference's own stage terms of the arguments.
-/
import proofs.«145154_j42898133352735_2_alg».proof.Proof.KI.Run
import proofs.«145154_j42898133352735_2_alg».proof.Proof.KI.HostValue
import proofs.«145154_j42898133352735_2_alg».proof.Proof.KI.R1Blocks
import proofs.«145154_j42898133352735_2_alg».proof.Proof.KI.R1Sum
import proofs.«145154_j42898133352735_2_alg».proof.Proof.KI.KernelHM
import proofs.«145154_j42898133352735_2_alg».proof.Proof.SpecTiles
import proofs.«145154_j42898133352735_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The score column the second region leaves, row by row: the row's score from the region's own inputs. -/
def scoreCol (c : Dev nD) : S1024x1.Idx → EReal := fun j =>
  Cert.PairScore.score1 (VR3 m c main_v2) (VR3 m c main_v6) (VR3 m c main_v1_0) (VR3 m c main_v3) (VR3 m c main_v4)
    (VR3 m c main_v5) (j 0)

/-- The second region's exit array is that column: each block is what the last key tile's point stored. -/
theorem arr_score (c : Dev nD) : (dat1 (VR3 m) c).arrAt 6 cfg1.N = scoreCol m c :=
  arr1_6 (VR3 m) c (scoreCol m c) fun t h7 r => out_block (VR3 m) c t h7 r

/-- THE RESULT: the specification's score of the reference's feature rows and projected rows. -/
theorem kernel_result (c : Dev nD) :
    (Gen.V5 m (outs m) c main_v8 : S1024.Idx → EReal) = fun i =>
      Cert.PairScore.score (Cert.ReferenceIdeal.RefValue.Href (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
        (Cert.ReferenceIdeal.RefValue.Mref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
        (m ((c : Thread nD τ).loc main_arg14)) (m ((c : Thread nD τ).loc main_arg15)) (i 0) := by
  funext i
  obtain ⟨b, rfl⟩ : ∃ b : Fin 1024, i = ix1 b := ⟨i 0, eq_ix1 i⟩
  rw [V5_v8 m c b, arr_score m c]
  show Cert.PairScore.score1 (VR3 m c main_v2) (VR3 m c main_v6) (VR3 m c main_v1_0) (VR3 m c main_v3) (VR3 m c main_v4)
    (VR3 m c main_v5) b = _
  rw [Cert.PairScore.score1_eq_score (VR3 m c main_v2) (VR3 m c main_v6) (VR3 m c main_v1_0) (VR3 m c main_v3)
    (VR3 m c main_v4) (VR3 m c main_v5) (m ((c : Thread nD τ).loc main_arg14)) (m ((c : Thread nD τ).loc main_arg15))
    (fun o k a => VR3_v6 m c o k a) (fun cc => VR3_v3 m c cc) (fun o => VR3_v4 m c o) (VR3_v5 m c) b]
  rw [h_kernel m c, M_kernel m c]
  rfl

end Cert.KernelIdeal.Hand

end
-- ==== Proof.RefRun.lean ====
/-
  The reference program's run. Its @main is a straight line of 96 host operations; `ops` lists them in order,
  `main_eq` says @main is that line, and `run` reads the line back: from any memory with zero counters every
  weakly fair execution terminates, the result buffer `main_v81` holding the last stage `ReadP.val_main_v81`
  of the sixteen arguments' launch contents (the stages share their intermediate values: the feature rows are
  one term read by the projection, by the joined row and by the product with the scoring column), and the
  sixteen arguments unchanged.
-/
import proofs.«145154_j42898133352735_2_alg».proof.Proof.RefRead
import Idealize.ShloMosaic.Lib.Pipeline.Regions

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 96 operations, in order (a called function's operations stand in its call's place, spelt `TRef.…`). -/
abbrev ops : List (HloOp τ sig (Elt F)) :=
  [ binary main_arg0 main_arg1 main_v0 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S1024x256 ![0, 1] bcast_S1x256_S1024x256_0_1 : (⟨S1x256, .f32⟩ : BufTy).Contents (Elt F) → (⟨S1024x256, .f32⟩ : BufTy).Contents (Elt F)),
    binary main_v0 main_v2 main_v3 (addf : (⟨S1024x256, .f32⟩ : BufTy).Contents (Elt F) → (⟨S1024x256, .f32⟩ : BufTy).Contents (Elt F) → (⟨S1024x256, .f32⟩ : BufTy).Contents (Elt F)),
    nullary main_cst (constant S_ .f32 0x00000000#32),
    unary main_cst main_v4 (broadcastInDim S1024x256 ![] bcast_S_S1024x256 : (⟨S_, .f32⟩ : BufTy).Contents (Elt F) → (⟨S1024x256, .f32⟩ : BufTy).Contents (Elt F)),
    binary main_v3 main_v4 main_v5 (cmpf .ogt : (⟨S1024x256, .f32⟩ : BufTy).Contents (Elt F) → (⟨S1024x256, .f32⟩ : BufTy).Contents (Elt F) → (⟨S1024x256, .i1⟩ : BufTy).Contents (Elt F)),
    nullary main_cst_0 (constant S_ .f32 0x3E4CCCCD#32),
    unary main_cst_0 main_v6 (broadcastInDim S1024x256 ![] bcast_S_S1024x256 : (⟨S_, .f32⟩ : BufTy).Contents (Elt F) → (⟨S1024x256, .f32⟩ : BufTy).Contents (Elt F)),
    binary main_v6 main_v3 main_v7 (mulf : (⟨S1024x256, .f32⟩ : BufTy).Contents (Elt F) → (⟨S1024x256, .f32⟩ : BufTy).Contents (Elt F) → (⟨S1024x256, .f32⟩ : BufTy).Contents (Elt F)),
    TRef.ternary (TRef.of (T := ⟨S1024x256, .i1⟩) main_v5) (TRef.of (T := ⟨S1024x256, .f32⟩) main_v3) (TRef.of (T := ⟨S1024x256, .f32⟩) main_v7) (TRef.of (T := ⟨S1024x256, .f32⟩) main_v8) select,
    binary main_v8 main_arg3 main_v9 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg4 main_v10 (broadcastInDim S1x128 ![1] bcast_S128_S1x128_1 : (⟨S128, .f32⟩ : BufTy).Contents (Elt F) → (⟨S1x128, .f32⟩ : BufTy).Contents (Elt F)),
    unary main_v10 main_v11 (broadcastInDim S1024x128 ![0, 1] bcast_S1x128_S1024x128_0_1 : (⟨S1x128, .f32⟩ : BufTy).Contents (Elt F) → (⟨S1024x128, .f32⟩ : BufTy).Contents (Elt F)),
    binary main_v9 main_v11 main_v12 (addf : (⟨S1024x128, .f32⟩ : BufTy).Contents (Elt F) → (⟨S1024x128, .f32⟩ : BufTy).Contents (Elt F) → (⟨S1024x128, .f32⟩ : BufTy).Contents (Elt F)),
    nullary main_cst_1 (constant S_ .f32 0x00000000#32),
    binary main_v12 main_cst_1 main_v13 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    nullary main_cst_2 (constant S_ .f32 0x44800000#32),
    unary main_cst_2 main_v14 (broadcastInDim S128 ![] bcast_S_S128 : (⟨S_, .f32⟩ : BufTy).Contents (Elt F) → (⟨S128, .f32⟩ : BufTy).Contents (Elt F)),
    binary main_v13 main_v14 main_v15 (Host.divf : (⟨S128, .f32⟩ : BufTy).Contents (Elt F) → (⟨S128, .f32⟩ : BufTy).Contents (Elt F) → (⟨S128, .f32⟩ : BufTy).Contents (Elt F)),
    unary main_v15 main_v16 (broadcastInDim S1x128 ![1] bcast_S128_S1x128_1 : (⟨S128, .f32⟩ : BufTy).Contents (Elt F) → (⟨S1x128, .f32⟩ : BufTy).Contents (Elt F)),
    unary main_v16 main_v17 (broadcastInDim S1024x128 ![0, 1] bcast_S1x128_S1024x128_0_1 : (⟨S1x128, .f32⟩ : BufTy).Contents (Elt F) → (⟨S1024x128, .f32⟩ : BufTy).Contents (Elt F)),
    binary main_v12 main_v17 main_v18 (subf : (⟨S1024x128, .f32⟩ : BufTy).Contents (Elt F) → (⟨S1024x128, .f32⟩ : BufTy).Contents (Elt F) → (⟨S1024x128, .f32⟩ : BufTy).Contents (Elt F)),
    binary main_v18 main_v18 main_v19 (mulf : (⟨S1024x128, .f32⟩ : BufTy).Contents (Elt F) → (⟨S1024x128, .f32⟩ : BufTy).Contents (Elt F) → (⟨S1024x128, .f32⟩ : BufTy).Contents (Elt F)),
    nullary main_cst_3 (constant S_ .f32 0x00000000#32),
    binary main_v19 main_cst_3 main_v20 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    nullary main_cst_4 (constant S_ .f32 0x44800000#32),
    unary main_cst_4 main_v21 (broadcastInDim S128 ![] bcast_S_S128 : (⟨S_, .f32⟩ : BufTy).Contents (Elt F) → (⟨S128, .f32⟩ : BufTy).Contents (Elt F)),
    binary main_v20 main_v21 main_v22 (Host.divf : (⟨S128, .f32⟩ : BufTy).Contents (Elt F) → (⟨S128, .f32⟩ : BufTy).Contents (Elt F) → (⟨S128, .f32⟩ : BufTy).Contents (Elt F)),
    unary main_v15 main_v23 (broadcastInDim S1x128 ![1] bcast_S128_S1x128_1 : (⟨S128, .f32⟩ : BufTy).Contents (Elt F) → (⟨S1x128, .f32⟩ : BufTy).Contents (Elt F)),
    unary main_v23 main_v24 (broadcastInDim S1024x128 ![0, 1] bcast_S1x128_S1024x128_0_1 : (⟨S1x128, .f32⟩ : BufTy).Contents (Elt F) → (⟨S1024x128, .f32⟩ : BufTy).Contents (Elt F)),
    binary main_v12 main_v24 main_v25 (subf : (⟨S1024x128, .f32⟩ : BufTy).Contents (Elt F) → (⟨S1024x128, .f32⟩ : BufTy).Contents (Elt F) → (⟨S1024x128, .f32⟩ : BufTy).Contents (Elt F)),
    nullary main_cst_5 (constant S_ .f32 0x3727C5AC#32),
    unary main_cst_5 main_v26 (broadcastInDim S128 ![] bcast_S_S128 : (⟨S_, .f32⟩ : BufTy).Contents (Elt F) → (⟨S128, .f32⟩ : BufTy).Contents (Elt F)),
    binary main_v22 main_v26 main_v27 (addf : (⟨S128, .f32⟩ : BufTy).Contents (Elt F) → (⟨S128, .f32⟩ : BufTy).Contents (Elt F) → (⟨S128, .f32⟩ : BufTy).Contents (Elt F)),
    unary main_v27 main_v28 (Host.rsqrt : (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S1024x128 ![0, 1] bcast_S1x128_S1024x128_0_1 : (⟨S1x128, .f32⟩ : BufTy).Contents (Elt F) → (⟨S1024x128, .f32⟩ : BufTy).Contents (Elt F)),
    binary main_v25 main_v30 main_v31 (mulf : (⟨S1024x128, .f32⟩ : BufTy).Contents (Elt F) → (⟨S1024x128, .f32⟩ : BufTy).Contents (Elt F) → (⟨S1024x128, .f32⟩ : BufTy).Contents (Elt F)),
    unary main_arg5 main_v32 (broadcastInDim S1x128 ![1] bcast_S128_S1x128_1 : (⟨S128, .f32⟩ : BufTy).Contents (Elt F) → (⟨S1x128, .f32⟩ : BufTy).Contents (Elt F)),
    unary main_v32 main_v33 (broadcastInDim S1024x128 ![0, 1] bcast_S1x128_S1024x128_0_1 : (⟨S1x128, .f32⟩ : BufTy).Contents (Elt F) → (⟨S1024x128, .f32⟩ : BufTy).Contents (Elt F)),
    binary main_v31 main_v33 main_v34 (mulf : (⟨S1024x128, .f32⟩ : BufTy).Contents (Elt F) → (⟨S1024x128, .f32⟩ : BufTy).Contents (Elt F) → (⟨S1024x128, .f32⟩ : BufTy).Contents (Elt F)),
    unary main_arg6 main_v35 (broadcastInDim S1x128 ![1] bcast_S128_S1x128_1 : (⟨S128, .f32⟩ : BufTy).Contents (Elt F) → (⟨S1x128, .f32⟩ : BufTy).Contents (Elt F)),
    unary main_v35 main_v36 (broadcastInDim S1024x128 ![0, 1] bcast_S1x128_S1024x128_0_1 : (⟨S1x128, .f32⟩ : BufTy).Contents (Elt F) → (⟨S1024x128, .f32⟩ : BufTy).Contents (Elt F)),
    binary main_v34 main_v36 main_v37 (addf : (⟨S1024x128, .f32⟩ : BufTy).Contents (Elt F) → (⟨S1024x128, .f32⟩ : BufTy).Contents (Elt F) → (⟨S1024x128, .f32⟩ : BufTy).Contents (Elt F)),
    nullary main_cst_6 (constant S_ .f32 0x00000000#32),
    unary main_cst_6 main_v38 (broadcastInDim S1024x128 ![] bcast_S_S1024x128 : (⟨S_, .f32⟩ : BufTy).Contents (Elt F) → (⟨S1024x128, .f32⟩ : BufTy).Contents (Elt F)),
    binary main_v37 main_v38 main_v39 (cmpf .ogt : (⟨S1024x128, .f32⟩ : BufTy).Contents (Elt F) → (⟨S1024x128, .f32⟩ : BufTy).Contents (Elt F) → (⟨S1024x128, .i1⟩ : BufTy).Contents (Elt F)),
    nullary main_cst_7 (constant S_ .f32 0x3E4CCCCD#32),
    unary main_cst_7 main_v40 (broadcastInDim S1024x128 ![] bcast_S_S1024x128 : (⟨S_, .f32⟩ : BufTy).Contents (Elt F) → (⟨S1024x128, .f32⟩ : BufTy).Contents (Elt F)),
    binary main_v40 main_v37 main_v41 (mulf : (⟨S1024x128, .f32⟩ : BufTy).Contents (Elt F) → (⟨S1024x128, .f32⟩ : BufTy).Contents (Elt F) → (⟨S1024x128, .f32⟩ : BufTy).Contents (Elt F)),
    TRef.ternary (TRef.of (T := ⟨S1024x128, .i1⟩) main_v39) (TRef.of (T := ⟨S1024x128, .f32⟩) main_v37) (TRef.of (T := ⟨S1024x128, .f32⟩) main_v41) (TRef.of (T := ⟨S1024x128, .f32⟩) main_v42) select,
    binary main_v42 main_arg7 main_v43 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg8 main_v44 (broadcastInDim S1x64 ![1] bcast_S64_S1x64_1 : (⟨S64, .f32⟩ : BufTy).Contents (Elt F) → (⟨S1x64, .f32⟩ : BufTy).Contents (Elt F)),
    unary main_v44 main_v45 (broadcastInDim S1024x64 ![0, 1] bcast_S1x64_S1024x64_0_1 : (⟨S1x64, .f32⟩ : BufTy).Contents (Elt F) → (⟨S1024x64, .f32⟩ : BufTy).Contents (Elt F)),
    binary main_v43 main_v45 main_v46 (addf : (⟨S1024x64, .f32⟩ : BufTy).Contents (Elt F) → (⟨S1024x64, .f32⟩ : BufTy).Contents (Elt F) → (⟨S1024x64, .f32⟩ : BufTy).Contents (Elt F)),
    nullary main_cst_8 (constant S_ .f32 0x00000000#32),
    unary main_cst_8 main_v47 (broadcastInDim S1024x64 ![] bcast_S_S1024x64 : (⟨S_, .f32⟩ : BufTy).Contents (Elt F) → (⟨S1024x64, .f32⟩ : BufTy).Contents (Elt F)),
    binary main_v46 main_v47 main_v48 (cmpf .ogt : (⟨S1024x64, .f32⟩ : BufTy).Contents (Elt F) → (⟨S1024x64, .f32⟩ : BufTy).Contents (Elt F) → (⟨S1024x64, .i1⟩ : BufTy).Contents (Elt F)),
    nullary main_cst_9 (constant S_ .f32 0x3E4CCCCD#32),
    unary main_cst_9 main_v49 (broadcastInDim S1024x64 ![] bcast_S_S1024x64 : (⟨S_, .f32⟩ : BufTy).Contents (Elt F) → (⟨S1024x64, .f32⟩ : BufTy).Contents (Elt F)),
    binary main_v49 main_v46 main_v50 (mulf : (⟨S1024x64, .f32⟩ : BufTy).Contents (Elt F) → (⟨S1024x64, .f32⟩ : BufTy).Contents (Elt F) → (⟨S1024x64, .f32⟩ : BufTy).Contents (Elt F)),
    TRef.ternary (TRef.of (T := ⟨S1024x64, .i1⟩) main_v48) (TRef.of (T := ⟨S1024x64, .f32⟩) main_v46) (TRef.of (T := ⟨S1024x64, .f32⟩) main_v50) (TRef.of (T := ⟨S1024x64, .f32⟩) main_v51) select,
    binary main_v51 main_arg9 main_v52 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    unary main_arg10 main_v53 (broadcastInDim S1x64 ![1] bcast_S64_S1x64_1 : (⟨S64, .f32⟩ : BufTy).Contents (Elt F) → (⟨S1x64, .f32⟩ : BufTy).Contents (Elt F)),
    unary main_v53 main_v54 (broadcastInDim S1024x64 ![0, 1] bcast_S1x64_S1024x64_0_1 : (⟨S1x64, .f32⟩ : BufTy).Contents (Elt F) → (⟨S1024x64, .f32⟩ : BufTy).Contents (Elt F)),
    binary main_v52 main_v54 main_v55 (addf : (⟨S1024x64, .f32⟩ : BufTy).Contents (Elt F) → (⟨S1024x64, .f32⟩ : BufTy).Contents (Elt F) → (⟨S1024x64, .f32⟩ : BufTy).Contents (Elt F)),
    binary main_v55 main_arg11 main_v56 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    binary main_v51 main_v56 main_v57 (addf : (⟨S1024x64, .f32⟩ : BufTy).Contents (Elt F) → (⟨S1024x64, .f32⟩ : BufTy).Contents (Elt F) → (⟨S1024x64, .f32⟩ : BufTy).Contents (Elt F)),
    unary main_arg12 main_v58 (broadcastInDim S1x64 ![1] bcast_S64_S1x64_1 : (⟨S64, .f32⟩ : BufTy).Contents (Elt F) → (⟨S1x64, .f32⟩ : BufTy).Contents (Elt F)),
    unary main_v58 main_v59 (broadcastInDim S1024x64 ![0, 1] bcast_S1x64_S1024x64_0_1 : (⟨S1x64, .f32⟩ : BufTy).Contents (Elt F) → (⟨S1024x64, .f32⟩ : BufTy).Contents (Elt F)),
    binary main_v57 main_v59 main_v60 (addf : (⟨S1024x64, .f32⟩ : BufTy).Contents (Elt F) → (⟨S1024x64, .f32⟩ : BufTy).Contents (Elt F) → (⟨S1024x64, .f32⟩ : BufTy).Contents (Elt F)),
    reshape main_arg13 main_v61 rfl shapeCasts_S64x50x5_S64x250,
    binary main_v60 main_v61 main_v62 ((fun l r => Host.dotGeneral dot_S1024x64_S64x250_S1024x250_1_0_0_1_n_n none l r) : (⟨S1024x64, .f32⟩ : BufTy).Contents (Elt F) → (⟨S64x250, .f32⟩ : BufTy).Contents (Elt F) → (⟨S1024x250, .f32⟩ : BufTy).Contents (Elt F)),
    reshape main_v62 main_v63 rfl shapeCasts_S1024x250_S1024x50x5,
    unary main_v63 main_v64 (broadcastInDim S1024x1x50x5 ![0, 2, 3] bcast_S1024x50x5_S1024x1x50x5_0_2_3 : (⟨S1024x50x5, .f32⟩ : BufTy).Contents (Elt F) → (⟨S1024x1x50x5, .f32⟩ : BufTy).Contents (Elt F)),
    unary main_v63 main_v65 (broadcastInDim S1x1024x50x5 ![1, 2, 3] bcast_S1024x50x5_S1x1024x50x5_1_2_3 : (⟨S1024x50x5, .f32⟩ : BufTy).Contents (Elt F) → (⟨S1x1024x50x5, .f32⟩ : BufTy).Contents (Elt F)),
    unary main_v64 main_v66 (broadcastInDim S1024x1024x50x5 ![0, 1, 2, 3] bcast_S1024x1x50x5_S1024x1024x50x5_0_1_2_3 : (⟨S1024x1x50x5, .f32⟩ : BufTy).Contents (Elt F) → (⟨S1024x1024x50x5, .f32⟩ : BufTy).Contents (Elt F)),
    unary main_v65 main_v67 (broadcastInDim S1024x1024x50x5 ![0, 1, 2, 3] bcast_S1x1024x50x5_S1024x1024x50x5_0_1_2_3 : (⟨S1x1024x50x5, .f32⟩ : BufTy).Contents (Elt F) → (⟨S1024x1024x50x5, .f32⟩ : BufTy).Contents (Elt F)),
    binary main_v66 main_v67 main_v68 (subf : (⟨S1024x1024x50x5, .f32⟩ : BufTy).Contents (Elt F) → (⟨S1024x1024x50x5, .f32⟩ : BufTy).Contents (Elt F) → (⟨S1024x1024x50x5, .f32⟩ : BufTy).Contents (Elt F)),
    unary main_v68 main_v69 (Host.absf : (⟨S1024x1024x50x5, .f32⟩ : BufTy).Contents (Elt F) → (⟨S1024x1024x50x5, .f32⟩ : BufTy).Contents (Elt F)),
    nullary main_cst_10 (constant S_ .f32 0x00000000#32),
    binary main_v69 main_cst_10 main_v70 ((fun x v => Host.reduceAdd x v reducesTo_S1024x1024x50x5_S1024x1024x50_d3 h_S_) : (⟨S1024x1024x50x5, .f32⟩ : BufTy).Contents (Elt F) → (⟨S_, .f32⟩ : BufTy).Contents (Elt F) → (⟨S1024x1024x50, .f32⟩ : BufTy).Contents (Elt F)),
    unary main_v70 main_v71 (Host.negf : (⟨S1024x1024x50, .f32⟩ : BufTy).Contents (Elt F) → (⟨S1024x1024x50, .f32⟩ : BufTy).Contents (Elt F)),
    unary main_v71 main_v72 (Host.exp : (⟨S1024x1024x50, .f32⟩ : BufTy).Contents (Elt F) → (⟨S1024x1024x50, .f32⟩ : BufTy).Contents (Elt F)),
    nullary main_cst_11 (constant S_ .f32 0x00000000#32),
    binary main_v72 main_cst_11 main_v73 ((fun x v => Host.reduceAdd x v reducesTo_S1024x1024x50_S1024x50_d0 h_S_) : (⟨S1024x1024x50, .f32⟩ : BufTy).Contents (Elt F) → (⟨S_, .f32⟩ : BufTy).Contents (Elt F) → (⟨S1024x50, .f32⟩ : BufTy).Contents (Elt F)),
    nullary main_cst_12 (constant S_ .f32 0x3F800000#32),
    unary main_cst_12 main_v74 (broadcastInDim S1024x50 ![] bcast_S_S1024x50 : (⟨S_, .f32⟩ : BufTy).Contents (Elt F) → (⟨S1024x50, .f32⟩ : BufTy).Contents (Elt F)),
    binary main_v73 main_v74 main_v75 (subf : (⟨S1024x50, .f32⟩ : BufTy).Contents (Elt F) → (⟨S1024x50, .f32⟩ : BufTy).Contents (Elt F) → (⟨S1024x50, .f32⟩ : BufTy).Contents (Elt F)),
    binary main_v60 main_v75 main_v76 ((fun a b => concatenate S1024x114 1 [⟨S1024x64, a⟩, ⟨S1024x50, b⟩] concatenates_S1024x64_S1024x50_S1024x114_d1) : (⟨S1024x64, .f32⟩ : BufTy).Contents (Elt F) → (⟨S1024x50, .f32⟩ : BufTy).Contents (Elt F) → (⟨S1024x114, .f32⟩ : BufTy).Contents (Elt F)),
    binary main_v76 main_arg14 main_v77 ((fun l r => Host.dotGeneral dot_S1024x114_S114x1_S1024x1_1_0_0_1_n_n none l r) : (⟨S1024x114, .f32⟩ : BufTy).Contents (Elt F) → (⟨S114x1, .f32⟩ : BufTy).Contents (Elt F) → (⟨S1024x1, .f32⟩ : BufTy).Contents (Elt F)),
    unary main_arg15 main_v78 (broadcastInDim S1x1 ![1] bcast_S1_S1x1_1 : (⟨S1, .f32⟩ : BufTy).Contents (Elt F) → (⟨S1x1, .f32⟩ : BufTy).Contents (Elt F)),
    unary main_v78 main_v79 (broadcastInDim S1024x1 ![0, 1] bcast_S1x1_S1024x1_0_1 : (⟨S1x1, .f32⟩ : BufTy).Contents (Elt F) → (⟨S1024x1, .f32⟩ : BufTy).Contents (Elt F)),
    binary main_v77 main_v79 main_v80 (addf : (⟨S1024x1, .f32⟩ : BufTy).Contents (Elt F) → (⟨S1024x1, .f32⟩ : BufTy).Contents (Elt F) → (⟨S1024x1, .f32⟩ : BufTy).Contents (Elt F)),
    reshape main_v80 main_v81 rfl shapeCasts_S1024x1_S1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., binary_bufs_sub .., binary_bufs_sub .., unary_bufs_sub .., unary_bufs_sub .., binary_bufs_sub .., reshape_bufs_sub .., binary_bufs_sub .., reshape_bufs_sub .., unary_bufs_sub .., unary_bufs_sub .., unary_bufs_sub .., unary_bufs_sub .., binary_bufs_sub .., unary_bufs_sub .., nullary_bufs_sub .., binary_bufs_sub .., unary_bufs_sub .., unary_bufs_sub .., nullary_bufs_sub .., binary_bufs_sub .., nullary_bufs_sub .., unary_bufs_sub .., binary_bufs_sub .., binary_bufs_sub .., binary_bufs_sub .., unary_bufs_sub .., unary_bufs_sub .., binary_bufs_sub .., reshape_bufs_sub ..⟩

set_option maxRecDepth 8192 in
set_option maxHeartbeats 38400000 in
/-- On every device, for any float values, from any memory with zero counters: every weakly fair execution of
    @main terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = Cert.ReferenceIdeal.ReadP.val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v81).trans (by after_results_simp <;> chain_rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.ReferenceIdeal.RunP

end
-- ==== Proof.lean ====
/-
  The certificate's claim: the three frames, the (empty) idealization ledger, and the equality of the two idealized
  programs' results over the extended reals.

  The discriminator's program is two kernel regions among host reshapes. The feature region maps the input rows
  through three leaky-rectified dense layers (the middle one normalised over the batch), a value and an output
  projection added back to the features, and a projection onto 50 kernels of 5 coordinates; the all-pairs region sums,
  for each row and kernel, exp(−L1 distance) to every row in tiles of 128 rows, removes the self term, and scores the
  joined features against one column. The reference computes the same with whole-array operations.
  * The frames of the two kernel programs are the hand-assembled runs of Proof/K/Frame.lean and Proof/KI/Frame.lean;
    the reference's frame is its run with the result dropped.
  * The idealization rewrote nothing, so `preserves` has nothing to state.
  * At the ideal instance both programs end at `PairScore.score h M Ws bs` for the same feature rows `h` and projected
    rows `M`: the kernel side through the regions' exit arrays, the reference side through its stage functions.
-/
import proofs.«145154_j42898133352735_2_alg».proof.Defs
import proofs.«145154_j42898133352735_2_alg».proof.Proof.Gen.Kernel
import proofs.«145154_j42898133352735_2_alg».proof.Proof.Gen.KernelIdeal
import proofs.«145154_j42898133352735_2_alg».proof.Proof.Gen.ReferenceIdeal
import proofs.«145154_j42898133352735_2_alg».proof.Proof.Gen.Pre_finite_inputs
import proofs.«145154_j42898133352735_2_alg».proof.Proof.K.Frame
import proofs.«145154_j42898133352735_2_alg».proof.Proof.KI.KernelValue
import proofs.«145154_j42898133352735_2_alg».proof.Proof.RefRun
import proofs.«145154_j42898133352735_2_alg».proof.Proof.RefValue

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments as launched: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the arguments both idealized programs run, and both results are the specification's
    score of the reference's feature rows and projected rows of those arguments. No finiteness is used: the two sides
    differ by the grouping of sums, the order inside an absolute difference, and the cut of one contraction in two, all
    of which hold on every extended real. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.V5 m (Cert.KernelIdeal.Hand.outs m) c Cert.KernelIdeal.main_v8,
    Cert.KernelIdeal.Hand.run_value (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.ref_result, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.KernelIdeal.Hand.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
